-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  reducesTo_S8192x512_S8192_d1 : S8192x512.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := mulf main_arg0 main_arg0
  let main_cst_0 : FVec F S_ .f32 := constant S_ .f32 0x00000000#32
  let main_v5 : FVec F S8192 .f32 := (fun x v => Host.reduceAdd x v reducesTo_S8192x512_S8192_d1 h_S_) main_v4 main_cst_0
  let main_cst_1 : FVec F S_ .f32 := constant S_ .f32 0x00000000#32
  let main_v6 : FVec F S8192 .f32 := broadcastInDim S8192 ![] bcast_S_S8192 main_cst_1
  let main_v7 : IVec S8192 1 := cmpf .ogt main_v5 main_v6
  let main_c_2 : IVec S_ 1 := constantI S_ 1 1#1
  let main_v8 : IVec S_ 1 := (fun x v => Host.reduce IntOp.andi x v reducesTo_S8192_S_d0 h_S_) main_v7 main_c_2
  let main_v9 : IVec S_ 1 := andi main_v3 main_v8
  main_v9
-- ==== Kernel.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x512 : Shape := ⟨2, ![1024, 512]⟩
abbrev S512x512 : Shape := ⟨2, ![512, 512]⟩
abbrev S1024x1 : Shape := ⟨2, ![1024, 1]⟩
abbrev S1x512 : Shape := ⟨2, ![1, 512]⟩
abbrev S1024 : Shape := ⟨1, ![1024]⟩

abbrev nBuf : Space → Nat
  | .hbm => 25
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x512, .f32⟩
  | .hbm, ⟨8, _⟩ => ⟨S8192x512, .f32⟩
  | .hbm, ⟨9, _⟩ => ⟨S8192x512, .bf16⟩
  | .hbm, ⟨10, _⟩ => ⟨S8192x1, .i32⟩
  | .hbm, ⟨11, _⟩ => ⟨S1x8192, .i32⟩
  | .hbm, ⟨12, _⟩ => ⟨S8192x1, .f32⟩
  | .hbm, ⟨13, _⟩ => ⟨S8192x1, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond3 (i : grid0.Coords) : BitVec 1 :=
  let arg1 : BitVec 32 := BitVec.ofNat 32 (i 1).val
  let c15_i32 : BitVec 32 := 15#32
  let v54 : BitVec 1 := Scalar.cmpi .eq arg1 c15_i32
  let v55 : BitVec 32 := Scalar.extui v54
  let c0_i32_28 : BitVec 32 := 0#32
  let v56 : BitVec 1 := Scalar.cmpi .ne v55 c0_i32_28
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  natLt_1_32 : 1 < 32
  reduces_S1024x512_S1024 : S1024x512.Reduces [1] S1024
  shapeCasts_S1024_S1024x1 : S1024.ShapeCasts S1024x1
  iota_S1024x512_d0_w32 : S1024x512.Iotas .tc 32 [0]
  iota_S1024x512_d1_w32 : S1024x512.Iotas .tc 32 [1]
  shapeCasts_S8192x1_S8192 : S8192x1.ShapeCasts S8192
  reducesTo_S8192_S_d0 : S8192.ReducesTo [0] S_
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .bf16 = 32 ∨ (Rect.block (s := S8192x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v3) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond3 i == 1#1) | 5 => fun i => !(k0_cond3 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 69
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x512, .f32⟩
  | .hbm, ⟨8, _⟩ => ⟨S8192x512, .f32⟩
  | .hbm, ⟨9, _⟩ => ⟨S8192x1, .i32⟩
  | .hbm, ⟨10, _⟩ => ⟨S1x8192, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8192x8192, .f32⟩
  | .hbm, ⟨15, _⟩ => ⟨S8192x8192, .i32⟩
  | .hbm, ⟨16, _⟩ => ⟨S8192x8192, .i32⟩
  | .hbm, ⟨17, _⟩ => ⟨S_, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S512x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .i1⟩
  | .hbm, ⟨52, _⟩ => ⟨S8192, .f32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S8192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  transposes_S8192x512_S512x8192_1_0 : S8192x512.Transposes [1, 0] S512x8192
  reducesTo_S8192x8192_S8192_d1 : S8192x8192.ReducesTo [1] S8192
  bcast_S_S8192x1 : S_.BroadcastsInDim S8192x1 (![] : Fin 0 → Fin S8192x1.rank)
  bcast_S_S8192 : S_.BroadcastsInDim S8192 (![] : Fin 0 → Fin S8192.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.KernelBody.lean ====
/-
  The kernel body as a separation-logic triple, stated relationally: what the body needs and what it gives back,
  naming no value it computes.

  The body is handed nine whole VMEM buffers: the row tile of the normalised features (1024 × 512), the column
  tile (512 × 512), the row tile's labels (1024 × 1), the column tile's labels (1 × 512), the two result tiles
  (1024 × 1 each) and three accumulators (1024 × 1 each: the running sum of shifted exponentials, the running
  count of equal labels, the running sum of equal-label similarities). Whatever the grid position — the first
  column step (the accumulators are reset), a tile meeting the diagonal (the self terms are taken back out), the
  last column step (the two results are written) — every load is of a whole buffer it holds and every store
  covers a whole buffer it holds. So from the four inputs at any contents and the five other buffers at anything,
  the body runs to its end without a fault and returns the four inputs as they were and the five others at some
  contents. The three branch conditions are decided by cases; each of the eight combinations runs the same way.
-/
import proofs.«127494_j85907935854913_2_alg».proof.Proof.Gen.Kernel.Launch
import proofs.«127494_j85907935854913_2_alg».proof.Proof.Gen.Kernel.Skeleton
import proofs.«127494_j85907935854913_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first column step: the second grid coordinate is zero. -/
abbrev firstStep (i : grid0.Coords) : Prop :=
  Scalar.cmpi .ne (Scalar.extui (Scalar.cmpi .eq (BitVec.ofNat 32 (i 1).val) 0#32)) 0#32 = 1#1

/-- The tile meets the diagonal: its row range [1024·i₀, 1024·i₀ + 1024) and its column range
    [512·i₁, 512·i₁ + 512) intersect. -/
abbrev meetsDiagonal (i : grid0.Coords) : Prop :=
  Scalar.cmpi .ne (Scalar.extui (Scalar.andi
      (Scalar.cmpi .slt (Scalar.muli (BitVec.ofNat 32 (i 0).val) 1024#32) (Scalar.addi (Scalar.muli (BitVec.ofNat 32 (i 1).val) 512#32) 512#32))
      (Scalar.cmpi .slt (Scalar.muli (BitVec.ofNat 32 (i 1).val) 512#32) (Scalar.addi (Scalar.muli (BitVec.ofNat 32 (i 0).val) 1024#32) 1024#32)))) 0#32 = 1#1

set_option maxHeartbeats 4000000 in
/-- The body's triple at any grid position: the four inputs kept, the two results and the three accumulators
    taken at anything and returned at something. -/
theorem bodyRun (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (x0 : Vec F S1024x512 .bf16) (x1 : Vec F S512x512 .bf16) (x2 : Vec F S1024x1 .i32) (x3 : Vec F S1x512 .i32) :
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (∃ d, owns (c : Thread nD τ) arg10 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ d, owns (c : Thread nD τ) arg6 fullShare d) ∗ (∃ d, owns (c : Thread nD τ) arg7 fullShare d)
                ∗ (∃ d, owns (c : Thread nD τ) arg8 fullShare d) ∗ (∃ d, owns (c : Thread nD τ) arg9 fullShare d)
                ∗ (∃ d, owns (c : Thread nD τ) arg10 fullShare d)) -∗ K ⟨⟩))
          ⊢ wp frame (wpE (defs₀ (F := F)) Variants.none c none) E
              (cc0__supcon_kernel i arg2 harg2 arg3 harg3 arg4 harg4 arg5 harg5 arg6 harg6 arg7 harg7 arg8 harg8 arg9 harg9 arg10 harg10) K := by
    intro E K
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := harg2.eq_unread hf0
    obtain rfl := harg3.eq_unread hf1
    obtain rfl := harg4.eq_unread hf2
    obtain rfl := harg5.eq_unread hf3
    by_cases hc1 : firstStep i <;> by_cases hc2 : meetsDiagonal i <;> by_cases hc3 : k0_cond3 i = 1#1
    all_goals
      sl_exec (disch := first | exact hc1 | exact hc2 | exact hc3)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _, _; isplitr; swap; · iexact H4
        ipureintro; rfl
      isplitl [H5]
      · iexists _, _; isplitr; swap; · iexact H5
        ipureintro; rfl
      isplitl [H6]
      · iexists _, _; isplitr; swap; · iexact H6
        ipureintro; rfl
      isplitl [H7]
      · iexists _, _; isplitr; swap; · iexact H7
        ipureintro; rfl
      iexists _, _; isplitr; swap; · iexact H8
      ipureintro; rfl

end Cert.Kernel.Body

end
-- ==== Proof.KernelFrameData.lean ====
/-
  The proof data of the kernel program's frame and its body obligation.

  @main is four stretches: the row norms (five host operations), the normalisation and the two reshapes of the labels
  (five host operations), ONE kernel region over an 8 × 16 grid, and the final reduction of the two per-row results
  to the loss (eleven host operations). The region has six windows: the row tile and the column tile of the
  normalised features — two windows on ONE array, each holding half of it, both only read —, the labels as a column
  and as a row, and the two per-row results, written back at the last column step of each row tile. Three scoped
  accumulators are carried from column step to column step.

  Nothing the kernel computes is named here: the inputs' staging buffers hold their blocks, the results' and the
  accumulators' hold anything. The body's triple (the companion module) holds whichever branches are taken, so the
  body obligation is one lemma. The launch is the library's theorem for @main as a list of segments; the arguments
  are never written by a host operation and never staged for writing, so they are read back at the end as launched.
-/
import proofs.«127494_j85907935854913_2_alg».proof.Proof.KernelBody
import Idealize.ShloMosaic.Lib.Pipeline.Regions
import Idealize.ShloMosaic.Lib.Pipeline.Frame
import Idealize.ShloMosaic.Lib.Pipeline.FrameBody

set_option maxRecDepth 16384

noncomputable section

namespace Cert.Kernel.Frame

open Cert.Kernel Cert.Kernel.Gen Cert.Kernel.Body
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers at launch, -/
abbrev V₀ (c : Dev nD) : Valuation τ sig (Elt F) := fun b => (s₀ m ρ).mem ((c : Dev nD), b)
/-- after the row norms (the sum of squares of each row, its square root), -/
abbrev V₁ (c : Dev nD) : Valuation τ sig (Elt F) := StableHlo.after hostOps0 (V₀ m ρ c)
/-- and when the region is entered: the rows divided by their norms, the labels as a column and as a row. -/
def V₂ (c : Dev nD) : Valuation τ sig (Elt F) := StableHlo.after hostOps0_1 (V₁ m ρ c)
/-- The same, read at a TensorCore reference. -/
def V (c : Dev nD) (b : Ref sig .tc) : Buf (Elt F) ((c : Thread nD τ).loc b) := V₂ m ρ c b

/-! ## The proof data: inputs at their blocks, results unnamed -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-- The two result windows: nothing of what the kernel leaves in them is named here. -/
def forgets0 : Fin 6 → Bool := fun w => w.val == 4 || w.val == 5

/-- The proof data on core `c`. The row tile and the column tile are windows on ONE array (the normalised features):
    each holds half of it. The invariant is the three accumulators at any contents. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, h⟩ => Pipeline.Dat.unnamed (cfg := cfg0) ⟨4, h⟩ t
    | ⟨5, h⟩ => Pipeline.Dat.unnamed (cfg := cfg0) ⟨5, h⟩ t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m ρ 0 c).A w = V m ρ c (Pipeline.arrRef spec0 w) := by
  dsimp only [dats]

theorem after0_0 (c : Dev nD) (t : Fin cfg0.N) : (dats m ρ 0 c).after 0 t = iblk m ρ c 0 t := by dsimp only [dats]
theorem after0_1 (c : Dev nD) (t : Fin cfg0.N) : (dats m ρ 0 c).after 1 t = iblk m ρ c 1 t := by dsimp only [dats]
theorem after0_2 (c : Dev nD) (t : Fin cfg0.N) : (dats m ρ 0 c).after 2 t = iblk m ρ c 2 t := by dsimp only [dats]
theorem after0_3 (c : Dev nD) (t : Fin cfg0.N) : (dats m ρ 0 c).after 3 t = iblk m ρ c 3 t := by dsimp only [dats]

/-- Each input's current staging buffer holds its block at every point, fetched there or not: unfetched, the block
    index has not moved since the fetch. -/
theorem before0_0 (c : Dev nD) (t : Fin cfg0.N) (d) : (dats m ρ 0 c).before 0 t d = iblk m ρ c 0 t :=
  ((dats m ρ 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m ρ 0 c).before 1 t d = iblk m ρ c 1 t :=
  ((dats m ρ 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m ρ 0 c).before 2 t d = iblk m ρ c 2 t :=
  ((dats m ρ 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m ρ 0 c).before 3 t d = iblk m ρ c 3 t :=
  ((dats m ρ 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation -/

abbrev 𝒱₀ : Variants := Variants.none

/-- What the body is called with at point `t`: the accumulators at anything, the inputs at their blocks, the results
    at anything; -/
def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d))
    ∗ (∃ d, owns (c : Thread nD τ) (st0_4 t) fullShare d)
    ∗ (∃ d, owns (c : Thread nD τ) (st0_5 t) fullShare d))

/-- and what it returns. -/
def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t)
    ∗ (∃ d, owns (c : Thread nD τ) (st0_4 t) fullShare d)
    ∗ (∃ d, owns (c : Thread nD τ) (st0_5 t) fullShare d))

/-- A scoped buffer held whole at some contents is the whole-buffer memref owned at some contents, -/
theorem owns_of_pt (c : Dev nD) (b : Ref sig .tc) :
    (iprop(∃ f : Buf (Elt F) ((c : Thread nD τ).loc b), (((c : Thread nD τ).loc b) ↦{fullShare} f)) : sProp 𝕄)
      ⊢ iprop(∃ d, owns (c : Thread nD τ) (Memref.whole b) fullShare d) := by
  iintro ⟨%f, H⟩
  iexists f
  iapply (Entails.of_eq (owns_whole_eq (c : Thread nD τ) b fullShare f).symm)
  iexists f; isplitr; · ipureintro; rfl
  iexact H

/-- and back. -/
theorem pt_of_owns (c : Dev nD) (b : Ref sig .tc) :
    (iprop(∃ d, owns (c : Thread nD τ) (Memref.whole b) fullShare d) : sProp 𝕄)
      ⊢ iprop(∃ f : Buf (Elt F) ((c : Thread nD τ).loc b), (((c : Thread nD τ).loc b) ↦{fullShare} f)) := by
  iintro ⟨%d, H⟩
  ihave H' := (Entails.of_eq (owns_whole_eq (c : Thread nD τ) b fullShare d)) $$ H
  icases H' with ⟨%f, -, H'⟩
  iexists f; iexact H'

set_option maxHeartbeats 2000000 in
/-- The body at any point: the inputs' buffers hold their blocks, the accumulators are taken out of the invariant at
    whatever they hold and put back at whatever the body left, the results go in and come out unnamed. -/
theorem sound_body (c : Dev nD) (t : Fin cfg0.N) :
    bodyPre m ρ c t ⊢ wp frame (wpE (defs₀ (F := F)) 𝒱₀ c none) Set.univ (bodyAt0 t) (fun _ => bodyPost m ρ c t) := by
  unfold bodyPre bodyPost bodyAt0
  simp only [before0_0, before0_1, before0_2, before0_3, after0_0, after0_1, after0_2, after0_3]
  rw [show (dats m ρ 0 c).Φ t.succ = (dats m ρ 0 c).Φ t.castSucc from rfl,
    show (dats m ρ 0 c).owesAt () t.succ = (dats m ρ 0 c).owesAt () t.castSucc from rfl,
    show (dats m ρ 0 c).Φ t.castSucc = Pipeline.scopedRest (Ix := Unit) (Name := ℕ) (U := UR sig nD τ) (Lvl := ℕ) (Val := Elt F) spec0 c from rfl,
    scopedRest0_eq]
  iintro ⟨⟨Hs0, Hs1, Hs2⟩, Ho, ⟨%d0, H0⟩, ⟨%d1, H1⟩, ⟨%d2, H2⟩, ⟨%d3, H3⟩, H4, H5⟩
  ihave Hs0 := (owns_of_pt c cc0_scratch0) $$ Hs0
  ihave Hs1 := (owns_of_pt c cc0_scratch1) $$ Hs1
  ihave Hs2 := (owns_of_pt c cc0_scratch2) $$ Hs2
  iapply ((bodyRun c (grid0.coords t) _ _ _ _ _ _ _ _ _ _ _ _ _ _ _ _ _ _ (iblk m ρ c 0 t) (iblk m ρ c 1 t) (iblk m ρ c 2 t) (iblk m ρ c 3 t)) Set.univ _)
  isplitl [H0]; · iexact H0
  isplitl [H1]; · iexact H1
  isplitl [H2]; · iexact H2
  isplitl [H3]; · iexact H3
  isplitl [H4]; · iexact H4
  isplitl [H5]; · iexact H5
  isplitl [Hs0]; · iexact Hs0
  isplitl [Hs1]; · iexact Hs1
  isplitl [Hs2]; · iexact Hs2
  iintro ⟨H0, H1, H2, H3, H4, H5, Hs0, Hs1, Hs2⟩
  ihave Hs0 := (pt_of_owns c cc0_scratch0) $$ Hs0
  ihave Hs1 := (pt_of_owns c cc0_scratch1) $$ Hs1
  ihave Hs2 := (pt_of_owns c cc0_scratch2) $$ Hs2
  isplitl [Hs0 Hs1 Hs2]
  · isplitl [Hs0]; · iexact Hs0
    isplitl [Hs1]; · iexact Hs1
    iexact Hs2
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m ρ 0 c) (defs₀ (F := F)) 𝒱₀ () Set.univ forgets0 := fun t => by
  rw [bigSep_W0, bigSep_W0]
  exact sound_body m ρ c t

end Cert.Kernel.Frame

end
-- ==== Proof.KernelFrame.lean ====
/-
  The frame of the kernel program: every weakly fair execution of @main terminates, nothing faults, and the two
  argument arrays end as they began.

  @main is four stretches: the row norms (five host operations), the normalisation and the two reshapes of the labels
  (five host operations), ONE kernel region over an 8 × 16 grid, and the final reduction of the two per-row results
  to the loss (eleven host operations). The region has six windows: the row tile and the column tile of the
  normalised features — two windows on ONE array, each holding half of it, both only read —, the labels as a column
  and as a row, and the two per-row results, written back at the last column step of each row tile. Three scoped
  accumulators are carried from column step to column step.

  Nothing the kernel computes is named here: the inputs' staging buffers hold their blocks, the results' and the
  accumulators' hold anything. The body's triple (the companion module) holds whichever branches are taken, so the
  body obligation is one lemma. The launch is the library's theorem for @main as a list of segments; the arguments
  are never written by a host operation and never staged for writing, so they are read back at the end as launched.
-/
import proofs.«127494_j85907935854913_2_alg».proof.Proof.KernelFrameData

set_option maxRecDepth 16384

noncomputable section

namespace Cert.Kernel.Frame

open Cert.Kernel Cert.Kernel.Gen Cert.Kernel.Body
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev EP : Emb (UR sig nD τ) (MT nD τ sig Unit (Elt F) ℕ (UR sig nD τ) ℕ) := emb₁

variable (m : (ℓ : Loc nD τ sig) → Buf (Elt F) ℓ) (ρ : Dev nD → PrngReg)

abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev R (c : Dev nD) : sProp 𝕄 := iprop(∃ W, owes (c : Thread nD τ) (0 : CellTallies nD τ sig Unit) W)
def u₀ : UR sig nD τ := initOf (Pipeline.cells cfgs cellOf_inj) (Pipeline.launchToks cfgs cellOf_inj)

/-- The relational proof data: the two results forgotten. -/
abbrev rdats (p : Fin 1) (c : Dev nD) := (dats m ρ p c).toRForget forgets0

theorem fresh0 : ∀ op ∈ (hostOps0 (F := F)), op.fresh = ∅ := by
  intro _ h; (repeat (cases h with | head => rfl | tail _ h => ?_)); exact nomatch h
theorem fresh0_1 : ∀ op ∈ (hostOps0_1 (F := F)), op.fresh = ∅ := by
  intro _ h; (repeat (cases h with | head => rfl | tail _ h => ?_)); exact nomatch h
theorem fresh1 : ∀ op ∈ (hostOps1 (F := F)), op.fresh = ∅ := by
  intro _ h; (repeat (cases h with | head => rfl | tail _ h => ?_)); exact nomatch h

/-- The row norms, over every unscoped buffer. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) fresh0 (V₀ m ρ) R

/-- The normalisation and the labels' reshapes. -/
def seg1 : Pipeline.HostSeg (Name := ℕ) (U := UR sig nD τ) (pcfgs (F := F)) defs₀ 𝒱₀ L lv :=
  Pipeline.HostSeg.ofOps _ _ _ _ _ (Pipeline.ucRefs τ sig) hostOps0_1
    (fun op h => Pipeline.sub_ucRefs op ((List.forall_iff_forall_mem.mp hostOps0_1_sub) op h)) fresh0_1 (V₁ m ρ) R

/-- No host operation before the region writes an argument: each reaches the region as launched. -/
theorem V₂_arg0 (c : Dev nD) : V₂ m ρ c (Proc.devRef .tc main_arg0) = m ((c : Thread nD τ).loc main_arg0) := by
  show StableHlo.after hostOps0_1 (StableHlo.after hostOps0 (V₀ m ρ c)) (Proc.devRef .tc main_arg0) = _
  after_results
theorem V₂_arg1 (c : Dev nD) : V₂ m ρ c (Proc.devRef .tc main_arg1) = m ((c : Thread nD τ).loc main_arg1) := by
  show StableHlo.after hostOps0_1 (StableHlo.after hostOps0 (V₀ m ρ c)) (Proc.devRef .tc main_arg1) = _
  after_results
/-- Nor does the final reduction. -/
theorem tail_arg0 (W : Valuation τ sig (Elt F)) : StableHlo.after hostOps1 W (Proc.devRef .tc main_arg0) = W (Proc.devRef .tc main_arg0) := by
  after_results
theorem tail_arg1 (W : Valuation τ sig (Elt F)) : StableHlo.after hostOps1 W (Proc.devRef .tc main_arg1) = W (Proc.devRef .tc main_arg1) := by
  after_results

/-- What the region leaves: every unscoped buffer whole at SOME valuation that agrees with the region's entry on the
    two arguments. -/
def Tmid (c : Dev nD) : sProp 𝕄 :=
  iprop(∃ W : Valuation τ sig (Elt F), ⌜W (Proc.devRef .tc main_arg0) = V₂ m ρ c (Proc.devRef .tc main_arg0) ∧ W (Proc.devRef .tc main_arg1) = V₂ m ρ c (Proc.devRef .tc main_arg1)⌝
    ∗ StableHlo.held (c : Thread nD τ) (Pipeline.ucRefs τ sig) W ∗ R c)

/-- The final reduction, from any such valuation to another. -/
def seg2 : Pipeline.HostSeg (Name := ℕ) (U := UR sig nD τ) (pcfgs (F := F)) defs₀ 𝒱₀ L lv where
  prog := StableHlo.seq hostOps1
  pre c := Tmid m ρ c
  post c := Tmid m ρ c
  run c {β} k K := by
    unfold Tmid
    iintro ⟨Hk, Hbd, ⟨%W, %hW, Hh, HR⟩, Hl⟩
    have hrun := (Pipeline.HostSeg.ofOps (Name := ℕ) (U := UR sig nD τ) (pcfgs (F := F)) defs₀ 𝒱₀ L lv (Pipeline.ucRefs τ sig) hostOps1
      (fun op h => Pipeline.sub_ucRefs op ((List.forall_iff_forall_mem.mp hostOps1_sub) op h)) fresh1 (fun _ => W) R).run c k K
    dsimp only [Pipeline.HostSeg.ofOps] at hrun
    iapply hrun
    isplitl [Hk]
    · iintro ⟨Hbd, Hh, HR⟩
      iapply Hk
      isplitl [Hbd]; · iexact Hbd
      iexists (StableHlo.after hostOps1 W)
      isplitr
      · ipureintro; exact ⟨(tail_arg0 W).trans hW.1, (tail_arg1 W).trans hW.2⟩
      isplitl [Hh]; · iexact Hh
      iexact HR
    isplitl [Hbd]; · iexact Hbd
    isplitl [Hh HR]
    · isplitl [Hh]; · iexact Hh
      iexact HR
    iexact Hl

/-- The windows' arrays, each as its whole buffer at the window's share. -/
theorem arrays_shares (c : Dev nD) (G : (w : Fin cfg0.W) → Buf (Elt F) ((cfg0.win w).arr.view.loc (c : Thread nD τ))) :
    (rdats m ρ 0 c).arrays G
      = bigSep Finset.univ fun w => ((((c : Thread nD τ).loc (Pipeline.arrRef spec0 w)) ↦{(rdats m ρ 0 c).share w} G w : sProp 𝕄)) := by
  unfold Pipeline.RDat.arrays
  exact bigSep_congr fun w _ => by rw [(arr_whole0 w).set_eq_univ]

/-- The same after the write-backs below `n`. -/
theorem arraysAt_shares (c : Dev nD) (n : Nat) :
    (rdats m ρ 0 c).arraysAt n
      = bigSep Finset.univ fun w => (iprop(∃ G, ⌜(rdats m ρ 0 c).ArrAt w n G⌝
          ∗ (((c : Thread nD τ).loc (Pipeline.arrRef spec0 w)) ↦{(rdats m ρ 0 c).share w} G)) : sProp 𝕄) := by
  unfold Pipeline.RDat.arraysAt
  exact bigSep_congr fun w _ => by rw [(arr_whole0 w).set_eq_univ]

/-- ENTRY, the arrays: the five distinct buffers behind the six windows, each whole at the region-entry contents, are the
    windows' arrays at those contents — the normalised features split in two halves, one per window on it. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v3) ↦{fullShare} W main_v3) ∗ (((c : Thread nD τ).loc main_v4) ↦{fullShare} W main_v4)
          ∗ (((c : Thread nD τ).loc main_v5) ↦{fullShare} W main_v5) ∗ (((c : Thread nD τ).loc main_v6_0) ↦{fullShare} W main_v6_0)
          ∗ (((c : Thread nD τ).loc main_v6_1) ↦{fullShare} W main_v6_1)) :=
  bigSep_eq_bigSepL_of_eq [main_v3, main_v4, main_v5, main_v6_0, main_v6_1] (by decide) (by decide) _

theorem arrays_of_arrBufs (c : Dev nD) :
    (Pipeline.arrBufs (Ix := Unit) (Name := ℕ) (U := UR sig nD τ) (Lvl := ℕ) spec0 c (V m ρ c) : sProp 𝕄)
      ⊢ (rdats m ρ 0 c).arrays (rdats m ρ 0 c).A := by
  rw [arrBufs_eq, arrays_shares, bigSep_W0]
  iintro ⟨H3, H4, H5, H60, H61⟩
  have hhalves : ((((c : Thread nD τ).loc main_v3) ↦{fullShare} V m ρ c main_v3) : sProp 𝕄)
      ⊢ iprop((((c : Thread nD τ).loc main_v3) ↦{fullShare.left} V m ρ c main_v3) ∗ (((c : Thread nD τ).loc main_v3) ↦{fullShare.right} V m ρ c main_v3)) :=
    (pointsTo_share (PosShare.mem_left_op_right fullShare)).1
  ihave H3' := hhalves $$ H3
  icases H3' with ⟨H3l, H3r⟩
  isplitl [H3l]; · iexact H3l
  isplitl [H3r]; · iexact H3r
  isplitl [H4]; · iexact H4
  isplitl [H5]; · iexact H5
  isplitl [H60]; · iexact H60
  iexact H61

/-- The valuation the region leaves: the entry valuation, the two results' buffers at what the write-backs left. -/
def Wout (c : Dev nD) (F4 : Buf (Elt F) ((c : Thread nD τ).loc main_v6_0)) (F5 : Buf (Elt F) ((c : Thread nD τ).loc main_v6_1)) :
    Valuation τ sig (Elt F) :=
  Function.update (Function.update (V₂ m ρ c) (Proc.devRef .tc main_v6_0) F4) (Proc.devRef .tc main_v6_1) F5

theorem Wout_v6_1 (c : Dev nD) (F4 : Buf (Elt F) ((c : Thread nD τ).loc main_v6_0)) (F5 : Buf (Elt F) ((c : Thread nD τ).loc main_v6_1)) :
    Wout m ρ c F4 F5 (Proc.devRef .tc main_v6_1) = F5 := by
  unfold Wout; exact Function.update_self ..

theorem Wout_v6_0 (c : Dev nD) (F4 : Buf (Elt F) ((c : Thread nD τ).loc main_v6_0)) (F5 : Buf (Elt F) ((c : Thread nD τ).loc main_v6_1)) :
    Wout m ρ c F4 F5 (Proc.devRef .tc main_v6_0) = F4 := by
  unfold Wout
  rw [Function.update_of_ne (StableHlo.devRef_ne_of_ne (by decide))]
  exact Function.update_self ..

theorem Wout_other (c : Dev nD) (F4 : Buf (Elt F) ((c : Thread nD τ).loc main_v6_0)) (F5 : Buf (Elt F) ((c : Thread nD τ).loc main_v6_1))
    (b : Ref sig .tc) (h0 : b ≠ main_v6_0) (h1 : b ≠ main_v6_1) :
    Wout m ρ c F4 F5 (Proc.devRef .tc b) = V₂ m ρ c (Proc.devRef .tc b) := by
  unfold Wout
  rw [Function.update_of_ne (StableHlo.devRef_ne_of_ne h1), Function.update_of_ne (StableHlo.devRef_ne_of_ne h0)]

/-- The buffers no window stages hold the same at the two valuations. -/
theorem rest_congr (c : Dev nD) (F4 : Buf (Elt F) ((c : Thread nD τ).loc main_v6_0)) (F5 : Buf (Elt F) ((c : Thread nD τ).loc main_v6_1)) :
    (Pipeline.unscopedRest (Ix := Unit) (Name := ℕ) (U := UR sig nD τ) (Lvl := ℕ) spec0 c (fun b => Wout m ρ c F4 F5 b) : sProp 𝕄)
      = Pipeline.unscopedRest (Ix := Unit) (Name := ℕ) (U := UR sig nD τ) (Lvl := ℕ) spec0 c (V m ρ c) := by
  unfold Pipeline.unscopedRest
  refine bigSep_congr fun b hb => ?_
  have hb' := (Finset.mem_sdiff.mp hb).2
  have h0 : b ≠ main_v6_0 := fun e => hb' (e ▸ Finset.mem_image.mpr ⟨4, Finset.mem_univ _, rfl⟩)
  have h1 : b ≠ main_v6_1 := fun e => hb' (e ▸ Finset.mem_image.mpr ⟨5, Finset.mem_univ _, rfl⟩)
  show ((c : Thread nD τ).loc b ↦{fullShare} Wout m ρ c F4 F5 (Proc.devRef .tc b)) = _
  rw [Wout_other m ρ c F4 F5 b h0 h1]
  rfl

set_option maxHeartbeats 4000000 in
/-- EXIT, the arrays: the four inputs' arrays come back as they went in (an input window is never written back), the
    two halves of the normalised features rejoin, and with the buffers no window stages they are every unscoped
    buffer, whole, at a valuation that agrees with the entry on the arguments. -/
theorem exit_held (c : Dev nD) :
    (iprop((rdats m ρ 0 c).arraysAt cfg0.N ∗ Pipeline.unscopedRest (Ix := Unit) (Name := ℕ) (U := UR sig nD τ) (Lvl := ℕ) spec0 c (V m ρ c)) : sProp 𝕄)
      ⊢ iprop(∃ W : Valuation τ sig (Elt F), ⌜W (Proc.devRef .tc main_arg0) = V₂ m ρ c (Proc.devRef .tc main_arg0) ∧ W (Proc.devRef .tc main_arg1) = V₂ m ρ c (Proc.devRef .tc main_arg1)⌝
          ∗ StableHlo.held (c : Thread nD τ) (Pipeline.ucRefs τ sig) W) := by
  rw [arraysAt_shares, bigSep_W0]
  iintro ⟨⟨⟨%F0, %h0, H0⟩, ⟨%F1, %h1, H1⟩, ⟨%F2, %h2, H2⟩, ⟨%F3, %h3, H3⟩, ⟨%F4, -, H4⟩, ⟨%F5, -, H5⟩⟩, HZ⟩
  have e0 : F0 = (rdats m ρ 0 c).A 0 := Eq.mp (congrFun ((rdats m ρ 0 c).ArrAt_in 0 rfl _) _) h0
  have e1 : F1 = (rdats m ρ 0 c).A 1 := Eq.mp (congrFun ((rdats m ρ 0 c).ArrAt_in 1 rfl _) _) h1
  have e2 : F2 = (rdats m ρ 0 c).A 2 := Eq.mp (congrFun ((rdats m ρ 0 c).ArrAt_in 2 rfl _) _) h2
  have e3 : F3 = (rdats m ρ 0 c).A 3 := Eq.mp (congrFun ((rdats m ρ 0 c).ArrAt_in 3 rfl _) _) h3
  subst e0 e1 e2 e3
  have hjoin : (iprop((((c : Thread nD τ).loc main_v3) ↦{fullShare.left} V m ρ c main_v3) ∗ (((c : Thread nD τ).loc main_v3) ↦{fullShare.right} V m ρ c main_v3)) : sProp 𝕄)
      ⊢ (((c : Thread nD τ).loc main_v3) ↦{fullShare} V m ρ c main_v3) :=
    (pointsTo_share (PosShare.mem_left_op_right fullShare)).2
  ihave H3full := hjoin $$ [H0 H1]
  · isplitl [H0]; · iexact H0
    iexact H1
  iexists (Wout m ρ c F4 F5)
  isplitr
  · ipureintro
    exact ⟨Wout_other m ρ c F4 F5 main_arg0 (by decide) (by decide), Wout_other m ρ c F4 F5 main_arg1 (by decide) (by decide)⟩
  rw [← Pipeline.unscopedBufs_held c (Wout m ρ c F4 F5), Pipeline.unscopedBufs_split₀ cfgs 0 winFacts₀0.arr_unscoped c (fun b => Wout m ρ c F4 F5 b),
    arrBufs_eq, rest_congr]
  dsimp only
  rw [Wout_other m ρ c F4 F5 main_v3 (by decide) (by decide), Wout_other m ρ c F4 F5 main_v4 (by decide) (by decide),
    Wout_other m ρ c F4 F5 main_v5 (by decide) (by decide), Wout_v6_0, Wout_v6_1]
  isplitr [HZ]
  · isplitl [H3full]; · iexact H3full
    isplitl [H2]; · iexact H2
    isplitl [H3]; · iexact H3
    isplitl [H4]; · iexact H4
    iexact H5
  iexact HZ

set_option backward.isDefEq.respectTransparency.types false in
/-- THE REGION. -/
def reg0 : Pipeline.RDat.RegionSeg (pcfgs (F := F)) adm (rdats m ρ) () defs₀ 𝒱₀ L lv 0 where
  win := winFacts₀0
  block_pos := block_pos0
  stage_whole := stage_whole0
  K := PEmpty
  osem := fun k => k.elim
  ho := Pipeline.OwnSemFacts.none spec0
  hbody c := (body_obligation m ρ c).toRForget
  hwaits := Pipeline.RDat.hwaits_of_owed_zero _ _ _ _ L lv 0 fun _ _ => rfl
  pre c := iprop(StableHlo.held (c : Thread nD τ) (Pipeline.ucRefs τ sig) (V₂ m ρ c) ∗ R c)
  post c := Tmid m ρ c
  X c := iprop(emp)
  Y c := iprop(emp)
  Z c := Pipeline.unscopedRest (Ix := Unit) (Name := ℕ) (U := UR sig nD τ) (Lvl := ℕ) spec0 c (V m ρ c)
  hentry c := by
    rw [show StableHlo.held (c : Thread nD τ) (Pipeline.ucRefs τ sig) (V₂ m ρ c) = unscopedBufs c (V m ρ c) from (Pipeline.unscopedBufs_held c _).symm,
      Pipeline.ownSems0_none, Pipeline.unscopedBufs_split₀ cfgs 0 winFacts₀0.arr_unscoped c (V m ρ c)]
    iintro ⟨⟨⟨Ha, Hrest⟩, HO⟩, -, -⟩
    have harr := arrays_of_arrBufs m ρ c
    ihave Harr := harr $$ Ha
    imodintro
    isplitl [Harr]; · iexact Harr
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rdats m ρ 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (rdats m ρ 0 c).Φ (Fin.last (Pipeline.pin (pcfgs (F := F)) adm 0).N) = Pipeline.scopedRest (Ix := Unit) (Name := ℕ) (U := UR sig nD τ) (Lvl := ℕ) (Val := Elt F) spec0 c from rfl]
    iintro Hr
    isplitr; · iempintro
    isplitr; · iempintro
    iexact Hr
  hexit c := by
    unfold Tmid
    iintro ⟨Ha, HO, -, HZ⟩
    have hex := exit_held m ρ c
    ihave HW := hex $$ [Ha HZ]
    · isplitl [Ha]; · iexact Ha
      iexact HZ
    icases HW with ⟨%W, %hW, Hh⟩
    imodintro
    iexists W
    isplitr; · ipureintro; exact hW
    isplitl [Hh]; · iexact Hh
    unfold Pipeline.RDat.owesAt Pipeline.owesWithin
    icases HO with ⟨%W', -, HO⟩; iexists W'; iexact HO

abbrev segs : List (Pipeline.RDat.Seg (pcfgs (F := F)) adm (rdats m ρ) () defs₀ 𝒱₀ L lv) :=
  [.host (seg0 m ρ), .host (seg1 m ρ), .region (reg0 m ρ), .host (seg2 m ρ)]

/-- The end, read against a final state: every unscoped buffer is held whole at a valuation that agrees with the
    launch on the two arguments, so the state's memory holds the launch contents there. -/
theorem read_args (c : Dev nD) (W : Valuation τ sig (Elt F))
    (hW : W (Proc.devRef .tc main_arg0) = V₂ m ρ c (Proc.devRef .tc main_arg0) ∧ W (Proc.devRef .tc main_arg1) = V₂ m ρ c (Proc.devRef .tc main_arg1))
    (s' : Phys nD τ sig (Elt F)) :
    (iprop(StableHlo.held (c : Thread nD τ) (Pipeline.ucRefs τ sig) W ∗ SI s') : sProp 𝕄)
      ⊢ iprop(⌜s'.mem.mem ((c : Thread nD τ).loc main_arg0) = m ((c : Thread nD τ).loc main_arg0)
          ∧ s'.mem.mem ((c : Thread nD τ).loc main_arg1) = m ((c : Thread nD τ).loc main_arg1)⌝ ∗ SI s') := by
  unfold StableHlo.held
  refine (pointsTo_read_all (Pipeline.ucRefs τ sig) (fun b => ((c : Thread nD τ).1, b)) (fun b => W b) s').trans ?_
  refine sep_mono (Laws.pure_mono fun hr => ?_) .rfl
  exact ⟨(hr (Proc.devRef .tc main_arg0) (Finset.mem_filter.mpr ⟨StableHlo.devRef_mem_tcRefs _, by decide⟩)).trans (hW.1.trans (V₂_arg0 m ρ c)),
    (hr (Proc.devRef .tc main_arg1) (Finset.mem_filter.mpr ⟨StableHlo.devRef_mem_tcRefs _, by decide⟩)).trans (hW.2.trans (V₂_arg1 m ρ c))⟩

/-- The physical post: the two arguments as launched. -/
def QC : PUnit × MemSt nD τ sig (Elt F) → Prop := fun r =>
  ∀ c : Dev nD, r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
theorem run_main : θ_run defs (onTc (τ := τ) (main (F := F))) (s₀ m ρ) (QC m) :=
  Pipeline.RDat.θ_run_regions_kit (pcfgs (F := F)) adm (rdats m ρ) () cellOf_inj EP defs₀ 𝒱₀ L lv m ρ main (segs m ρ)
    (fun c Q => by rw [main_chain, Pipeline.RDat.Seg.run_eq_chain]; exact .rfl)
    (by exact List.nodup_singleton (0 : Fin 1)) (O₀ := 0) (hL := fun _ _ => rfl) (G := fun _ => iprop(emp)) (u₀ := u₀)
    (hu₀ := by
      unfold u₀
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => iprop(∃ W : Valuation τ sig (Elt F), ⌜W (Proc.devRef .tc main_arg0) = V₂ m ρ c (Proc.devRef .tc main_arg0) ∧ W (Proc.devRef .tc main_arg1) = V₂ m ρ c (Proc.devRef .tc main_arg1)⌝
      ∗ StableHlo.held (c : Thread nD τ) (Pipeline.ucRefs τ sig) W))
    (hch := ⟨fun _ => .rfl, fun _ => .rfl, fun _ => .rfl, fun _ => .rfl, fun c => by
      show Tmid m ρ c ⊢ _
      unfold Tmid
      iintro ⟨%W, %hW, Hh, HR⟩
      isplitl [Hh]
      · iexists W; isplitr; · ipureintro; exact hW
        iexact Hh
      iexact HR⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_arg0) = m ((c : Thread nD τ).loc main_arg0)
      ∧ s.mem ((c : Thread nD τ).loc main_arg1) = m ((c : Thread nD τ).loc main_arg1))
    (hfin := fun c s' => by
      iintro ⟨⟨%W, %hW, Hh⟩, HSI⟩
      have hr := read_args m ρ c W hW s'
      imodintro
      iapply hr
      isplitl [Hh] <;> iassumption)
    (hQ := fun _ h => h)

end Cert.Kernel.Frame

end
-- ==== Proof.KernelIdealBody.lean ====
/-
  The kernel body as a separation-logic triple, stated relationally: what the body needs and what it gives back,
  naming no value it computes.

  The body is handed nine whole VMEM buffers: the row tile of the normalised features (1024 × 512), the column
  tile (512 × 512), the row tile's labels (1024 × 1), the column tile's labels (1 × 512), the two result tiles
  (1024 × 1 each) and three accumulators (1024 × 1 each: the running sum of shifted exponentials, the running
  count of equal labels, the running sum of equal-label similarities). Whatever the grid position — the first
  column step (the accumulators are reset), a tile meeting the diagonal (the self terms are taken back out), the
  last column step (the two results are written) — every load is of a whole buffer it holds and every store
  covers a whole buffer it holds. So from the four inputs at any contents and the five other buffers at anything,
  the body runs to its end without a fault and returns the four inputs as they were and the five others at some
  contents. The three branch conditions are decided by cases; each of the eight combinations runs the same way.
-/
import proofs.«127494_j85907935854913_2_alg».proof.Proof.Gen.KernelIdeal.Launch
import proofs.«127494_j85907935854913_2_alg».proof.Proof.Gen.KernelIdeal.Skeleton
import proofs.«127494_j85907935854913_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first column step: the second grid coordinate is zero. -/
abbrev firstStep (i : grid0.Coords) : Prop :=
  Scalar.cmpi .ne (Scalar.extui (Scalar.cmpi .eq (BitVec.ofNat 32 (i 1).val) 0#32)) 0#32 = 1#1

/-- The tile meets the diagonal: its row range [1024·i₀, 1024·i₀ + 1024) and its column range
    [512·i₁, 512·i₁ + 512) intersect. -/
abbrev meetsDiagonal (i : grid0.Coords) : Prop :=
  Scalar.cmpi .ne (Scalar.extui (Scalar.andi
      (Scalar.cmpi .slt (Scalar.muli (BitVec.ofNat 32 (i 0).val) 1024#32) (Scalar.addi (Scalar.muli (BitVec.ofNat 32 (i 1).val) 512#32) 512#32))
      (Scalar.cmpi .slt (Scalar.muli (BitVec.ofNat 32 (i 1).val) 512#32) (Scalar.addi (Scalar.muli (BitVec.ofNat 32 (i 0).val) 1024#32) 1024#32)))) 0#32 = 1#1

set_option maxHeartbeats 4000000 in
/-- The body's triple at any grid position: the four inputs kept, the two results and the three accumulators
    taken at anything and returned at something. -/
theorem bodyRun (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (x0 : Vec F S1024x512 .bf16) (x1 : Vec F S512x512 .bf16) (x2 : Vec F S1024x1 .i32) (x3 : Vec F S1x512 .i32) :
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (∃ d, owns (c : Thread nD τ) arg10 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ d, owns (c : Thread nD τ) arg6 fullShare d) ∗ (∃ d, owns (c : Thread nD τ) arg7 fullShare d)
                ∗ (∃ d, owns (c : Thread nD τ) arg8 fullShare d) ∗ (∃ d, owns (c : Thread nD τ) arg9 fullShare d)
                ∗ (∃ d, owns (c : Thread nD τ) arg10 fullShare d)) -∗ K ⟨⟩))
          ⊢ wp frame (wpE (defs₀ (F := F)) Variants.none c none) E
              (cc0__supcon_kernel i arg2 harg2 arg3 harg3 arg4 harg4 arg5 harg5 arg6 harg6 arg7 harg7 arg8 harg8 arg9 harg9 arg10 harg10) K := by
    intro E K
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := harg2.eq_unread hf0
    obtain rfl := harg3.eq_unread hf1
    obtain rfl := harg4.eq_unread hf2
    obtain rfl := harg5.eq_unread hf3
    by_cases hc1 : firstStep i <;> by_cases hc2 : meetsDiagonal i <;> by_cases hc3 : k0_cond3 i = 1#1
    all_goals
      sl_exec (disch := first | exact hc1 | exact hc2 | exact hc3)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _, _; isplitr; swap; · iexact H4
        ipureintro; rfl
      isplitl [H5]
      · iexists _, _; isplitr; swap; · iexact H5
        ipureintro; rfl
      isplitl [H6]
      · iexists _, _; isplitr; swap; · iexact H6
        ipureintro; rfl
      isplitl [H7]
      · iexists _, _; isplitr; swap; · iexact H7
        ipureintro; rfl
      iexists _, _; isplitr; swap; · iexact H8
      ipureintro; rfl

end Cert.KernelIdeal.Body

end
-- ==== Proof.KernelIdealFrameData.lean ====
/-
  The proof data of the idealized kernel program's frame and its body obligation (the same text as the kernel program's, at its own namespace).

  @main is four stretches: the row norms (five host operations), the normalisation and the two reshapes of the labels
  (five host operations), ONE kernel region over an 8 × 16 grid, and the final reduction of the two per-row results
  to the loss (eleven host operations). The region has six windows: the row tile and the column tile of the
  normalised features — two windows on ONE array, each holding half of it, both only read —, the labels as a column
  and as a row, and the two per-row results, written back at the last column step of each row tile. Three scoped
  accumulators are carried from column step to column step.

  Nothing the kernel computes is named here: the inputs' staging buffers hold their blocks, the results' and the
  accumulators' hold anything. The body's triple (the companion module) holds whichever branches are taken, so the
  body obligation is one lemma. The launch is the library's theorem for @main as a list of segments; the arguments
  are never written by a host operation and never staged for writing, so they are read back at the end as launched.
-/
import proofs.«127494_j85907935854913_2_alg».proof.Proof.KernelIdealBody
import Idealize.ShloMosaic.Lib.Pipeline.Regions
import Idealize.ShloMosaic.Lib.Pipeline.Frame
import Idealize.ShloMosaic.Lib.Pipeline.FrameBody

set_option maxRecDepth 16384

noncomputable section

namespace Cert.KernelIdeal.Frame

open Cert.KernelIdeal Cert.KernelIdeal.Gen Cert.KernelIdeal.Body
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers at launch, -/
abbrev V₀ (c : Dev nD) : Valuation τ sig (Elt F) := fun b => (s₀ m ρ).mem ((c : Dev nD), b)
/-- after the row norms (the sum of squares of each row, its square root), -/
abbrev V₁ (c : Dev nD) : Valuation τ sig (Elt F) := StableHlo.after hostOps0 (V₀ m ρ c)
/-- and when the region is entered: the rows divided by their norms, the labels as a column and as a row. -/
def V₂ (c : Dev nD) : Valuation τ sig (Elt F) := StableHlo.after hostOps0_1 (V₁ m ρ c)
/-- The same, read at a TensorCore reference. -/
def V (c : Dev nD) (b : Ref sig .tc) : Buf (Elt F) ((c : Thread nD τ).loc b) := V₂ m ρ c b

/-! ## The proof data: inputs at their blocks, results unnamed -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-- The two result windows: nothing of what the kernel leaves in them is named here. -/
def forgets0 : Fin 6 → Bool := fun w => w.val == 4 || w.val == 5

/-- The proof data on core `c`. The row tile and the column tile are windows on ONE array (the normalised features):
    each holds half of it. The invariant is the three accumulators at any contents. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, h⟩ => Pipeline.Dat.unnamed (cfg := cfg0) ⟨4, h⟩ t
    | ⟨5, h⟩ => Pipeline.Dat.unnamed (cfg := cfg0) ⟨5, h⟩ t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m ρ 0 c).A w = V m ρ c (Pipeline.arrRef spec0 w) := by
  dsimp only [dats]

theorem after0_0 (c : Dev nD) (t : Fin cfg0.N) : (dats m ρ 0 c).after 0 t = iblk m ρ c 0 t := by dsimp only [dats]
theorem after0_1 (c : Dev nD) (t : Fin cfg0.N) : (dats m ρ 0 c).after 1 t = iblk m ρ c 1 t := by dsimp only [dats]
theorem after0_2 (c : Dev nD) (t : Fin cfg0.N) : (dats m ρ 0 c).after 2 t = iblk m ρ c 2 t := by dsimp only [dats]
theorem after0_3 (c : Dev nD) (t : Fin cfg0.N) : (dats m ρ 0 c).after 3 t = iblk m ρ c 3 t := by dsimp only [dats]

/-- Each input's current staging buffer holds its block at every point, fetched there or not: unfetched, the block
    index has not moved since the fetch. -/
theorem before0_0 (c : Dev nD) (t : Fin cfg0.N) (d) : (dats m ρ 0 c).before 0 t d = iblk m ρ c 0 t :=
  ((dats m ρ 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m ρ 0 c).before 1 t d = iblk m ρ c 1 t :=
  ((dats m ρ 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m ρ 0 c).before 2 t d = iblk m ρ c 2 t :=
  ((dats m ρ 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m ρ 0 c).before 3 t d = iblk m ρ c 3 t :=
  ((dats m ρ 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation -/

abbrev 𝒱₀ : Variants := Variants.none

/-- What the body is called with at point `t`: the accumulators at anything, the inputs at their blocks, the results
    at anything; -/
def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d))
    ∗ (∃ d, owns (c : Thread nD τ) (st0_4 t) fullShare d)
    ∗ (∃ d, owns (c : Thread nD τ) (st0_5 t) fullShare d))

/-- and what it returns. -/
def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t)
    ∗ (∃ d, owns (c : Thread nD τ) (st0_4 t) fullShare d)
    ∗ (∃ d, owns (c : Thread nD τ) (st0_5 t) fullShare d))

/-- A scoped buffer held whole at some contents is the whole-buffer memref owned at some contents, -/
theorem owns_of_pt (c : Dev nD) (b : Ref sig .tc) :
    (iprop(∃ f : Buf (Elt F) ((c : Thread nD τ).loc b), (((c : Thread nD τ).loc b) ↦{fullShare} f)) : sProp 𝕄)
      ⊢ iprop(∃ d, owns (c : Thread nD τ) (Memref.whole b) fullShare d) := by
  iintro ⟨%f, H⟩
  iexists f
  iapply (Entails.of_eq (owns_whole_eq (c : Thread nD τ) b fullShare f).symm)
  iexists f; isplitr; · ipureintro; rfl
  iexact H

/-- and back. -/
theorem pt_of_owns (c : Dev nD) (b : Ref sig .tc) :
    (iprop(∃ d, owns (c : Thread nD τ) (Memref.whole b) fullShare d) : sProp 𝕄)
      ⊢ iprop(∃ f : Buf (Elt F) ((c : Thread nD τ).loc b), (((c : Thread nD τ).loc b) ↦{fullShare} f)) := by
  iintro ⟨%d, H⟩
  ihave H' := (Entails.of_eq (owns_whole_eq (c : Thread nD τ) b fullShare d)) $$ H
  icases H' with ⟨%f, -, H'⟩
  iexists f; iexact H'

set_option maxHeartbeats 2000000 in
/-- The body at any point: the inputs' buffers hold their blocks, the accumulators are taken out of the invariant at
    whatever they hold and put back at whatever the body left, the results go in and come out unnamed. -/
theorem sound_body (c : Dev nD) (t : Fin cfg0.N) :
    bodyPre m ρ c t ⊢ wp frame (wpE (defs₀ (F := F)) 𝒱₀ c none) Set.univ (bodyAt0 t) (fun _ => bodyPost m ρ c t) := by
  unfold bodyPre bodyPost bodyAt0
  simp only [before0_0, before0_1, before0_2, before0_3, after0_0, after0_1, after0_2, after0_3]
  rw [show (dats m ρ 0 c).Φ t.succ = (dats m ρ 0 c).Φ t.castSucc from rfl,
    show (dats m ρ 0 c).owesAt () t.succ = (dats m ρ 0 c).owesAt () t.castSucc from rfl,
    show (dats m ρ 0 c).Φ t.castSucc = Pipeline.scopedRest (Ix := Unit) (Name := ℕ) (U := UR sig nD τ) (Lvl := ℕ) (Val := Elt F) spec0 c from rfl,
    scopedRest0_eq]
  iintro ⟨⟨Hs0, Hs1, Hs2⟩, Ho, ⟨%d0, H0⟩, ⟨%d1, H1⟩, ⟨%d2, H2⟩, ⟨%d3, H3⟩, H4, H5⟩
  ihave Hs0 := (owns_of_pt c cc0_scratch0) $$ Hs0
  ihave Hs1 := (owns_of_pt c cc0_scratch1) $$ Hs1
  ihave Hs2 := (owns_of_pt c cc0_scratch2) $$ Hs2
  iapply ((bodyRun c (grid0.coords t) _ _ _ _ _ _ _ _ _ _ _ _ _ _ _ _ _ _ (iblk m ρ c 0 t) (iblk m ρ c 1 t) (iblk m ρ c 2 t) (iblk m ρ c 3 t)) Set.univ _)
  isplitl [H0]; · iexact H0
  isplitl [H1]; · iexact H1
  isplitl [H2]; · iexact H2
  isplitl [H3]; · iexact H3
  isplitl [H4]; · iexact H4
  isplitl [H5]; · iexact H5
  isplitl [Hs0]; · iexact Hs0
  isplitl [Hs1]; · iexact Hs1
  isplitl [Hs2]; · iexact Hs2
  iintro ⟨H0, H1, H2, H3, H4, H5, Hs0, Hs1, Hs2⟩
  ihave Hs0 := (pt_of_owns c cc0_scratch0) $$ Hs0
  ihave Hs1 := (pt_of_owns c cc0_scratch1) $$ Hs1
  ihave Hs2 := (pt_of_owns c cc0_scratch2) $$ Hs2
  isplitl [Hs0 Hs1 Hs2]
  · isplitl [Hs0]; · iexact Hs0
    isplitl [Hs1]; · iexact Hs1
    iexact Hs2
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m ρ 0 c) (defs₀ (F := F)) 𝒱₀ () Set.univ forgets0 := fun t => by
  rw [bigSep_W0, bigSep_W0]
  exact sound_body m ρ c t

end Cert.KernelIdeal.Frame

end
-- ==== Proof.KernelIdealFrame.lean ====
/-
  The frame of the idealized kernel program (the same text as the kernel program's, at its own namespace): every weakly fair execution of @main terminates, nothing faults, and the two
  argument arrays end as they began.

  @main is four stretches: the row norms (five host operations), the normalisation and the two reshapes of the labels
  (five host operations), ONE kernel region over an 8 × 16 grid, and the final reduction of the two per-row results
  to the loss (eleven host operations). The region has six windows: the row tile and the column tile of the
  normalised features — two windows on ONE array, each holding half of it, both only read —, the labels as a column
  and as a row, and the two per-row results, written back at the last column step of each row tile. Three scoped
  accumulators are carried from column step to column step.

  Nothing the kernel computes is named here: the inputs' staging buffers hold their blocks, the results' and the
  accumulators' hold anything. The body's triple (the companion module) holds whichever branches are taken, so the
  body obligation is one lemma. The launch is the library's theorem for @main as a list of segments; the arguments
  are never written by a host operation and never staged for writing, so they are read back at the end as launched.
-/
import proofs.«127494_j85907935854913_2_alg».proof.Proof.KernelIdealFrameData

set_option maxRecDepth 16384

noncomputable section

namespace Cert.KernelIdeal.Frame

open Cert.KernelIdeal Cert.KernelIdeal.Gen Cert.KernelIdeal.Body
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev EP : Emb (UR sig nD τ) (MT nD τ sig Unit (Elt F) ℕ (UR sig nD τ) ℕ) := emb₁

variable (m : (ℓ : Loc nD τ sig) → Buf (Elt F) ℓ) (ρ : Dev nD → PrngReg)

abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev R (c : Dev nD) : sProp 𝕄 := iprop(∃ W, owes (c : Thread nD τ) (0 : CellTallies nD τ sig Unit) W)
def u₀ : UR sig nD τ := initOf (Pipeline.cells cfgs cellOf_inj) (Pipeline.launchToks cfgs cellOf_inj)

/-- The relational proof data: the two results forgotten. -/
abbrev rdats (p : Fin 1) (c : Dev nD) := (dats m ρ p c).toRForget forgets0

theorem fresh0 : ∀ op ∈ (hostOps0 (F := F)), op.fresh = ∅ := by
  intro _ h; (repeat (cases h with | head => rfl | tail _ h => ?_)); exact nomatch h
theorem fresh0_1 : ∀ op ∈ (hostOps0_1 (F := F)), op.fresh = ∅ := by
  intro _ h; (repeat (cases h with | head => rfl | tail _ h => ?_)); exact nomatch h
theorem fresh1 : ∀ op ∈ (hostOps1 (F := F)), op.fresh = ∅ := by
  intro _ h; (repeat (cases h with | head => rfl | tail _ h => ?_)); exact nomatch h

/-- The row norms, over every unscoped buffer. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) fresh0 (V₀ m ρ) R

/-- The normalisation and the labels' reshapes. -/
def seg1 : Pipeline.HostSeg (Name := ℕ) (U := UR sig nD τ) (pcfgs (F := F)) defs₀ 𝒱₀ L lv :=
  Pipeline.HostSeg.ofOps _ _ _ _ _ (Pipeline.ucRefs τ sig) hostOps0_1
    (fun op h => Pipeline.sub_ucRefs op ((List.forall_iff_forall_mem.mp hostOps0_1_sub) op h)) fresh0_1 (V₁ m ρ) R

/-- No host operation before the region writes an argument: each reaches the region as launched. -/
theorem V₂_arg0 (c : Dev nD) : V₂ m ρ c (Proc.devRef .tc main_arg0) = m ((c : Thread nD τ).loc main_arg0) := by
  show StableHlo.after hostOps0_1 (StableHlo.after hostOps0 (V₀ m ρ c)) (Proc.devRef .tc main_arg0) = _
  after_results
theorem V₂_arg1 (c : Dev nD) : V₂ m ρ c (Proc.devRef .tc main_arg1) = m ((c : Thread nD τ).loc main_arg1) := by
  show StableHlo.after hostOps0_1 (StableHlo.after hostOps0 (V₀ m ρ c)) (Proc.devRef .tc main_arg1) = _
  after_results
/-- Nor does the final reduction. -/
theorem tail_arg0 (W : Valuation τ sig (Elt F)) : StableHlo.after hostOps1 W (Proc.devRef .tc main_arg0) = W (Proc.devRef .tc main_arg0) := by
  after_results
theorem tail_arg1 (W : Valuation τ sig (Elt F)) : StableHlo.after hostOps1 W (Proc.devRef .tc main_arg1) = W (Proc.devRef .tc main_arg1) := by
  after_results

/-- What the region leaves: every unscoped buffer whole at SOME valuation that agrees with the region's entry on the
    two arguments. -/
def Tmid (c : Dev nD) : sProp 𝕄 :=
  iprop(∃ W : Valuation τ sig (Elt F), ⌜W (Proc.devRef .tc main_arg0) = V₂ m ρ c (Proc.devRef .tc main_arg0) ∧ W (Proc.devRef .tc main_arg1) = V₂ m ρ c (Proc.devRef .tc main_arg1)⌝
    ∗ StableHlo.held (c : Thread nD τ) (Pipeline.ucRefs τ sig) W ∗ R c)

/-- The final reduction, from any such valuation to another. -/
def seg2 : Pipeline.HostSeg (Name := ℕ) (U := UR sig nD τ) (pcfgs (F := F)) defs₀ 𝒱₀ L lv where
  prog := StableHlo.seq hostOps1
  pre c := Tmid m ρ c
  post c := Tmid m ρ c
  run c {β} k K := by
    unfold Tmid
    iintro ⟨Hk, Hbd, ⟨%W, %hW, Hh, HR⟩, Hl⟩
    have hrun := (Pipeline.HostSeg.ofOps (Name := ℕ) (U := UR sig nD τ) (pcfgs (F := F)) defs₀ 𝒱₀ L lv (Pipeline.ucRefs τ sig) hostOps1
      (fun op h => Pipeline.sub_ucRefs op ((List.forall_iff_forall_mem.mp hostOps1_sub) op h)) fresh1 (fun _ => W) R).run c k K
    dsimp only [Pipeline.HostSeg.ofOps] at hrun
    iapply hrun
    isplitl [Hk]
    · iintro ⟨Hbd, Hh, HR⟩
      iapply Hk
      isplitl [Hbd]; · iexact Hbd
      iexists (StableHlo.after hostOps1 W)
      isplitr
      · ipureintro; exact ⟨(tail_arg0 W).trans hW.1, (tail_arg1 W).trans hW.2⟩
      isplitl [Hh]; · iexact Hh
      iexact HR
    isplitl [Hbd]; · iexact Hbd
    isplitl [Hh HR]
    · isplitl [Hh]; · iexact Hh
      iexact HR
    iexact Hl

/-- The windows' arrays, each as its whole buffer at the window's share. -/
theorem arrays_shares (c : Dev nD) (G : (w : Fin cfg0.W) → Buf (Elt F) ((cfg0.win w).arr.view.loc (c : Thread nD τ))) :
    (rdats m ρ 0 c).arrays G
      = bigSep Finset.univ fun w => ((((c : Thread nD τ).loc (Pipeline.arrRef spec0 w)) ↦{(rdats m ρ 0 c).share w} G w : sProp 𝕄)) := by
  unfold Pipeline.RDat.arrays
  exact bigSep_congr fun w _ => by rw [(arr_whole0 w).set_eq_univ]

/-- The same after the write-backs below `n`. -/
theorem arraysAt_shares (c : Dev nD) (n : Nat) :
    (rdats m ρ 0 c).arraysAt n
      = bigSep Finset.univ fun w => (iprop(∃ G, ⌜(rdats m ρ 0 c).ArrAt w n G⌝
          ∗ (((c : Thread nD τ).loc (Pipeline.arrRef spec0 w)) ↦{(rdats m ρ 0 c).share w} G)) : sProp 𝕄) := by
  unfold Pipeline.RDat.arraysAt
  exact bigSep_congr fun w _ => by rw [(arr_whole0 w).set_eq_univ]

/-- ENTRY, the arrays: the five distinct buffers behind the six windows, each whole at the region-entry contents, are the
    windows' arrays at those contents — the normalised features split in two halves, one per window on it. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v3) ↦{fullShare} W main_v3) ∗ (((c : Thread nD τ).loc main_v4) ↦{fullShare} W main_v4)
          ∗ (((c : Thread nD τ).loc main_v5) ↦{fullShare} W main_v5) ∗ (((c : Thread nD τ).loc main_v6_0) ↦{fullShare} W main_v6_0)
          ∗ (((c : Thread nD τ).loc main_v6_1) ↦{fullShare} W main_v6_1)) :=
  bigSep_eq_bigSepL_of_eq [main_v3, main_v4, main_v5, main_v6_0, main_v6_1] (by decide) (by decide) _

theorem arrays_of_arrBufs (c : Dev nD) :
    (Pipeline.arrBufs (Ix := Unit) (Name := ℕ) (U := UR sig nD τ) (Lvl := ℕ) spec0 c (V m ρ c) : sProp 𝕄)
      ⊢ (rdats m ρ 0 c).arrays (rdats m ρ 0 c).A := by
  rw [arrBufs_eq, arrays_shares, bigSep_W0]
  iintro ⟨H3, H4, H5, H60, H61⟩
  have hhalves : ((((c : Thread nD τ).loc main_v3) ↦{fullShare} V m ρ c main_v3) : sProp 𝕄)
      ⊢ iprop((((c : Thread nD τ).loc main_v3) ↦{fullShare.left} V m ρ c main_v3) ∗ (((c : Thread nD τ).loc main_v3) ↦{fullShare.right} V m ρ c main_v3)) :=
    (pointsTo_share (PosShare.mem_left_op_right fullShare)).1
  ihave H3' := hhalves $$ H3
  icases H3' with ⟨H3l, H3r⟩
  isplitl [H3l]; · iexact H3l
  isplitl [H3r]; · iexact H3r
  isplitl [H4]; · iexact H4
  isplitl [H5]; · iexact H5
  isplitl [H60]; · iexact H60
  iexact H61

/-- The valuation the region leaves: the entry valuation, the two results' buffers at what the write-backs left. -/
def Wout (c : Dev nD) (F4 : Buf (Elt F) ((c : Thread nD τ).loc main_v6_0)) (F5 : Buf (Elt F) ((c : Thread nD τ).loc main_v6_1)) :
    Valuation τ sig (Elt F) :=
  Function.update (Function.update (V₂ m ρ c) (Proc.devRef .tc main_v6_0) F4) (Proc.devRef .tc main_v6_1) F5

theorem Wout_v6_1 (c : Dev nD) (F4 : Buf (Elt F) ((c : Thread nD τ).loc main_v6_0)) (F5 : Buf (Elt F) ((c : Thread nD τ).loc main_v6_1)) :
    Wout m ρ c F4 F5 (Proc.devRef .tc main_v6_1) = F5 := by
  unfold Wout; exact Function.update_self ..

theorem Wout_v6_0 (c : Dev nD) (F4 : Buf (Elt F) ((c : Thread nD τ).loc main_v6_0)) (F5 : Buf (Elt F) ((c : Thread nD τ).loc main_v6_1)) :
    Wout m ρ c F4 F5 (Proc.devRef .tc main_v6_0) = F4 := by
  unfold Wout
  rw [Function.update_of_ne (StableHlo.devRef_ne_of_ne (by decide))]
  exact Function.update_self ..

theorem Wout_other (c : Dev nD) (F4 : Buf (Elt F) ((c : Thread nD τ).loc main_v6_0)) (F5 : Buf (Elt F) ((c : Thread nD τ).loc main_v6_1))
    (b : Ref sig .tc) (h0 : b ≠ main_v6_0) (h1 : b ≠ main_v6_1) :
    Wout m ρ c F4 F5 (Proc.devRef .tc b) = V₂ m ρ c (Proc.devRef .tc b) := by
  unfold Wout
  rw [Function.update_of_ne (StableHlo.devRef_ne_of_ne h1), Function.update_of_ne (StableHlo.devRef_ne_of_ne h0)]

/-- The buffers no window stages hold the same at the two valuations. -/
theorem rest_congr (c : Dev nD) (F4 : Buf (Elt F) ((c : Thread nD τ).loc main_v6_0)) (F5 : Buf (Elt F) ((c : Thread nD τ).loc main_v6_1)) :
    (Pipeline.unscopedRest (Ix := Unit) (Name := ℕ) (U := UR sig nD τ) (Lvl := ℕ) spec0 c (fun b => Wout m ρ c F4 F5 b) : sProp 𝕄)
      = Pipeline.unscopedRest (Ix := Unit) (Name := ℕ) (U := UR sig nD τ) (Lvl := ℕ) spec0 c (V m ρ c) := by
  unfold Pipeline.unscopedRest
  refine bigSep_congr fun b hb => ?_
  have hb' := (Finset.mem_sdiff.mp hb).2
  have h0 : b ≠ main_v6_0 := fun e => hb' (e ▸ Finset.mem_image.mpr ⟨4, Finset.mem_univ _, rfl⟩)
  have h1 : b ≠ main_v6_1 := fun e => hb' (e ▸ Finset.mem_image.mpr ⟨5, Finset.mem_univ _, rfl⟩)
  show ((c : Thread nD τ).loc b ↦{fullShare} Wout m ρ c F4 F5 (Proc.devRef .tc b)) = _
  rw [Wout_other m ρ c F4 F5 b h0 h1]
  rfl

set_option maxHeartbeats 4000000 in
/-- EXIT, the arrays: the four inputs' arrays come back as they went in (an input window is never written back), the
    two halves of the normalised features rejoin, and with the buffers no window stages they are every unscoped
    buffer, whole, at a valuation that agrees with the entry on the arguments. -/
theorem exit_held (c : Dev nD) :
    (iprop((rdats m ρ 0 c).arraysAt cfg0.N ∗ Pipeline.unscopedRest (Ix := Unit) (Name := ℕ) (U := UR sig nD τ) (Lvl := ℕ) spec0 c (V m ρ c)) : sProp 𝕄)
      ⊢ iprop(∃ W : Valuation τ sig (Elt F), ⌜W (Proc.devRef .tc main_arg0) = V₂ m ρ c (Proc.devRef .tc main_arg0) ∧ W (Proc.devRef .tc main_arg1) = V₂ m ρ c (Proc.devRef .tc main_arg1)⌝
          ∗ StableHlo.held (c : Thread nD τ) (Pipeline.ucRefs τ sig) W) := by
  rw [arraysAt_shares, bigSep_W0]
  iintro ⟨⟨⟨%F0, %h0, H0⟩, ⟨%F1, %h1, H1⟩, ⟨%F2, %h2, H2⟩, ⟨%F3, %h3, H3⟩, ⟨%F4, -, H4⟩, ⟨%F5, -, H5⟩⟩, HZ⟩
  have e0 : F0 = (rdats m ρ 0 c).A 0 := Eq.mp (congrFun ((rdats m ρ 0 c).ArrAt_in 0 rfl _) _) h0
  have e1 : F1 = (rdats m ρ 0 c).A 1 := Eq.mp (congrFun ((rdats m ρ 0 c).ArrAt_in 1 rfl _) _) h1
  have e2 : F2 = (rdats m ρ 0 c).A 2 := Eq.mp (congrFun ((rdats m ρ 0 c).ArrAt_in 2 rfl _) _) h2
  have e3 : F3 = (rdats m ρ 0 c).A 3 := Eq.mp (congrFun ((rdats m ρ 0 c).ArrAt_in 3 rfl _) _) h3
  subst e0 e1 e2 e3
  have hjoin : (iprop((((c : Thread nD τ).loc main_v3) ↦{fullShare.left} V m ρ c main_v3) ∗ (((c : Thread nD τ).loc main_v3) ↦{fullShare.right} V m ρ c main_v3)) : sProp 𝕄)
      ⊢ (((c : Thread nD τ).loc main_v3) ↦{fullShare} V m ρ c main_v3) :=
    (pointsTo_share (PosShare.mem_left_op_right fullShare)).2
  ihave H3full := hjoin $$ [H0 H1]
  · isplitl [H0]; · iexact H0
    iexact H1
  iexists (Wout m ρ c F4 F5)
  isplitr
  · ipureintro
    exact ⟨Wout_other m ρ c F4 F5 main_arg0 (by decide) (by decide), Wout_other m ρ c F4 F5 main_arg1 (by decide) (by decide)⟩
  rw [← Pipeline.unscopedBufs_held c (Wout m ρ c F4 F5), Pipeline.unscopedBufs_split₀ cfgs 0 winFacts₀0.arr_unscoped c (fun b => Wout m ρ c F4 F5 b),
    arrBufs_eq, rest_congr]
  dsimp only
  rw [Wout_other m ρ c F4 F5 main_v3 (by decide) (by decide), Wout_other m ρ c F4 F5 main_v4 (by decide) (by decide),
    Wout_other m ρ c F4 F5 main_v5 (by decide) (by decide), Wout_v6_0, Wout_v6_1]
  isplitr [HZ]
  · isplitl [H3full]; · iexact H3full
    isplitl [H2]; · iexact H2
    isplitl [H3]; · iexact H3
    isplitl [H4]; · iexact H4
    iexact H5
  iexact HZ

set_option backward.isDefEq.respectTransparency.types false in
/-- THE REGION. -/
def reg0 : Pipeline.RDat.RegionSeg (pcfgs (F := F)) adm (rdats m ρ) () defs₀ 𝒱₀ L lv 0 where
  win := winFacts₀0
  block_pos := block_pos0
  stage_whole := stage_whole0
  K := PEmpty
  osem := fun k => k.elim
  ho := Pipeline.OwnSemFacts.none spec0
  hbody c := (body_obligation m ρ c).toRForget
  hwaits := Pipeline.RDat.hwaits_of_owed_zero _ _ _ _ L lv 0 fun _ _ => rfl
  pre c := iprop(StableHlo.held (c : Thread nD τ) (Pipeline.ucRefs τ sig) (V₂ m ρ c) ∗ R c)
  post c := Tmid m ρ c
  X c := iprop(emp)
  Y c := iprop(emp)
  Z c := Pipeline.unscopedRest (Ix := Unit) (Name := ℕ) (U := UR sig nD τ) (Lvl := ℕ) spec0 c (V m ρ c)
  hentry c := by
    rw [show StableHlo.held (c : Thread nD τ) (Pipeline.ucRefs τ sig) (V₂ m ρ c) = unscopedBufs c (V m ρ c) from (Pipeline.unscopedBufs_held c _).symm,
      Pipeline.ownSems0_none, Pipeline.unscopedBufs_split₀ cfgs 0 winFacts₀0.arr_unscoped c (V m ρ c)]
    iintro ⟨⟨⟨Ha, Hrest⟩, HO⟩, -, -⟩
    have harr := arrays_of_arrBufs m ρ c
    ihave Harr := harr $$ Ha
    imodintro
    isplitl [Harr]; · iexact Harr
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rdats m ρ 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (rdats m ρ 0 c).Φ (Fin.last (Pipeline.pin (pcfgs (F := F)) adm 0).N) = Pipeline.scopedRest (Ix := Unit) (Name := ℕ) (U := UR sig nD τ) (Lvl := ℕ) (Val := Elt F) spec0 c from rfl]
    iintro Hr
    isplitr; · iempintro
    isplitr; · iempintro
    iexact Hr
  hexit c := by
    unfold Tmid
    iintro ⟨Ha, HO, -, HZ⟩
    have hex := exit_held m ρ c
    ihave HW := hex $$ [Ha HZ]
    · isplitl [Ha]; · iexact Ha
      iexact HZ
    icases HW with ⟨%W, %hW, Hh⟩
    imodintro
    iexists W
    isplitr; · ipureintro; exact hW
    isplitl [Hh]; · iexact Hh
    unfold Pipeline.RDat.owesAt Pipeline.owesWithin
    icases HO with ⟨%W', -, HO⟩; iexists W'; iexact HO

abbrev segs : List (Pipeline.RDat.Seg (pcfgs (F := F)) adm (rdats m ρ) () defs₀ 𝒱₀ L lv) :=
  [.host (seg0 m ρ), .host (seg1 m ρ), .region (reg0 m ρ), .host (seg2 m ρ)]

/-- The end, read against a final state: every unscoped buffer is held whole at a valuation that agrees with the
    launch on the two arguments, so the state's memory holds the launch contents there. -/
theorem read_args (c : Dev nD) (W : Valuation τ sig (Elt F))
    (hW : W (Proc.devRef .tc main_arg0) = V₂ m ρ c (Proc.devRef .tc main_arg0) ∧ W (Proc.devRef .tc main_arg1) = V₂ m ρ c (Proc.devRef .tc main_arg1))
    (s' : Phys nD τ sig (Elt F)) :
    (iprop(StableHlo.held (c : Thread nD τ) (Pipeline.ucRefs τ sig) W ∗ SI s') : sProp 𝕄)
      ⊢ iprop(⌜s'.mem.mem ((c : Thread nD τ).loc main_arg0) = m ((c : Thread nD τ).loc main_arg0)
          ∧ s'.mem.mem ((c : Thread nD τ).loc main_arg1) = m ((c : Thread nD τ).loc main_arg1)⌝ ∗ SI s') := by
  unfold StableHlo.held
  refine (pointsTo_read_all (Pipeline.ucRefs τ sig) (fun b => ((c : Thread nD τ).1, b)) (fun b => W b) s').trans ?_
  refine sep_mono (Laws.pure_mono fun hr => ?_) .rfl
  exact ⟨(hr (Proc.devRef .tc main_arg0) (Finset.mem_filter.mpr ⟨StableHlo.devRef_mem_tcRefs _, by decide⟩)).trans (hW.1.trans (V₂_arg0 m ρ c)),
    (hr (Proc.devRef .tc main_arg1) (Finset.mem_filter.mpr ⟨StableHlo.devRef_mem_tcRefs _, by decide⟩)).trans (hW.2.trans (V₂_arg1 m ρ c))⟩

/-- The physical post: the two arguments as launched. -/
def QC : PUnit × MemSt nD τ sig (Elt F) → Prop := fun r =>
  ∀ c : Dev nD, r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
theorem run_main : θ_run defs (onTc (τ := τ) (main (F := F))) (s₀ m ρ) (QC m) :=
  Pipeline.RDat.θ_run_regions_kit (pcfgs (F := F)) adm (rdats m ρ) () cellOf_inj EP defs₀ 𝒱₀ L lv m ρ main (segs m ρ)
    (fun c Q => by rw [main_chain, Pipeline.RDat.Seg.run_eq_chain]; exact .rfl)
    (by exact List.nodup_singleton (0 : Fin 1)) (O₀ := 0) (hL := fun _ _ => rfl) (G := fun _ => iprop(emp)) (u₀ := u₀)
    (hu₀ := by
      unfold u₀
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => iprop(∃ W : Valuation τ sig (Elt F), ⌜W (Proc.devRef .tc main_arg0) = V₂ m ρ c (Proc.devRef .tc main_arg0) ∧ W (Proc.devRef .tc main_arg1) = V₂ m ρ c (Proc.devRef .tc main_arg1)⌝
      ∗ StableHlo.held (c : Thread nD τ) (Pipeline.ucRefs τ sig) W))
    (hch := ⟨fun _ => .rfl, fun _ => .rfl, fun _ => .rfl, fun _ => .rfl, fun c => by
      show Tmid m ρ c ⊢ _
      unfold Tmid
      iintro ⟨%W, %hW, Hh, HR⟩
      isplitl [Hh]
      · iexists W; isplitr; · ipureintro; exact hW
        iexact Hh
      iexact HR⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_arg0) = m ((c : Thread nD τ).loc main_arg0)
      ∧ s.mem ((c : Thread nD τ).loc main_arg1) = m ((c : Thread nD τ).loc main_arg1))
    (hfin := fun c s' => by
      iintro ⟨⟨%W, %hW, Hh⟩, HSI⟩
      have hr := read_args m ρ c W hW s'
      imodintro
      iapply hr
      isplitl [Hh] <;> iassumption)
    (hQ := fun _ h => h)

end Cert.KernelIdeal.Frame

end
-- ==== Proof.RefFrame.lean ====
/-
  The reference program runs and leaves its two argument arrays unchanged: the run of its 67 host operations read
  back states, for every device, the result buffer's final contents and that both arguments end as they started;
  the frame claim keeps the second part.
-/
import proofs.«127494_j85907935854913_2_alg».proof.Defs
import proofs.«127494_j85907935854913_2_alg».proof.Proof.Gen.ReferenceIdeal
import proofs.«127494_j85907935854913_2_alg».proof.Proof.RefRunP

noncomputable section

open Idealize.ShloMosaic Idealize.ShloMosaic.TcCoe Idealize.SL.Sem

namespace Cert.Proof.Ref

/-- The reference terminates without fault on every device and its argument arrays end unchanged. -/
theorem frame_ri [Cert.ReferenceIdeal.Facts] [Cert.Pre_finite_inputs.Facts] : Cert.frame_ReferenceIdeal :=
  fun m ρ _ =>
    (θ_run Cert.ReferenceIdeal.defs _ _).mono (fun _ h c => (h c).2)
      (Cert.ReferenceIdeal.ValueP.run (F := Ideal) m ρ)

end Cert.Proof.Ref

end
-- ==== Proof.LibLastAxisMax.lean ====
/-
  The host's one-operand reduce with a maximum body over the LAST axis, read at an index given by coordinates, over
  arbitrary extents and at the ideal values:
  • of an `[a, b, n]` array at `(p, q)`, and
  • of an `[a, n]` matrix at `p`:
  the fold of `max` along that axis from the initial value. (The middle-axis form is in LibColumnReads; the kernel-side
  row maximum in LibRowReads.)
-/
import Idealize.ShloMosaic.Lib.ValueIdx
import Idealize.ShloMosaic.PureOps.Ideal.Laws

namespace Cert.LibLastAxisMax

open Idealize.ShloMosaic Idealize.ShloMosaic.ValueIdx

/-- Position `(p, q)` of an `[a, b, n]` array with last coordinate `k` put back is `(p, q, k)`. -/
theorem lift_last3 {a b n : ℕ} (h : (⟨3, ![a, b, n]⟩ : Shape).Reduces [2] (⟨2, ![a, b]⟩ : Shape)) (p : Fin a) (q : Fin b)
    (k : Fin n) : h.lift (ix2 p q) k = ix3 p q k := by
  funext c; apply Fin.ext
  fin_cases c <;> rfl

/-- Row `p` of an `[a, n]` matrix with column `k` put back is `(p, k)`. -/
theorem lift_last2 {a n : ℕ} (h : (⟨2, ![a, n]⟩ : Shape).Reduces [1] (⟨1, ![a]⟩ : Shape)) (p : Fin a) (k : Fin n) :
    h.lift (ix1 p) k = ix2 p k := by
  funext c; apply Fin.ext
  fin_cases c <;> rfl

/-- The host's reduce with a maximum body over the last axis of an `[a, b, n]` array, at `(p, q)`, is the fold of
    `max` over that axis from the initial value. -/
theorem hostLastMax3_apply {φ : FTy} {a b n : ℕ} {u : Shape} (x : FVec Ideal ⟨3, ![a, b, n]⟩ φ) (init : FVec Ideal u φ)
    (h' : (⟨3, ![a, b, n]⟩ : Shape).ReducesTo [2] (⟨2, ![a, b]⟩ : Shape))
    (h : (⟨3, ![a, b, n]⟩ : Shape).Reduces [2] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p q k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last3 h p q k))

/-- The host's reduce with a maximum body over the last axis of an `[a, n]` matrix, at `p`, is the fold of `max`
    along row `p` from the initial value. -/
theorem hostLastMax2_apply {φ : FTy} {a n : ℕ} {u : Shape} (x : FVec Ideal ⟨2, ![a, n]⟩ φ) (init : FVec Ideal u φ)
    (h' : (⟨2, ![a, n]⟩ : Shape).ReducesTo [1] (⟨1, ![a]⟩ : Shape))
    (h : (⟨2, ![a, n]⟩ : Shape).Reduces [1] (⟨1, ![a]⟩ : Shape)) (hu : 0 < u.numel) (p : Fin a) :
    Host.reduce (FloatOps.maximumf (F := Ideal) (φ := φ)) x init h' hu (ix1 p)
      = (Finset.univ : Finset (Fin n)).fold max (init (Shape.Idx.first hu)) (fun k => x (ix2 p k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last2 h p k))

end Cert.LibLastAxisMax
-- ==== Proof.RefValue.lean ====
/-
  The reference's result at the ideal values, stage by stage, as formulas of its two arguments: the feature matrix
  x (8192 rows of 512 extended reals) and the label vector lab (8192 words of 32 bits). Rows and columns are
  r, c : Fin 8192 and feature positions k : Fin 512.

    sq r        = Σ_k x(r,k)²                                   (squared row norm)
    nrm r       = sqrt (sq r)                                   (row norm)
    f r k       = x(r,k) / nrm r                                (normalised row)
    gram r c    = Σ_k f r k · f c k                             (Gram entry)
    sim r c     = gram r c / D                                  (D the temperature's word, 9395241 / 2^27)
    rowmax r    = max over c of sim r c, folded from ⊥
    same r c    = 1 if lab r = lab c else 0
    offd r c    = 0 if r = c else 1                             (1 - eye)
    mask r c    = same r c · offd r c
    logit r c   = sim r c - rowmax r
    expl r c    = exp (logit r c) · offd r c
    rowsum r    = Σ_c expl r c
    logprob r c = logit r c - log (rowsum r + ε)                (ε the word of 1e-12, 9223372 / 2^63)
    masksum r   = Σ_c mask r c
    valid r     = 1 if 0 < masksum r else 0
    mlpp r      = (Σ_c mask r c · logprob r c) / (masksum r + ε)
    nvalid      = Σ_r valid r
    loss        = -(Σ_r mlpp r · valid r) / max nvalid 1

  Division, square root, exponential and logarithm are the ideal instance's total functions on the extended reals;
  every sum starts from the word of +0.0, which denotes 0 and is dropped (0 + a = a).
-/
import proofs.«127494_j85907935854913_2_alg».proof.Proof.RefReadP
import proofs.«127494_j85907935854913_2_alg».proof.Proof.LibLastAxisMax

noncomputable section

namespace Cert.ReferenceIdeal.RefValue

open Cert.ReferenceIdeal Cert.ReferenceIdeal.Gen Cert.ReferenceIdeal.ReadP Idealize.ShloMosaic Idealize.ShloMosaic.ValueIdx
open Idealize.ShloMosaic.TcCoe Idealize.SL.Sem
open scoped BigOperators

/-! ## The constants' words -/

/-- The word of +0.0 denotes 0. -/
theorem ofBits_zero : Ideal.ofBits .f32 0x00000000#32 = 0 := Ideal.ofBits_zero_f32

/-- The word of 1.0 denotes 1. -/
theorem ofBits_one : Ideal.ofBits .f32 0x3F800000#32 = 1 := by
  simp [Ideal.ofBits, Ideal.ieee, -EReal.coe_mul]; norm_num

/-- The word of -inf denotes ⊥. -/
theorem ofBits_neg_inf : Ideal.ofBits .f32 0xFF800000#32 = ⊥ := by
  simp [Ideal.ofBits, Ideal.ieee]

/-- The temperature's word denotes the real 9395241 / 2^27. -/
theorem ofBits_temp : Ideal.ofBits .f32 0x3D8F5C29#32 = ((9395241 / 134217728 : ℝ) : EReal) := by
  simp [Ideal.ofBits, Ideal.ieee, -EReal.coe_mul]; norm_num

/-- The word of 1e-12 denotes the real 9223372 / 2^63. -/
theorem ofBits_eps : Ideal.ofBits .f32 0x2B8CBCCC#32 = ((9223372 / 9223372036854775808 : ℝ) : EReal) := by
  simp [Ideal.ofBits, Ideal.ieee, -EReal.coe_mul]; norm_num

/-! ## Indices -/

/-- A rank-2 index with the coordinates of a and b is ix2 a b. -/
theorem idx2_eq {n0 n1 : ℕ} (i : (⟨2, ![n0, n1]⟩ : Shape).Idx) (a : Fin n0) (b : Fin n1)
    (h0 : (i 0).val = a.val) (h1 : (i 1).val = b.val) : i = ix2 a b := by
  funext d
  match d with
  | ⟨0, _⟩ => exact Fin.ext h0
  | ⟨1, _⟩ => exact Fin.ext h1

/-- A rank-1 index with the coordinate of a is ix1 a. -/
theorem idx1_eq {n : ℕ} (i : (⟨1, ![n]⟩ : Shape).Idx) (a : Fin n) (h0 : (i 0).val = a.val) : i = ix1 a := by
  funext d
  match d with
  | ⟨0, _⟩ => exact Fin.ext h0

variable (x : (⟨S8192x512, .f32⟩ : BufTy).Contents (Elt Ideal)) (lab : (⟨S8192, .i32⟩ : BufTy).Contents (Elt Ideal))

/-! ## The normalised rows -/

/-- The squared norm of row r. -/
def sq (r : Fin 8192) : EReal := ∑ k : Fin 512, x (ix2 r k) * x (ix2 r k)

/-- The norm of row r. -/
def nrm (r : Fin 8192) : EReal := Ideal.sqrt (sq x r)

/-- Row r normalised, at feature k. -/
def f (r : Fin 8192) (k : Fin 512) : EReal := Ideal.div (x (ix2 r k)) (nrm x r)

theorem sq_eq (r : Fin 8192) : val_main_call0_v1 (F := Ideal) x (ix1 r) = sq x r := by
  rw [val_main_call0_v1_apply, val_main_call0_cst_apply]
  show Ideal.ofBits .f32 0x00000000#32 + _ = _
  rw [ofBits_zero, zero_add]
  refine Finset.sum_congr rfl fun k _ => ?_
  rw [val_main_call0_v0_apply, idx2_eq (idx_main_call0_v1 (ix1 r) k) r k rfl rfl]
  rfl

theorem nrm_eq (r : Fin 8192) (z : Fin 1) : val_main_v0 (F := Ideal) x (ix2 r z) = nrm x r := by
  rw [val_main_v0_apply, val_main_call0_v2_apply, idx1_eq (idx_main_call0_v2 (ix2 r z)) r rfl, sq_eq]
  rfl

theorem f_eq (r : Fin 8192) (k : Fin 512) : val_main_v2 (F := Ideal) x (ix2 r k) = f x r k := by
  rw [val_main_v2_apply, val_main_v1_apply, idx2_eq (idx_main_v1 (ix2 r k)) r (0 : Fin 1) rfl rfl, nrm_eq]
  rfl

/-! ## The Gram matrix and the similarities -/

/-- The Gram entry of rows r and c. -/
def gram (r c : Fin 8192) : EReal := ∑ k : Fin 512, f x r k * f x c k

/-- The temperature. -/
def D : EReal := Ideal.ofBits .f32 0x3D8F5C29#32

theorem D_eq : D = ((9395241 / 134217728 : ℝ) : EReal) := ofBits_temp

/-- The similarity of rows r and c. -/
def sim (r c : Fin 8192) : EReal := Ideal.div (gram x r c) D

theorem gram_eq (r c : Fin 8192) : val_main_v19 (F := Ideal) x (ix2 r c) = gram x r c := by
  rw [val_main_v19_apply]
  refine Finset.sum_congr rfl fun k _ => ?_
  rw [val_main_v18_apply, idx2_eq (lidx_main_v19 (ix2 r c) k) r k rfl rfl,
    idx2_eq (idx_main_v18 (ridx_main_v19 (ix2 r c) k)) c k rfl rfl, f_eq, f_eq]

theorem sim_eq (r c : Fin 8192) : val_main_v21 (F := Ideal) x (ix2 r c) = sim x r c := by
  rw [val_main_v21_apply, gram_eq, val_main_v20_apply, val_main_cst_0_apply]
  rfl

/-! ## The row maximum -/

/-- The largest similarity in row r, folded from ⊥. -/
def rowmax (r : Fin 8192) : EReal := (Finset.univ : Finset (Fin 8192)).fold max ⊥ (fun c => sim x r c)

theorem rowmax_eq (r : Fin 8192) : val_main_v22 (F := Ideal) x (ix1 r) = rowmax x r := by
  unfold val_main_v22
  rw [Cert.LibLastAxisMax.hostLastMax2_apply (val_main_v21 (F := Ideal) x) (val_main_cst_1 (F := Ideal))
    reducesTo_S8192x8192_S8192_d1 (by decide) h_S_ r, val_main_cst_1_apply]
  show Finset.fold max (Ideal.ofBits .f32 0xFF800000#32) _ _ = _
  rw [ofBits_neg_inf]
  exact congrArg (fun g => Finset.fold max ⊥ g (Finset.univ : Finset (Fin 8192))) (funext fun c => sim_eq x r c)

/-! ## The masks -/

/-- 1 where rows r and c carry the same label. -/
def same (r c : Fin 8192) : EReal := if lab (ix1 r) = lab (ix1 c) then 1 else 0

/-- 0 on the diagonal, 1 off it. -/
def offd (r c : Fin 8192) : EReal := if r = c then 0 else 1

/-- The positive-pair mask: same label, not the row itself. -/
def mask (r c : Fin 8192) : EReal := same lab r c * offd r c

/-- A one-bit word read as an unsigned number, at the ideal values. -/
theorem uitofp_ofBool (p : Bool) :
    (FloatOps.uitofp (F := Ideal) .f32 (BitVec.ofBool p) : EReal) = if p then 1 else 0 := by
  cases p
  · show (((0#1).toNat : ℝ) : EReal) = 0
    simp
  · show (((1#1).toNat : ℝ) : EReal) = 1
    simp

theorem same_eq (r c : Fin 8192) : val_main_v8 (F := Ideal) lab (ix2 r c) = same lab r c := by
  rw [val_main_v8_apply, val_main_v7_apply, val_main_v5_apply, val_main_v6_apply, val_main_v3_apply, val_main_v4_apply,
    idx1_eq (idx_main_v3 (idx_main_v5 (ix2 r c))) r rfl, idx1_eq (idx_main_v4 (idx_main_v6 (ix2 r c))) c rfl]
  show FloatOps.uitofp (F := Ideal) .f32 (BitVec.ofBool (lab (ix1 r) == lab (ix1 c))) = _
  rw [uitofp_ofBool]
  unfold same
  by_cases h : lab (ix1 r) = lab (ix1 c)
  · rw [if_pos h, if_pos (by simpa using h)]
  · rw [if_neg h, if_neg (by simpa using h)]

/-- Two positions below 8192 have the same 32-bit word exactly when they are equal. -/
theorem ofNat32_eq_iff (r c : Fin 8192) : (BitVec.ofNat 32 r.val = BitVec.ofNat 32 c.val) ↔ r = c := by
  constructor
  · intro h
    have h' := congrArg BitVec.toNat h
    simp only [BitVec.toNat_ofNat] at h'
    have hr := r.isLt
    have hc := c.isLt
    exact Fin.ext (by omega)
  · intro h; rw [h]

theorem offd_eq (r c : Fin 8192) : val_main_v16 (F := Ideal) (ix2 r c) = offd r c := by
  rw [val_main_v16_apply, val_main_v15_apply, val_main_cst_apply, val_main_v14_apply, val_main_v13_apply,
    val_main_v12_apply, val_main_v9_apply, val_main_v10_apply, val_main_v11_apply, val_main_c_apply]
  show Ideal.ofBits .f32 0x3F800000#32
      - FloatOps.uitofp (F := Ideal) .f32 (BitVec.ofBool (BitVec.ofNat 32 r.val + 0#32 == BitVec.ofNat 32 c.val)) = _
  rw [ofBits_one, uitofp_ofBool, BitVec.add_zero]
  unfold offd
  by_cases h : r = c
  · rw [if_pos h, if_pos (by simpa using (ofNat32_eq_iff r c).2 h), ← EReal.coe_one, ← EReal.coe_sub, sub_self,
      EReal.coe_zero]
  · rw [if_neg h, if_neg (by simpa using fun h' => h ((ofNat32_eq_iff r c).1 h'))]
    simp

theorem mask_eq (r c : Fin 8192) : val_main_v17 (F := Ideal) lab (ix2 r c) = mask lab r c := by
  rw [val_main_v17_apply, same_eq, offd_eq]
  rfl

/-! ## The log-probabilities -/

/-- The similarity less its row's maximum. -/
def logit (r c : Fin 8192) : EReal := sim x r c - rowmax x r

theorem logit_eq (r c : Fin 8192) : val_main_v25 (F := Ideal) x (ix2 r c) = logit x r c := by
  rw [val_main_v25_apply, sim_eq, val_main_v24_apply, val_main_v23_apply,
    idx1_eq (idx_main_v23 (idx_main_v24 (ix2 r c))) r rfl, rowmax_eq]
  rfl

/-- The exponential of the logit, off the diagonal. -/
def expl (r c : Fin 8192) : EReal := Ideal.exp (logit x r c) * offd r c

theorem expl_eq (r c : Fin 8192) : val_main_v27 (F := Ideal) x (ix2 r c) = expl x r c := by
  rw [val_main_v27_apply, val_main_v26_apply, logit_eq, offd_eq]
  rfl

/-- The sum of row r's exponentials. -/
def rowsum (r : Fin 8192) : EReal := ∑ c : Fin 8192, expl x r c

theorem rowsum_eq (r : Fin 8192) : val_main_v28 (F := Ideal) x (ix1 r) = rowsum x r := by
  rw [val_main_v28_apply, val_main_cst_2_apply]
  show Ideal.ofBits .f32 0x00000000#32 + _ = _
  rw [ofBits_zero, zero_add]
  refine Finset.sum_congr rfl fun c _ => ?_
  rw [idx2_eq (idx_main_v28 (ix1 r) c) r c rfl rfl, expl_eq]

/-- The small positive constant added before the logarithm and to the divisor. -/
def eps : EReal := Ideal.ofBits .f32 0x2B8CBCCC#32

theorem eps_eq : eps = ((9223372 / 9223372036854775808 : ℝ) : EReal) := ofBits_eps

/-- The log-probability of column c in row r. -/
def logprob (r c : Fin 8192) : EReal := logit x r c - Ideal.log (rowsum x r + eps)

theorem logprob_eq (r c : Fin 8192) : val_main_v34 (F := Ideal) x (ix2 r c) = logprob x r c := by
  rw [val_main_v34_apply, logit_eq, val_main_v33_apply, val_main_v32_apply, val_main_v31_apply, val_main_v29_apply,
    idx1_eq (idx_main_v29 (idx_main_v33 (ix2 r c))) r rfl, rowsum_eq, val_main_v30_apply, val_main_cst_3_apply]
  rfl

/-! ## The per-row means and the loss -/

/-- The number of positives of row r. -/
def masksum (r : Fin 8192) : EReal := ∑ c : Fin 8192, mask lab r c

theorem masksum_eq (r : Fin 8192) : val_main_v35 (F := Ideal) lab (ix1 r) = masksum lab r := by
  rw [val_main_v35_apply, val_main_cst_4_apply]
  show Ideal.ofBits .f32 0x00000000#32 + _ = _
  rw [ofBits_zero, zero_add]
  refine Finset.sum_congr rfl fun c _ => ?_
  rw [idx2_eq (idx_main_v35 (ix1 r) c) r c rfl rfl, mask_eq]

/-- 1 where row r has a positive. -/
def valid (r : Fin 8192) : EReal := if 0 < masksum lab r then 1 else 0

theorem valid_eq (r : Fin 8192) : val_main_v38 (F := Ideal) lab (ix1 r) = valid lab r := by
  rw [val_main_v38_apply, val_main_v37_apply, masksum_eq, val_main_v36_apply, val_main_cst_5_apply]
  show FloatOps.uitofp (F := Ideal) .f32
      (BitVec.ofBool (decide (Ideal.ofBits .f32 0x00000000#32 < masksum lab r))) = _
  rw [uitofp_ofBool, ofBits_zero]
  unfold valid
  by_cases h : 0 < masksum lab r
  · rw [if_pos h, if_pos (by simpa using h)]
  · rw [if_neg h, if_neg (by simpa using h)]

/-- The mean log-probability over row r's positives. -/
def mlpp (r : Fin 8192) : EReal :=
  Ideal.div (∑ c : Fin 8192, mask lab r c * logprob x r c) (masksum lab r + eps)

theorem mlpp_eq (r : Fin 8192) : val_main_v43 (F := Ideal) x lab (ix1 r) = mlpp x lab r := by
  rw [val_main_v43_apply, val_main_v40_apply, val_main_cst_6_apply, val_main_v42_apply, masksum_eq, val_main_v41_apply,
    val_main_cst_7_apply]
  have hs : ∑ k : Fin 8192, val_main_v39 (F := Ideal) x lab (idx_main_v40 (ix1 r) k)
      = ∑ c : Fin 8192, mask lab r c * logprob x r c :=
    Finset.sum_congr rfl fun c _ => by
      rw [idx2_eq (idx_main_v40 (ix1 r) c) r c rfl rfl, val_main_v39_apply, mask_eq, logprob_eq]
      rfl
  rw [hs]
  show Ideal.div (Ideal.ofBits .f32 0x00000000#32 + _) _ = _
  rw [ofBits_zero, zero_add]
  rfl

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (g : (⟨1, ![n]⟩ : Shape).Idx → M) :
    ∑ i, g i = ∑ a : Fin n, g (ix1 a) := by
  rw [← Equiv.sum_comp (idxEquiv1 (n := n)).symm g]
  rfl

/-- The number of rows that have a positive. -/
def nvalid : EReal := ∑ r : Fin 8192, valid lab r

theorem nvalid_eq (i : S_.Idx) : val_main_v44 (F := Ideal) lab i = nvalid lab := by
  rw [val_main_v44_apply, val_main_cst_8_apply]
  show Ideal.ofBits .f32 0x00000000#32 + _ = _
  rw [ofBits_zero, zero_add, sum_idx1]
  exact Finset.sum_congr rfl fun r _ => valid_eq lab r

/-- The loss: minus the sum of the valid rows' means, over the number of valid rows (at least 1). -/
def loss : EReal := Ideal.div (-(∑ r : Fin 8192, mlpp x lab r * valid lab r)) (max (nvalid lab) 1)

theorem loss_eq (i : S_.Idx) : val_main_v49 (F := Ideal) x lab i = loss x lab := by
  rw [val_main_v49_apply, val_main_v47_apply, val_main_v46_apply, val_main_cst_9_apply, val_main_v48_apply, nvalid_eq,
    val_main_cst_10_apply, sum_idx1]
  have hs : ∑ a : Fin 8192, val_main_v45 (F := Ideal) x lab (ix1 a) = ∑ r : Fin 8192, mlpp x lab r * valid lab r :=
    Finset.sum_congr rfl fun r _ => by
      rw [val_main_v45_apply, mlpp_eq, valid_eq]
      rfl
  rw [hs]
  show Ideal.div (-(Ideal.ofBits .f32 0x00000000#32 + _)) (max (nvalid lab) (Ideal.ofBits .f32 0x3F800000#32)) = _
  rw [ofBits_zero, zero_add, ofBits_one]
  rfl

/-- The run's result buffer, at its one index, is the loss of the two argument arrays. -/
theorem res_eq (m : (ℓ : Loc nD τ sig) → Buf (Elt Ideal) ℓ) (c : Dev nD) (i : S_.Idx) :
    Cert.ReferenceIdeal.ValueP.res_main_v49 m c i
      = loss (m ((c.tc : Thread nD τ).loc main_arg0)) (m ((c.tc : Thread nD τ).loc main_arg1)) := by
  rw [val_main_v49_eq]
  exact loss_eq _ _ i

end Cert.ReferenceIdeal.RefValue

end
-- ==== Proof.RefPre.lean ====
/-
  The precondition on the arguments, decoded at the ideal values. It is the conjunction of two statements about the
  feature matrix x: every entry has absolute value below +inf, and every row's sum of squares is above 0. Each is a
  reduction by "and" over an array of one-bit comparisons that came out 1, so every comparison is 1. An extended
  real whose absolute value max v (-v) is below ⊤ is a real number (⊥ and ⊤ both have absolute value ⊤), and the
  row's sum of squares is the squared row norm.
-/
import proofs.«127494_j85907935854913_2_alg».proof.Pre_finite_inputs
import proofs.«127494_j85907935854913_2_alg».proof.Proof.RefValue
import Idealize.ShloMosaic.Lib.ReduceAll

noncomputable section

namespace Cert.Pre.Decode

open Cert.ReferenceIdeal Cert.ReferenceIdeal.ReadP Cert.ReferenceIdeal.RefValue Idealize.ShloMosaic Idealize.ShloMosaic.ValueIdx

/-- The scalar shape has one index. -/
instance : Subsingleton (⟨0, ![]⟩ : Shape).Idx := ⟨fun a b => funext fun d => d.elim0⟩

/-- The word of +inf denotes ⊤. -/
theorem ofBits_inf : Ideal.ofBits .f32 0x7F800000#32 = ⊤ := by
  simp [Ideal.ofBits, Ideal.ieee]

/-- A one-bit word made from a truth value is 1 exactly when the value is true. -/
theorem ofBool_one_iff (b : Bool) : BitVec.ofBool b = 1#1 ↔ b = true := by
  cases b <;> decide

/-- An extended real whose absolute value is below ⊤ is a real number. -/
theorem real_of_abs_lt_top (v : EReal) (h : max v (-v) < ⊤) : ∃ y : ℝ, v = (y : EReal) := by
  induction v using EReal.rec with
  | bot => simp at h
  | coe y => exact ⟨y, rfl⟩
  | top => simp at h

/-- The precondition decoded: every entry of x is a real number, and every row of x has a positive squared norm. -/
theorem decode [Cert.Pre_finite_inputs.Facts] (x : (⟨S8192x512, .f32⟩ : BufTy).Contents (Elt Ideal))
    (lab : (⟨S8192, .i32⟩ : BufTy).Contents (Elt Ideal))
    (h : Cert.Pre_finite_inputs.fn (F := Ideal) x lab = fun _ => 1#1) :
    (∀ (r : Fin 8192) (k : Fin 512), ∃ y : ℝ, x (ix2 r k) = (y : EReal)) ∧ ∀ r : Fin 8192, 0 < sq x r := by
  have e := congrFun h ix0
  dsimp only [Cert.Pre_finite_inputs.fn] at e
  obtain ⟨e1, e2⟩ := IntOp.andi_eq_one.1 e
  have a1 := Host.reduce_andi_all _ _ _ _ _ e1
  have a2 := Host.reduce_andi_all _ _ _ _ _ e2
  refine ⟨fun r k => ?_, fun r => ?_⟩
  · have t := a1 (ix2 r k)
    change BitVec.ofBool (decide (max (x (ix2 r k)) (-(x (ix2 r k))) < Ideal.ofBits .f32 0x7F800000#32)) = 1#1 at t
    rw [ofBool_one_iff, decide_eq_true_eq, ofBits_inf] at t
    exact real_of_abs_lt_top _ t
  · have t := a2 (ix1 r)
    change BitVec.ofBool (decide (Ideal.ofBits .f32 0x00000000#32 < val_main_call0_v1 (F := Ideal) x (ix1 r))) = 1#1 at t
    rw [ofBool_one_iff, decide_eq_true_eq, ofBits_zero, sq_eq] at t
    exact t

end Cert.Pre.Decode

end
-- ==== Proof.LibSupConLaw.lean ====
import Mathlib
import Idealize.ShloMosaic.PureOps.Ideal

/-!
# Supervised-contrastive row law: general lemmas

Rows of a matrix are divided by their Euclidean norms, so every row is a unit vector and the
inner product of two rows is at most one (Cauchy–Schwarz), with equality on the diagonal.
Scaling by a positive constant `1 / D` therefore puts the row maximum of the scaled inner
products exactly at `1 / D`.  A loss that shifts by that row maximum and a loss that shifts by
the constant `1 / D` are then the same function, even with a small constant added inside the
logarithm.  Everything is stated over abstract finite index types.
-/

open scoped BigOperators

namespace LibSupConLaw

/-- Cauchy–Schwarz for unit vectors: the inner product of two vectors whose squared Euclidean
norms are both one is at most one.  Proof: `0 ≤ ∑ (u k - v k)² = 2 - 2 ∑ u k v k`. -/
theorem inner_le_one {κ : Type*} [Fintype κ] (u v : κ → ℝ) (hu : ∑ k, u k * u k = 1)
    (hv : ∑ k, v k * v k = 1) : ∑ k, u k * v k ≤ 1 := by
  have h : 0 ≤ ∑ k, (u k - v k) * (u k - v k) :=
    Finset.sum_nonneg (fun k _ => mul_self_nonneg _)
  have e : ∑ k, (u k - v k) * (u k - v k)
      = (∑ k, u k * u k) - 2 * (∑ k, u k * v k) + ∑ k, v k * v k := by
    rw [Finset.mul_sum, ← Finset.sum_sub_distrib, ← Finset.sum_add_distrib]
    apply Finset.sum_congr rfl
    intro k _
    ring
  rw [e, hu, hv] at h
  linarith

/-- Dividing a vector with positive squared Euclidean norm by its Euclidean norm gives a unit
vector: each squared entry becomes `x k * x k / S` with `S` the squared norm, and these sum
to `S / S = 1`. -/
theorem normalize_unit {κ : Type*} [Fintype κ] (x : κ → ℝ) (hx : 0 < ∑ k, x k * x k) :
    ∑ k, (x k / Real.sqrt (∑ j, x j * x j)) * (x k / Real.sqrt (∑ j, x j * x j)) = 1 := by
  have hs : Real.sqrt (∑ j, x j * x j) * Real.sqrt (∑ j, x j * x j) = ∑ j, x j * x j :=
    Real.mul_self_sqrt hx.le
  have hk : ∀ k, (x k / Real.sqrt (∑ j, x j * x j)) * (x k / Real.sqrt (∑ j, x j * x j))
      = (x k * x k) / (∑ j, x j * x j) := by
    intro k
    rw [div_mul_div_comm, hs]
  rw [Finset.sum_congr rfl (fun k _ => hk k), ← Finset.sum_div]
  exact div_self hx.ne'

/-- The row maximum of the scaled inner products is exactly the scale.  If one entry of `s` is
one, every entry is at most one, and `D` is positive, then the maximum over the row of
`s c / D` (taken from `⊥` in the extended reals) is `1 / D`: every term is at most `1 / D`
because dividing by a positive number is monotone, and the entry that is one attains it. -/
theorem fold_max_scaled {ι : Type*} [Fintype ι] (s : ι → ℝ) (r : ι) (D : ℝ) (hD : 0 < D)
    (hr : s r = 1) (hle : ∀ c, s c ≤ 1) :
    (Finset.univ.fold max (⊥ : EReal) fun c => ((s c / D : ℝ) : EReal))
      = ((1 / D : ℝ) : EReal) := by
  apply le_antisymm
  · rw [Finset.fold_max_le]
    refine ⟨bot_le, fun c _ => ?_⟩
    exact EReal.coe_le_coe_iff.mpr (div_le_div_of_nonneg_right (hle c) hD.le)
  · rw [Finset.le_fold_max]
    right
    exact ⟨r, Finset.mem_univ r, by rw [hr]⟩

/-- Summing against the mask that is zero at `r` and one elsewhere removes the `r` term:
`∑ c, g c * (1 - [r = c]) = (∑ c, g c) - g r`. -/
theorem sum_mul_mask {ι : Type*} [Fintype ι] [DecidableEq ι] (g : ι → ℝ) (r : ι) :
    ∑ c, g c * (1 - if r = c then 1 else 0) = (∑ c, g c) - g r := by
  have h : ∀ c, g c * (1 - if r = c then (1 : ℝ) else 0) = g c - (if r = c then g c else 0) := by
    intro c
    split_ifs <;> ring
  rw [Finset.sum_congr rfl (fun c _ => h c), Finset.sum_sub_distrib, Finset.sum_ite_eq]
  simp

/-- The row law over the reals, for any scores `s`, any weights `e`, any scale `a` used also as
the shift, and any constant `ε` inside the logarithm.  The left side is the form that subtracts the
`r` term from each full-row sum; the right side is the form that multiplies every term by the mask
that is zero at `r`.  With `L` the common logarithm, both numerators are
`∑_{c ≠ r} e c * (s c * a - a - L)` and both denominators are `(∑_{c ≠ r} e c) + ε`. -/
theorem row_law {ι : Type*} [Fintype ι] [DecidableEq ι] (s e : ι → ℝ) (r : ι) (a ε : ℝ) :
    ((((∑ c, e c * (s c * a)) - e r * (s r * a)) - a * ((∑ c, e c) - e r))
        - ((∑ c, e c) - e r)
          * Real.log (((∑ c, Real.exp (s c * a - a)) - Real.exp (s r * a - a)) + ε))
      / (((∑ c, e c) - e r) + ε)
    = (∑ c, (e c * (1 - if r = c then 1 else 0))
          * ((s c * a - a)
            - Real.log ((∑ c', Real.exp (s c' * a - a) * (1 - if r = c' then 1 else 0)) + ε)))
      / ((∑ c, e c * (1 - if r = c then 1 else 0)) + ε) := by
  rw [sum_mul_mask e r, sum_mul_mask (fun c => Real.exp (s c * a - a)) r]
  set L := Real.log (((∑ c, Real.exp (s c * a - a)) - Real.exp (s r * a - a)) + ε) with hL
  have hmove : ∀ c, (e c * (1 - if r = c then (1 : ℝ) else 0)) * ((s c * a - a) - L)
      = (e c * ((s c * a - a) - L)) * (1 - if r = c then (1 : ℝ) else 0) := by
    intro c
    ring
  have hsum : ∑ c, e c * ((s c * a - a) - L)
      = (∑ c, e c * (s c * a)) - (∑ c, e c) * a - (∑ c, e c) * L := by
    rw [Finset.sum_mul, Finset.sum_mul, ← Finset.sum_sub_distrib, ← Finset.sum_sub_distrib]
    apply Finset.sum_congr rfl
    intro c _
    ring
  rw [Finset.sum_congr rfl (fun c _ => hmove c),
    sum_mul_mask (fun c => e c * ((s c * a - a) - L)) r, hsum]
  congr 1
  ring

/-! ### The ideal operations on coerced reals

The ideal reading of a float operation is its textbook operation on the extended reals.  On
coerced reals, away from the corners (a logarithm of a non-positive number, a division by zero),
each one is the coerced real operation. -/

open Idealize.ShloMosaic

/-- A finite sum of coerced reals is the coerced real sum. -/
theorem coe_sum_univ {ι : Type*} [Fintype ι] (f : ι → ℝ) :
    ∑ c, ((f c : ℝ) : EReal) = ((∑ c, f c : ℝ) : EReal) := by
  classical
  induction (Finset.univ : Finset ι) using Finset.induction_on with
  | empty => simp
  | insert i t hi ih => rw [Finset.sum_insert hi, Finset.sum_insert hi, ih, EReal.coe_add]

/-- The ideal exponential of a coerced real is the coerced real exponential. -/
theorem ideal_exp_coe (x : ℝ) : Ideal.exp ((x : ℝ) : EReal) = ((Real.exp x : ℝ) : EReal) := rfl

/-- The ideal logarithm of a coerced positive real is the coerced real logarithm. -/
theorem ideal_log_coe_pos (x : ℝ) (hx : 0 < x) :
    Ideal.log ((x : ℝ) : EReal) = ((Real.log x : ℝ) : EReal) := by
  rw [Ideal.log_coe, if_neg (not_le.mpr hx)]

/-- The ideal quotient of coerced reals with a nonzero divisor is the coerced real quotient. -/
theorem ideal_div_coe (x y : ℝ) (hy : y ≠ 0) :
    Ideal.div ((x : ℝ) : EReal) ((y : ℝ) : EReal) = ((x / y : ℝ) : EReal) := by
  rw [Ideal.div_coe hy, ← EReal.coe_mul, mul_one_div]

/-- A sum of exponentials with one term removed is non-negative, so adding a positive constant
makes it positive: `0 < (∑ c, exp (f c)) - exp (f r) + ε`. -/
theorem sum_exp_sub_add_pos {ι : Type*} [Fintype ι] (f : ι → ℝ) (r : ι) (ε : ℝ) (hε : 0 < ε) :
    0 < ((∑ c, Real.exp (f c)) - Real.exp (f r)) + ε := by
  have h : Real.exp (f r) ≤ ∑ c, Real.exp (f c) :=
    Finset.single_le_sum (fun c _ => (Real.exp_pos (f c)).le) (Finset.mem_univ r)
  linarith

/-- A sum of non-negative weights with one term removed is non-negative, so adding a positive
constant makes it positive. -/
theorem sum_sub_add_pos_of_nonneg {ι : Type*} [Fintype ι] (e : ι → ℝ) (r : ι) (ε : ℝ)
    (he : ∀ c, 0 ≤ e c) (hε : 0 < ε) : 0 < ((∑ c, e c) - e r) + ε := by
  have h : e r ≤ ∑ c, e c := Finset.single_le_sum (fun c _ => he c) (Finset.mem_univ r)
  linarith

/-- The same for weights that are each zero or one (a label mask). -/
theorem sum_sub_add_pos_of_zero_one {ι : Type*} [Fintype ι] (e : ι → ℝ) (r : ι) (ε : ℝ)
    (he : ∀ c, e c = 0 ∨ e c = 1) (hε : 0 < ε) : 0 < ((∑ c, e c) - e r) + ε :=
  sum_sub_add_pos_of_nonneg e r ε
    (fun c => by rcases he c with h | h <;> rw [h] <;> norm_num) hε

/-- The row maximum in multiplied form: if one entry of `s` is one, every entry is at most one,
and the scale `a` is non-negative, then the maximum over the row of `s c * a` (taken from `⊥`) is
`a`. -/
theorem fold_max_mul {ι : Type*} [Fintype ι] (s : ι → ℝ) (r : ι) (a : ℝ) (ha : 0 ≤ a)
    (hr : s r = 1) (hle : ∀ c, s c ≤ 1) :
    (Finset.univ.fold max (⊥ : EReal) fun c => ((s c * a : ℝ) : EReal)) = ((a : ℝ) : EReal) := by
  apply le_antisymm
  · rw [Finset.fold_max_le]
    refine ⟨bot_le, fun c _ => ?_⟩
    exact EReal.coe_le_coe_iff.mpr (by nlinarith [hle c])
  · rw [Finset.le_fold_max]
    right
    exact ⟨r, Finset.mem_univ r, by rw [hr, one_mul]⟩

/-- The row law with the masked side written with a division by `D` and the shift `1 / D` (the row
maximum of `s c / D` when the largest entry of `s` is one), and the other side written with the
scale and shift `1 / D`.  It is `row_law` at `a = 1 / D`, since `x / D = x * (1 / D)`. -/
theorem row_law_div {ι : Type*} [Fintype ι] [DecidableEq ι] (s e : ι → ℝ) (r : ι) (D ε : ℝ) :
    ((((∑ c, e c * (s c * (1 / D))) - e r * (s r * (1 / D))) - (1 / D) * ((∑ c, e c) - e r))
        - ((∑ c, e c) - e r)
          * Real.log (((∑ c, Real.exp (s c * (1 / D) - 1 / D)) - Real.exp (s r * (1 / D) - 1 / D))
              + ε))
      / (((∑ c, e c) - e r) + ε)
    = (∑ c, (e c * (1 - if r = c then 1 else 0))
          * ((s c / D - 1 / D)
            - Real.log ((∑ c', Real.exp (s c' / D - 1 / D) * (1 - if r = c' then 1 else 0)) + ε)))
      / ((∑ c, e c * (1 - if r = c then 1 else 0)) + ε) := by
  have h : ∀ c, s c / D = s c * (1 / D) := fun c => div_eq_mul_one_div (s c) D
  simp_rw [h]
  exact row_law s e r (1 / D) ε

/-! ### The row law on the extended reals, at the ideal operations -/

/-- The mask that is zero at `r` and one elsewhere, on the extended reals, is the coerced real
mask. -/
theorem mask_coe {ι : Type*} [DecidableEq ι] (r c : ι) :
    (1 - if r = c then (1 : EReal) else 0)
      = (((1 - if r = c then (1 : ℝ) else 0 : ℝ)) : EReal) := by
  split_ifs
  · rw [sub_self, EReal.coe_zero, ← EReal.coe_one, ← EReal.coe_sub, sub_self, EReal.coe_zero]
  · simp

/-- The form that subtracts the `r` term from each full-row sum, read at the ideal operations on
coerced reals, is the coerced real form: every intermediate value is a real, the logarithm's
argument is positive because `ε` is, and the divisor is nonzero. -/
theorem sub_form_ideal {ι : Type*} [Fintype ι] (s e : ι → ℝ) (r : ι) (a ε : ℝ) (hε : 0 < ε)
    (hden : ((∑ c, e c) - e r) + ε ≠ 0) :
    Ideal.div
      ((((∑ c, ((e c : ℝ) : EReal) * (((s c : ℝ) : EReal) * ((a : ℝ) : EReal)))
            - ((e r : ℝ) : EReal) * (((s r : ℝ) : EReal) * ((a : ℝ) : EReal)))
          - ((a : ℝ) : EReal) * ((∑ c, ((e c : ℝ) : EReal)) - ((e r : ℝ) : EReal)))
        - ((∑ c, ((e c : ℝ) : EReal)) - ((e r : ℝ) : EReal))
          * Ideal.log
              (((∑ c, Ideal.exp (((s c : ℝ) : EReal) * ((a : ℝ) : EReal) - ((a : ℝ) : EReal)))
                  - Ideal.exp (((s r : ℝ) : EReal) * ((a : ℝ) : EReal) - ((a : ℝ) : EReal)))
                + ((ε : ℝ) : EReal)))
      (((∑ c, ((e c : ℝ) : EReal)) - ((e r : ℝ) : EReal)) + ((ε : ℝ) : EReal))
    = ((((((∑ c, e c * (s c * a)) - e r * (s r * a)) - a * ((∑ c, e c) - e r))
          - ((∑ c, e c) - e r)
            * Real.log (((∑ c, Real.exp (s c * a - a)) - Real.exp (s r * a - a)) + ε))
        / (((∑ c, e c) - e r) + ε) : ℝ) : EReal) := by
  simp only [← EReal.coe_mul, ← EReal.coe_sub, ← EReal.coe_add, ideal_exp_coe, coe_sum_univ]
  rw [ideal_log_coe_pos _ (sum_exp_sub_add_pos (fun c => s c * a - a) r ε hε)]
  simp only [← EReal.coe_mul, ← EReal.coe_sub, ← EReal.coe_add]
  rw [ideal_div_coe _ _ hden]

/-- The form that multiplies every term by the mask that is zero at `r`, read at the ideal
operations on coerced reals, is the coerced real form, under the same two side conditions. -/
theorem mask_form_ideal {ι : Type*} [Fintype ι] [DecidableEq ι] (s e : ι → ℝ) (r : ι) (a ε : ℝ)
    (hε : 0 < ε) (hden : ((∑ c, e c) - e r) + ε ≠ 0) :
    Ideal.div
      (∑ c, (((e c : ℝ) : EReal) * (1 - if r = c then (1 : EReal) else 0))
          * ((((s c : ℝ) : EReal) * ((a : ℝ) : EReal) - ((a : ℝ) : EReal))
            - Ideal.log
                ((∑ c', Ideal.exp (((s c' : ℝ) : EReal) * ((a : ℝ) : EReal) - ((a : ℝ) : EReal))
                      * (1 - if r = c' then (1 : EReal) else 0))
                  + ((ε : ℝ) : EReal))))
      ((∑ c, ((e c : ℝ) : EReal) * (1 - if r = c then (1 : EReal) else 0)) + ((ε : ℝ) : EReal))
    = (((∑ c, (e c * (1 - if r = c then 1 else 0))
            * ((s c * a - a)
              - Real.log
                  ((∑ c', Real.exp (s c' * a - a) * (1 - if r = c' then 1 else 0)) + ε)))
        / ((∑ c, e c * (1 - if r = c then 1 else 0)) + ε) : ℝ) : EReal) := by
  have hpos : 0 < (∑ c', Real.exp (s c' * a - a) * (1 - if r = c' then (1 : ℝ) else 0)) + ε := by
    rw [sum_mul_mask (fun c => Real.exp (s c * a - a)) r]
    exact sum_exp_sub_add_pos (fun c => s c * a - a) r ε hε
  have hden' : (∑ c, e c * (1 - if r = c then (1 : ℝ) else 0)) + ε ≠ 0 := by
    rw [sum_mul_mask e r]
    exact hden
  simp only [mask_coe, ← EReal.coe_mul, ← EReal.coe_sub, ← EReal.coe_add, ideal_exp_coe,
    coe_sum_univ]
  rw [ideal_log_coe_pos _ hpos]
  simp only [← EReal.coe_mul, ← EReal.coe_sub, ← EReal.coe_add, coe_sum_univ]
  rw [ideal_div_coe _ _ hden']

/-- The row law on the extended reals at the ideal operations, for coerced real scores `s`,
non-negative coerced real weights `e`, a coerced real scale `a` used also as the shift, and a
positive constant `ε` inside the logarithm: the form that subtracts the `r` term from each
full-row sum equals the form that multiplies every term by the mask that is zero at `r`.  Both
sides are coerced reals (`sub_form_ideal`, `mask_form_ideal`) and the reals agree (`row_law`). -/
theorem row_law_ideal {ι : Type*} [Fintype ι] [DecidableEq ι] (s e : ι → ℝ) (r : ι) (a ε : ℝ)
    (he : ∀ c, 0 ≤ e c) (hε : 0 < ε) :
    Ideal.div
      ((((∑ c, ((e c : ℝ) : EReal) * (((s c : ℝ) : EReal) * ((a : ℝ) : EReal)))
            - ((e r : ℝ) : EReal) * (((s r : ℝ) : EReal) * ((a : ℝ) : EReal)))
          - ((a : ℝ) : EReal) * ((∑ c, ((e c : ℝ) : EReal)) - ((e r : ℝ) : EReal)))
        - ((∑ c, ((e c : ℝ) : EReal)) - ((e r : ℝ) : EReal))
          * Ideal.log
              (((∑ c, Ideal.exp (((s c : ℝ) : EReal) * ((a : ℝ) : EReal) - ((a : ℝ) : EReal)))
                  - Ideal.exp (((s r : ℝ) : EReal) * ((a : ℝ) : EReal) - ((a : ℝ) : EReal)))
                + ((ε : ℝ) : EReal)))
      (((∑ c, ((e c : ℝ) : EReal)) - ((e r : ℝ) : EReal)) + ((ε : ℝ) : EReal))
    = Ideal.div
      (∑ c, (((e c : ℝ) : EReal) * (1 - if r = c then (1 : EReal) else 0))
          * ((((s c : ℝ) : EReal) * ((a : ℝ) : EReal) - ((a : ℝ) : EReal))
            - Ideal.log
                ((∑ c', Ideal.exp (((s c' : ℝ) : EReal) * ((a : ℝ) : EReal) - ((a : ℝ) : EReal))
                      * (1 - if r = c' then (1 : EReal) else 0))
                  + ((ε : ℝ) : EReal))))
      ((∑ c, ((e c : ℝ) : EReal) * (1 - if r = c then (1 : EReal) else 0))
        + ((ε : ℝ) : EReal)) := by
  have hden : ((∑ c, e c) - e r) + ε ≠ 0 := (sum_sub_add_pos_of_nonneg e r ε he hε).ne'
  rw [sub_form_ideal s e r a ε hε hden, mask_form_ideal s e r a ε hε hden, row_law s e r a ε]

end LibSupConLaw
-- ==== Proof.RefReal.lean ====
/-
  The reference's stages over the real numbers. When every entry of the feature matrix x is a real number xr r k and
  every row has a positive squared norm, each stage of the reference is a coerced real:

    the norm of row r is sqrt (Σ_j xr r j²) > 0;
    the normalised row is fr r k = xr r k / sqrt (Σ_j xr r j²), a unit vector;
    the Gram entry is s r c = Σ_k fr r k · fr c k, with s r r = 1 and s r c ≤ 1 (Cauchy–Schwarz);
    the similarity is s r c / D' with D' = 9395241 / 2^27, so the row maximum is 1 / D';
    with e r c = 1 when rows r and c carry the same label and 0 otherwise, and the mask 1 - [r = c],
    the mean log-probability of row r is
        (Σ_c e r c (1 - [r = c]) ((s r c / D' - 1 / D') - log (Σ_c' exp (s r c' / D' - 1 / D') (1 - [r = c']) + ε)))
          / (Σ_c e r c (1 - [r = c]) + ε),
    and row r is valid exactly when (Σ_c e r c) - e r r > 0.
-/
import proofs.«127494_j85907935854913_2_alg».proof.Proof.RefValue
import proofs.«127494_j85907935854913_2_alg».proof.Proof.LibSupConLaw

noncomputable section

namespace Cert.ReferenceIdeal.RefReal

open Cert.ReferenceIdeal Cert.ReferenceIdeal.RefValue Idealize.ShloMosaic Idealize.ShloMosaic.ValueIdx
open scoped BigOperators

/-! ## The real stages -/

/-- The normalised row over the reals. -/
def fr (xr : Fin 8192 → Fin 512 → ℝ) (r : Fin 8192) (k : Fin 512) : ℝ :=
  xr r k / Real.sqrt (∑ j, xr r j * xr r j)

/-- The Gram entry over the reals. -/
def s (xr : Fin 8192 → Fin 512 → ℝ) (r c : Fin 8192) : ℝ := ∑ k, fr xr r k * fr xr c k

/-- 1 where rows r and c carry the same label, over the reals. -/
def e (lab : (⟨S8192, .i32⟩ : BufTy).Contents (Elt Ideal)) (r c : Fin 8192) : ℝ :=
  if lab (ix1 r) = lab (ix1 c) then 1 else 0

/-- The temperature as a real number. -/
def D' : ℝ := 9395241 / 134217728

/-- The small constant as a real number. -/
def epsR : ℝ := 9223372 / 9223372036854775808

theorem D'_pos : 0 < D' := by unfold D'; norm_num

theorem epsR_pos : 0 < epsR := by unfold epsR; norm_num

theorem D_coe : D = ((D' : ℝ) : EReal) := D_eq

theorem eps_coe : eps = ((epsR : ℝ) : EReal) := eps_eq

theorem e_zero_one (lab : (⟨S8192, .i32⟩ : BufTy).Contents (Elt Ideal)) (r c : Fin 8192) :
    e lab r c = 0 ∨ e lab r c = 1 := by
  unfold e
  split_ifs
  · exact Or.inr rfl
  · exact Or.inl rfl

/-- The entries of x as real numbers, when they are. -/
def xrOf (x : (⟨S8192x512, .f32⟩ : BufTy).Contents (Elt Ideal)) (r : Fin 8192) (k : Fin 512) : ℝ :=
  (x (ix2 r k)).toReal

theorem xrOf_spec (x : (⟨S8192x512, .f32⟩ : BufTy).Contents (Elt Ideal))
    (hfin : ∀ (r : Fin 8192) (k : Fin 512), ∃ y : ℝ, x (ix2 r k) = (y : EReal)) (r : Fin 8192) (k : Fin 512) :
    x (ix2 r k) = ((xrOf x r k : ℝ) : EReal) := by
  obtain ⟨y, hy⟩ := hfin r k
  unfold xrOf
  rw [hy, EReal.toReal_coe]

variable (x : (⟨S8192x512, .f32⟩ : BufTy).Contents (Elt Ideal)) (lab : (⟨S8192, .i32⟩ : BufTy).Contents (Elt Ideal))
  (xr : Fin 8192 → Fin 512 → ℝ) (hx : ∀ (r : Fin 8192) (k : Fin 512), x (ix2 r k) = ((xr r k : ℝ) : EReal))
  (hpos : ∀ r : Fin 8192, 0 < RefValue.sq x r)

/-! ## The normalised rows -/

include hx in
theorem sq_coe (r : Fin 8192) : RefValue.sq x r = ((∑ j, xr r j * xr r j : ℝ) : EReal) := by
  unfold RefValue.sq
  rw [← LibSupConLaw.coe_sum_univ]
  refine Finset.sum_congr rfl fun k _ => ?_
  rw [hx r k, EReal.coe_mul]

include hx hpos in
theorem sumsq_pos (r : Fin 8192) : 0 < ∑ j, xr r j * xr r j := by
  have h := hpos r
  rw [sq_coe x xr hx r] at h
  exact EReal.coe_pos.1 h

include hx hpos in
theorem root_pos (r : Fin 8192) : 0 < Real.sqrt (∑ j, xr r j * xr r j) :=
  Real.sqrt_pos.2 (sumsq_pos x xr hx hpos r)

include hx hpos in
theorem nrm_coe (r : Fin 8192) : nrm x r = ((Real.sqrt (∑ j, xr r j * xr r j) : ℝ) : EReal) := by
  unfold nrm
  rw [sq_coe x xr hx r, Ideal.sqrt_coe, if_neg (not_lt.2 (sumsq_pos x xr hx hpos r).le)]

include hx hpos in
theorem f_coe (r : Fin 8192) (k : Fin 512) : f x r k = ((fr xr r k : ℝ) : EReal) := by
  unfold f fr
  rw [hx r k, nrm_coe x xr hx hpos r, LibSupConLaw.ideal_div_coe _ _ (root_pos x xr hx hpos r).ne']

/-! ## The Gram matrix, the similarities and the row maximum -/

include hx hpos in
theorem gram_coe (r c : Fin 8192) : gram x r c = ((s xr r c : ℝ) : EReal) := by
  unfold gram s
  rw [← LibSupConLaw.coe_sum_univ]
  refine Finset.sum_congr rfl fun k _ => ?_
  rw [f_coe x xr hx hpos r k, f_coe x xr hx hpos c k, EReal.coe_mul]

include hx hpos in
theorem s_self (r : Fin 8192) : s xr r r = 1 :=
  LibSupConLaw.normalize_unit (xr r) (sumsq_pos x xr hx hpos r)

include hx hpos in
theorem s_le_one (r c : Fin 8192) : s xr r c ≤ 1 :=
  LibSupConLaw.inner_le_one (fr xr r) (fr xr c) (LibSupConLaw.normalize_unit (xr r) (sumsq_pos x xr hx hpos r))
    (LibSupConLaw.normalize_unit (xr c) (sumsq_pos x xr hx hpos c))

include hx hpos in
theorem sim_coe (r c : Fin 8192) : sim x r c = ((s xr r c / D' : ℝ) : EReal) := by
  unfold sim
  rw [gram_coe x xr hx hpos r c, D_coe, LibSupConLaw.ideal_div_coe _ _ D'_pos.ne']

include hx hpos in
theorem rowmax_coe (r : Fin 8192) : rowmax x r = ((1 / D' : ℝ) : EReal) := by
  unfold rowmax
  rw [show (fun c => sim x r c) = fun c => ((s xr r c / D' : ℝ) : EReal) from
    funext fun c => sim_coe x xr hx hpos r c]
  exact LibSupConLaw.fold_max_scaled (s xr r) r D' D'_pos (s_self x xr hx hpos r) (s_le_one x xr hx hpos r)

/-! ## The masks -/

theorem offd_coe (r c : Fin 8192) : offd r c = (((1 - if r = c then (1 : ℝ) else 0 : ℝ)) : EReal) := by
  unfold offd
  split_ifs
  · rw [sub_self, EReal.coe_zero]
  · rw [sub_zero, EReal.coe_one]

theorem same_coe (r c : Fin 8192) : same lab r c = ((e lab r c : ℝ) : EReal) := by
  unfold same e
  split_ifs
  · rw [EReal.coe_one]
  · rw [EReal.coe_zero]

theorem mask_coe (r c : Fin 8192) :
    mask lab r c = ((e lab r c * (1 - if r = c then 1 else 0) : ℝ) : EReal) := by
  unfold mask
  rw [same_coe, offd_coe, EReal.coe_mul]

/-! ## The log-probabilities -/

include hx hpos in
theorem logit_coe (r c : Fin 8192) : logit x r c = ((s xr r c / D' - 1 / D' : ℝ) : EReal) := by
  unfold logit
  rw [sim_coe x xr hx hpos r c, rowmax_coe x xr hx hpos r, ← EReal.coe_sub]

include hx hpos in
theorem expl_coe (r c : Fin 8192) :
    expl x r c = ((Real.exp (s xr r c / D' - 1 / D') * (1 - if r = c then 1 else 0) : ℝ) : EReal) := by
  unfold expl
  rw [logit_coe x xr hx hpos r c, offd_coe, LibSupConLaw.ideal_exp_coe, ← EReal.coe_mul]

include hx hpos in
theorem rowsum_coe (r : Fin 8192) :
    rowsum x r = ((∑ c', Real.exp (s xr r c' / D' - 1 / D') * (1 - if r = c' then 1 else 0) : ℝ) : EReal) := by
  unfold rowsum
  rw [← LibSupConLaw.coe_sum_univ]
  exact Finset.sum_congr rfl fun c _ => expl_coe x xr hx hpos r c

theorem rowsum_add_pos (r : Fin 8192) :
    0 < (∑ c', Real.exp (s xr r c' / D' - 1 / D') * (1 - if r = c' then (1 : ℝ) else 0)) + epsR := by
  rw [LibSupConLaw.sum_mul_mask (fun c => Real.exp (s xr r c / D' - 1 / D')) r]
  exact LibSupConLaw.sum_exp_sub_add_pos (fun c => s xr r c / D' - 1 / D') r epsR epsR_pos

include hx hpos in
theorem logprob_coe (r c : Fin 8192) :
    logprob x r c
      = (((s xr r c / D' - 1 / D')
          - Real.log ((∑ c', Real.exp (s xr r c' / D' - 1 / D') * (1 - if r = c' then 1 else 0)) + epsR) : ℝ) : EReal) := by
  unfold logprob
  rw [logit_coe x xr hx hpos r c, rowsum_coe x xr hx hpos r, eps_coe, ← EReal.coe_add,
    LibSupConLaw.ideal_log_coe_pos _ (rowsum_add_pos xr r), ← EReal.coe_sub]

/-! ## The per-row means -/

theorem masksum_coe (r : Fin 8192) :
    masksum lab r = ((∑ c, e lab r c * (1 - if r = c then 1 else 0) : ℝ) : EReal) := by
  unfold masksum
  rw [← LibSupConLaw.coe_sum_univ]
  exact Finset.sum_congr rfl fun c _ => mask_coe lab r c

theorem masksum_add_pos (r : Fin 8192) :
    0 < (∑ c, e lab r c * (1 - if r = c then (1 : ℝ) else 0)) + epsR := by
  rw [LibSupConLaw.sum_mul_mask (e lab r) r]
  exact LibSupConLaw.sum_sub_add_pos_of_zero_one (e lab r) r epsR (e_zero_one lab r) epsR_pos

include hx hpos in
/-- The mean log-probability of row r is the masked form of the row law, at the scores s r, the weights e r, the
    temperature D' and the constant epsR. -/
theorem mlpp_coe (r : Fin 8192) :
    mlpp x lab r
      = (((∑ c, (e lab r c * (1 - if r = c then 1 else 0))
              * ((s xr r c / D' - 1 / D')
                - Real.log ((∑ c', Real.exp (s xr r c' / D' - 1 / D') * (1 - if r = c' then 1 else 0)) + epsR)))
          / ((∑ c, e lab r c * (1 - if r = c then 1 else 0)) + epsR) : ℝ) : EReal) := by
  unfold mlpp
  have hnum : ∑ c : Fin 8192, mask lab r c * logprob x r c
      = ((∑ c, (e lab r c * (1 - if r = c then 1 else 0))
              * ((s xr r c / D' - 1 / D')
                - Real.log ((∑ c', Real.exp (s xr r c' / D' - 1 / D') * (1 - if r = c' then 1 else 0)) + epsR)) : ℝ) : EReal) := by
    rw [← LibSupConLaw.coe_sum_univ]
    refine Finset.sum_congr rfl fun c _ => ?_
    rw [mask_coe lab r c, logprob_coe x xr hx hpos r c, ← EReal.coe_mul]
  rw [hnum, masksum_coe lab r, eps_coe, ← EReal.coe_add, LibSupConLaw.ideal_div_coe _ _ (masksum_add_pos lab r).ne']

include hx hpos in
/-- The same mean in the form that subtracts the diagonal term from each full-row sum (the other side of the row law). -/
theorem mlpp_coe_sub (r : Fin 8192) :
    mlpp x lab r
      = (((((((∑ c, e lab r c * (s xr r c * (1 / D'))) - e lab r r * (s xr r r * (1 / D')))
              - (1 / D') * ((∑ c, e lab r c) - e lab r r))
            - ((∑ c, e lab r c) - e lab r r)
              * Real.log (((∑ c, Real.exp (s xr r c * (1 / D') - 1 / D')) - Real.exp (s xr r r * (1 / D') - 1 / D'))
                  + epsR))
          / (((∑ c, e lab r c) - e lab r r) + epsR) : ℝ)) : EReal) := by
  rw [LibSupConLaw.row_law_div (s xr r) (e lab r) r D' epsR]
  exact mlpp_coe x lab xr hx hpos r

/-- Row r is valid exactly when it has a positive other than itself. -/
theorem valid_coe (r : Fin 8192) :
    valid lab r = if 0 < ((∑ c, e lab r c) - e lab r r) then (1 : EReal) else 0 := by
  unfold valid
  rw [masksum_coe lab r, LibSupConLaw.sum_mul_mask (e lab r) r]
  by_cases h : 0 < (∑ c, e lab r c) - e lab r r
  · rw [if_pos h, if_pos (EReal.coe_pos.2 h)]
  · rw [if_neg h, if_neg (fun h' => h (EReal.coe_pos.1 h'))]

/-! ## The loss -/

/-- Row r's mean log-probability over the reals (the masked form of the row law). -/
def mlppR (lab : (⟨S8192, .i32⟩ : BufTy).Contents (Elt Ideal)) (xr : Fin 8192 → Fin 512 → ℝ) (r : Fin 8192) : ℝ :=
  (∑ c, (e lab r c * (1 - if r = c then 1 else 0))
      * ((s xr r c / D' - 1 / D')
        - Real.log ((∑ c', Real.exp (s xr r c' / D' - 1 / D') * (1 - if r = c' then 1 else 0)) + epsR)))
    / ((∑ c, e lab r c * (1 - if r = c then 1 else 0)) + epsR)

/-- 1 where row r has a positive other than itself, over the reals. -/
def validR (lab : (⟨S8192, .i32⟩ : BufTy).Contents (Elt Ideal)) (r : Fin 8192) : ℝ :=
  if 0 < (∑ c, e lab r c) - e lab r r then 1 else 0

include hx hpos in
theorem mlpp_coeR (r : Fin 8192) : mlpp x lab r = ((mlppR lab xr r : ℝ) : EReal) :=
  mlpp_coe x lab xr hx hpos r

theorem valid_coeR (r : Fin 8192) : valid lab r = ((validR lab r : ℝ) : EReal) := by
  rw [valid_coe lab r]
  unfold validR
  split_ifs
  · rw [EReal.coe_one]
  · rw [EReal.coe_zero]

theorem nvalid_coe : nvalid lab = ((∑ r, validR lab r : ℝ) : EReal) := by
  unfold nvalid
  rw [← LibSupConLaw.coe_sum_univ]
  exact Finset.sum_congr rfl fun r _ => valid_coeR lab r

include hx hpos in
/-- The loss is a real number: minus the sum of the valid rows' means over the number of valid rows, at least 1. -/
theorem loss_coe :
    loss x lab = ((-(∑ r, mlppR lab xr r * validR lab r) / max (∑ r, validR lab r) 1 : ℝ) : EReal) := by
  unfold loss
  have hs : ∑ r : Fin 8192, mlpp x lab r * valid lab r = ((∑ r, mlppR lab xr r * validR lab r : ℝ) : EReal) := by
    rw [← LibSupConLaw.coe_sum_univ]
    refine Finset.sum_congr rfl fun r _ => ?_
    rw [mlpp_coeR x lab xr hx hpos r, valid_coeR lab r, ← EReal.coe_mul]
  have hm : max ((∑ r, validR lab r : ℝ) : EReal) ((1 : ℝ) : EReal) = ((max (∑ r, validR lab r) 1 : ℝ) : EReal) :=
    (EReal.coe_strictMono.monotone.map_max).symm
  rw [hs, nvalid_coe lab, ← EReal.coe_one, hm, ← EReal.coe_neg,
    LibSupConLaw.ideal_div_coe _ _ (lt_of_lt_of_le one_pos (le_max_right _ _)).ne']

end Cert.ReferenceIdeal.RefReal

end
-- ==== Proof.LibTileSum.lean ====
import Mathlib

/-!
# A row sum accumulated tile by tile, with the row's own column removed

A row of `n = w * N` entries is read in `N` consecutive tiles of width `w`: tile `j` holds the
columns `w * j, …, w * j + w - 1`.  An accumulator starts at zero; each tile adds the sum of its
entries and then subtracts the entry in the row's own column `r` if that column lies in the tile.
After all the tiles the accumulator is the full row sum minus the entry at `r`.  The correction
inside a tile is itself a sum over the tile of the entries whose column is `r`, which is the entry
at `r` when `r` lies in the tile and zero otherwise.  The statements are given for entries
indexed by the natural numbers and by `Fin n`, over the reals and over the extended reals for
coerced real entries (where every intermediate value is a coerced real).
-/

open scoped BigOperators

namespace LibTileSum

/-- The correction inside tile `j`: the sum over the tile of the entries whose column is `r` is
the entry at `r` when `w * j ≤ r < w * (j + 1)`, and zero otherwise. -/
theorem diag_sum (w j r : ℕ) (g : ℕ → ℝ) :
    ∑ q : Fin w, (if w * j + q.val = r then g (w * j + q.val) else 0)
      = if w * j ≤ r ∧ r < w * (j + 1) then g r else 0 := by
  rw [Nat.mul_succ]
  split_ifs with h
  · obtain ⟨h1, h2⟩ := h
    have hq : r - w * j < w := by omega
    have hr : w * j + (r - w * j) = r := by omega
    rw [Finset.sum_eq_single (⟨r - w * j, hq⟩ : Fin w)]
    · simp only [hr, if_true]
    · intro q _ hne
      rw [if_neg]
      intro heq
      apply hne
      apply Fin.ext
      show q.val = r - w * j
      omega
    · intro hnot
      exact absurd (Finset.mem_univ _) hnot
  · apply Finset.sum_eq_zero
    intro q _
    rw [if_neg]
    intro heq
    apply h
    have hq := q.isLt
    constructor <;> omega

/-- The value after `b` tiles: the sum of the first `w * b` entries, minus the entry at `r` once
column `r` has been passed. -/
noncomputable def closed (w : ℕ) (g : ℕ → ℝ) (r b : ℕ) : ℝ :=
  (∑ c ∈ Finset.range (w * b), g c) - (if r < w * b then g r else 0)

/-- Before any tile the value is zero. -/
theorem closed_zero (w : ℕ) (g : ℕ → ℝ) (r : ℕ) : closed w g r 0 = 0 := by
  simp [closed]

/-- One tile: adding the tile's sum and subtracting the entry at `r` when `r` lies in the tile
takes the value after `b` tiles to the value after `b + 1` tiles. -/
theorem closed_succ (w : ℕ) (g : ℕ → ℝ) (r b : ℕ) :
    closed w g r (b + 1)
      = (closed w g r b + ∑ q : Fin w, g (w * b + q.val))
        - (if w * b ≤ r ∧ r < w * (b + 1) then g r else 0) := by
  unfold closed
  have hS : ∑ c ∈ Finset.range (w * (b + 1)), g c
      = (∑ c ∈ Finset.range (w * b), g c) + ∑ q : Fin w, g (w * b + q.val) := by
    rw [Nat.mul_succ, Finset.sum_range_add, Fin.sum_univ_eq_sum_range (fun q => g (w * b + q)) w]
  have hI : (if r < w * (b + 1) then g r else 0)
      = (if r < w * b then g r else 0) + (if w * b ≤ r ∧ r < w * (b + 1) then g r else 0) := by
    rw [Nat.mul_succ]
    by_cases h1 : r < w * b
    · have h2 : r < w * b + w := by omega
      have h3 : ¬ (w * b ≤ r ∧ r < w * b + w) := by omega
      rw [if_pos h1, if_pos h2, if_neg h3, add_zero]
    · by_cases h2 : r < w * b + w
      · have h3 : w * b ≤ r ∧ r < w * b + w := by omega
        rw [if_neg h1, if_pos h2, if_pos h3, zero_add]
      · have h3 : ¬ (w * b ≤ r ∧ r < w * b + w) := by omega
        rw [if_neg h1, if_neg h2, if_neg h3, add_zero]
  rw [hS, hI]
  ring

/-- After all `N` tiles, with `r < w * N`, the value is the full sum minus the entry at `r`. -/
theorem closed_last (w N : ℕ) (g : ℕ → ℝ) (r : ℕ) (hr : r < w * N) :
    closed w g r N = (∑ c ∈ Finset.range (w * N), g c) - g r := by
  rw [closed, if_pos hr]

/-- The accumulator over the reals.  It starts at zero; tile `j` adds the sum of its `w` entries
and subtracts the entry at `r` when `r` lies in tile `j`.  After `N` tiles it is the sum of all
`w * N` entries minus the entry at `r`. -/
theorem tile_sum (w N : ℕ) (g : ℕ → ℝ) (r : ℕ) (hr : r < w * N) (acc : ℕ → ℝ) (h0 : acc 0 = 0)
    (hstep : ∀ j, j < N → acc (j + 1) = (acc j + ∑ q : Fin w, g (w * j + q.val))
      - (if w * j ≤ r ∧ r < w * (j + 1) then g r else 0)) :
    acc N = (∑ c ∈ Finset.range (w * N), g c) - g r := by
  have key : ∀ b, b ≤ N → acc b = closed w g r b := by
    intro b
    induction b with
    | zero => intro _; rw [h0, closed_zero]
    | succ b ih =>
      intro hb
      rw [hstep b hb, ih (Nat.le_of_lt hb), closed_succ]
  rw [key N le_rfl, closed_last w N g r hr]

/-- The same with the correction written as the sum over the tile of the entries whose column is
`r`. -/
theorem tile_sum_diag (w N : ℕ) (g : ℕ → ℝ) (r : ℕ) (hr : r < w * N) (acc : ℕ → ℝ)
    (h0 : acc 0 = 0)
    (hstep : ∀ j, j < N → acc (j + 1) = (acc j + ∑ q : Fin w, g (w * j + q.val))
      - ∑ q : Fin w, (if w * j + q.val = r then g (w * j + q.val) else 0)) :
    acc N = (∑ c ∈ Finset.range (w * N), g c) - g r :=
  tile_sum w N g r hr acc h0 (fun j hj => by rw [hstep j hj, diag_sum])

/-! ### Entries indexed by `Fin n` -/

/-- A family indexed by `Fin n`, read as a family on the natural numbers through its extension by
zero. -/
noncomputable def ofFin {n : ℕ} (g : Fin n → ℝ) (c : ℕ) : ℝ := if h : c < n then g ⟨c, h⟩ else 0

/-- The extension agrees with the family on `Fin n`. -/
theorem ofFin_val {n : ℕ} (g : Fin n → ℝ) (i : Fin n) : ofFin g i.val = g i := by
  unfold ofFin
  rw [dif_pos i.isLt]

/-- The sum of the extension over the first `n` natural numbers is the sum of the family. -/
theorem sum_ofFin {n : ℕ} (g : Fin n → ℝ) : ∑ c ∈ Finset.range n, ofFin g c = ∑ c : Fin n, g c := by
  rw [← Fin.sum_univ_eq_sum_range (ofFin g) n]
  exact Finset.sum_congr rfl (fun i _ => ofFin_val g i)

/-- The correction inside tile `j` for a family indexed by `Fin n`, where `col j q` is the column
`w * j + q`: the sum over the tile of the entries whose column is `r` is the entry at `r` when `r`
lies in the tile, and zero otherwise. -/
theorem diag_sum_fin {n w N : ℕ} (g : Fin n → ℝ) (r : Fin n) (col : ℕ → Fin w → Fin n)
    (hcol : ∀ j, j < N → ∀ q : Fin w, (col j q).val = w * j + q.val) (j : ℕ) (hj : j < N) :
    ∑ q : Fin w, (if col j q = r then g (col j q) else 0)
      = if w * j ≤ r.val ∧ r.val < w * (j + 1) then g r else 0 := by
  have key := diag_sum w j r.val (ofFin g)
  rw [ofFin_val] at key
  rw [← key]
  apply Finset.sum_congr rfl
  intro q _
  have hv := hcol j hj q
  by_cases h : col j q = r
  · have h' : w * j + q.val = r.val := by rw [← hv, h]
    rw [if_pos h, if_pos h', ← hv, ofFin_val]
  · have h' : ¬ (w * j + q.val = r.val) := fun e => h (Fin.ext (hv.trans e))
    rw [if_neg h, if_neg h']

/-- The accumulator over the reals for a family indexed by `Fin n` with `n = w * N`, where
`col j q` is the column `w * j + q`: after `N` tiles it is the sum of the family minus the entry
at `r`. -/
theorem tile_sum_fin {n w N : ℕ} (hn : w * N = n) (g : Fin n → ℝ) (r : Fin n)
    (col : ℕ → Fin w → Fin n) (hcol : ∀ j, j < N → ∀ q : Fin w, (col j q).val = w * j + q.val)
    (acc : ℕ → ℝ) (h0 : acc 0 = 0)
    (hstep : ∀ j, j < N → acc (j + 1) = (acc j + ∑ q : Fin w, g (col j q))
      - (if w * j ≤ r.val ∧ r.val < w * (j + 1) then g r else 0)) :
    acc N = (∑ c : Fin n, g c) - g r := by
  have hr : r.val < w * N := by rw [hn]; exact r.isLt
  have hg : ∀ j, j < N → ∀ q : Fin w, ofFin g (w * j + q.val) = g (col j q) := by
    intro j hj q
    rw [← hcol j hj q, ofFin_val]
  have key := tile_sum w N (ofFin g) r.val hr acc h0 (fun j hj => by
    rw [hstep j hj, ofFin_val, Finset.sum_congr rfl (fun q _ => hg j hj q)])
  rw [key, hn, sum_ofFin, ofFin_val]

/-- The same with the correction written as the sum over the tile of the entries whose column is
`r`. -/
theorem tile_sum_fin_diag {n w N : ℕ} (hn : w * N = n) (g : Fin n → ℝ) (r : Fin n)
    (col : ℕ → Fin w → Fin n) (hcol : ∀ j, j < N → ∀ q : Fin w, (col j q).val = w * j + q.val)
    (acc : ℕ → ℝ) (h0 : acc 0 = 0)
    (hstep : ∀ j, j < N → acc (j + 1) = (acc j + ∑ q : Fin w, g (col j q))
      - ∑ q : Fin w, (if col j q = r then g (col j q) else 0)) :
    acc N = (∑ c : Fin n, g c) - g r :=
  tile_sum_fin hn g r col hcol acc h0
    (fun j hj => by rw [hstep j hj, diag_sum_fin g r col hcol j hj])

/-! ### The extended reals, for coerced real entries -/

/-- A finite sum of coerced reals is the coerced real sum. -/
theorem coe_sum {ι : Type*} (t : Finset ι) (f : ι → ℝ) :
    ∑ i ∈ t, ((f i : ℝ) : EReal) = ((∑ i ∈ t, f i : ℝ) : EReal) := by
  classical
  induction t using Finset.induction_on with
  | empty => simp
  | insert i t hi ih => rw [Finset.sum_insert hi, Finset.sum_insert hi, ih, EReal.coe_add]

/-- A choice between a coerced real and zero is the coerced choice. -/
theorem ite_coe (p : Prop) [Decidable p] (x : ℝ) :
    (if p then ((x : ℝ) : EReal) else 0) = (((if p then x else 0 : ℝ)) : EReal) := by
  split_ifs <;> simp

/-- The correction inside tile `j` on the extended reals, for coerced real entries. -/
theorem diag_sum_ereal (w j r : ℕ) (g : ℕ → ℝ) :
    ∑ q : Fin w, (if w * j + q.val = r then ((g (w * j + q.val) : ℝ) : EReal) else 0)
      = if w * j ≤ r ∧ r < w * (j + 1) then ((g r : ℝ) : EReal) else 0 := by
  rw [Finset.sum_congr rfl (fun q _ => ite_coe (w * j + q.val = r) (g (w * j + q.val))),
    coe_sum, diag_sum, ite_coe]

/-- The accumulator on the extended reals for coerced real entries.  It starts at zero; tile `j`
adds the sum of its `w` coerced entries and subtracts the coerced entry at `r` when `r` lies in
tile `j`.  Every intermediate value is a coerced real, so after `N` tiles the accumulator is the
coerced real `(∑ c, g c) - g r`. -/
theorem tile_sum_ereal (w N : ℕ) (g : ℕ → ℝ) (r : ℕ) (hr : r < w * N) (acc : ℕ → EReal)
    (h0 : acc 0 = 0)
    (hstep : ∀ j, j < N → acc (j + 1)
      = (acc j + ∑ q : Fin w, ((g (w * j + q.val) : ℝ) : EReal))
        - (if w * j ≤ r ∧ r < w * (j + 1) then ((g r : ℝ) : EReal) else 0)) :
    acc N = (((∑ c ∈ Finset.range (w * N), g c) - g r : ℝ) : EReal) := by
  have key : ∀ b, b ≤ N → acc b = ((closed w g r b : ℝ) : EReal) := by
    intro b
    induction b with
    | zero => intro _; rw [h0, closed_zero, EReal.coe_zero]
    | succ b ih =>
      intro hb
      rw [hstep b hb, ih (Nat.le_of_lt hb), coe_sum, ite_coe, ← EReal.coe_add, ← EReal.coe_sub,
        closed_succ]
  rw [key N le_rfl, closed_last w N g r hr]

/-- The same with the correction written as the sum over the tile of the coerced entries whose
column is `r`. -/
theorem tile_sum_ereal_diag (w N : ℕ) (g : ℕ → ℝ) (r : ℕ) (hr : r < w * N) (acc : ℕ → EReal)
    (h0 : acc 0 = 0)
    (hstep : ∀ j, j < N → acc (j + 1)
      = (acc j + ∑ q : Fin w, ((g (w * j + q.val) : ℝ) : EReal))
        - ∑ q : Fin w, (if w * j + q.val = r then ((g (w * j + q.val) : ℝ) : EReal) else 0)) :
    acc N = (((∑ c ∈ Finset.range (w * N), g c) - g r : ℝ) : EReal) :=
  tile_sum_ereal w N g r hr acc h0 (fun j hj => by rw [hstep j hj, diag_sum_ereal])

/-- The correction inside tile `j` on the extended reals for a family indexed by `Fin n`. -/
theorem diag_sum_fin_ereal {n w N : ℕ} (g : Fin n → ℝ) (r : Fin n) (col : ℕ → Fin w → Fin n)
    (hcol : ∀ j, j < N → ∀ q : Fin w, (col j q).val = w * j + q.val) (j : ℕ) (hj : j < N) :
    ∑ q : Fin w, (if col j q = r then ((g (col j q) : ℝ) : EReal) else 0)
      = if w * j ≤ r.val ∧ r.val < w * (j + 1) then ((g r : ℝ) : EReal) else 0 := by
  rw [Finset.sum_congr rfl (fun q _ => ite_coe (col j q = r) (g (col j q))),
    coe_sum, diag_sum_fin g r col hcol j hj, ite_coe]

/-- The accumulator on the extended reals for a coerced real family indexed by `Fin n` with
`n = w * N`: after `N` tiles it is the coerced real `(∑ c, g c) - g r`. -/
theorem tile_sum_fin_ereal {n w N : ℕ} (hn : w * N = n) (g : Fin n → ℝ) (r : Fin n)
    (col : ℕ → Fin w → Fin n) (hcol : ∀ j, j < N → ∀ q : Fin w, (col j q).val = w * j + q.val)
    (acc : ℕ → EReal) (h0 : acc 0 = 0)
    (hstep : ∀ j, j < N → acc (j + 1)
      = (acc j + ∑ q : Fin w, ((g (col j q) : ℝ) : EReal))
        - (if w * j ≤ r.val ∧ r.val < w * (j + 1) then ((g r : ℝ) : EReal) else 0)) :
    acc N = (((∑ c : Fin n, g c) - g r : ℝ) : EReal) := by
  have hr : r.val < w * N := by rw [hn]; exact r.isLt
  have hg : ∀ j, j < N → ∀ q : Fin w,
      ((ofFin g (w * j + q.val) : ℝ) : EReal) = ((g (col j q) : ℝ) : EReal) := by
    intro j hj q
    rw [← hcol j hj q, ofFin_val]
  have key := tile_sum_ereal w N (ofFin g) r.val hr acc h0 (fun j hj => by
    rw [hstep j hj, ofFin_val, Finset.sum_congr rfl (fun q _ => hg j hj q)])
  rw [key, hn, sum_ofFin, ofFin_val]

/-- The same with the correction written as the sum over the tile of the coerced entries whose
column is `r`. -/
theorem tile_sum_fin_ereal_diag {n w N : ℕ} (hn : w * N = n) (g : Fin n → ℝ) (r : Fin n)
    (col : ℕ → Fin w → Fin n) (hcol : ∀ j, j < N → ∀ q : Fin w, (col j q).val = w * j + q.val)
    (acc : ℕ → EReal) (h0 : acc 0 = 0)
    (hstep : ∀ j, j < N → acc (j + 1)
      = (acc j + ∑ q : Fin w, ((g (col j q) : ℝ) : EReal))
        - ∑ q : Fin w, (if col j q = r then ((g (col j q) : ℝ) : EReal) else 0)) :
    acc N = (((∑ c : Fin n, g c) - g r : ℝ) : EReal) :=
  tile_sum_fin_ereal hn g r col hcol acc h0
    (fun j hj => by rw [hstep j hj, diag_sum_fin_ereal g r col hcol j hj])

/-- The coerced real `(∑ c, g c) - g r` is the difference, on the extended reals, of the sum of
the coerced entries and the coerced entry at `r`. -/
theorem coe_sum_sub {n : ℕ} (g : Fin n → ℝ) (r : Fin n) :
    (((∑ c : Fin n, g c) - g r : ℝ) : EReal)
      = (∑ c : Fin n, ((g c : ℝ) : EReal)) - ((g r : ℝ) : EReal) := by
  rw [EReal.coe_sub, coe_sum]

end LibTileSum
-- ==== Proof.LibKernelRow.lean ====
import proofs.«127494_j85907935854913_2_alg».proof.Proof.LibSupConLaw
import proofs.«127494_j85907935854913_2_alg».proof.Proof.LibTileSum

/-!
# One row of the tiled supervised-contrastive computation

A row of `n = w * N` columns is walked in `N` tiles of width `w`.  Three accumulators start at zero
and, at each tile, add the sum of a per-column quantity over the tile; on a tile that is guarded
(it may meet the diagonal) they then subtract the sum over the tile of the quantity at the columns
equal to the row's own column `r`.  A tile that holds column `r` is always guarded, and a guarded
tile that does not hold it subtracts zero, so each accumulator ends at the full row sum minus the
quantity at `r`.  With the three quantities `exp (s c * a - a)`, `e c` and `e c * (s c * a)` the final
expression `((msim - a * cnt) - cnt * log (d + ε)) / (cnt + ε)`, read at the ideal operations, is
the coerced real left side of the row law, and the flag `0 < cnt` is the flag
`0 < (∑ c, e c) - e r`.
-/

open scoped BigOperators
open Idealize.ShloMosaic

namespace LibKernelRow

/-- The guarded accumulator on the extended reals, for coerced real entries.  On a guarded tile the
correction is the sum over the tile of the entries whose column is `r`; an unguarded tile has no
correction and never holds column `r`.  After `N` tiles the accumulator is the coerced real
`(∑ c, g c) - g r`. -/
theorem tile_sum_guarded {n w N : ℕ} (hn : w * N = n) (g : Fin n → ℝ) (r : Fin n)
    (col : ℕ → Fin w → Fin n) (hcol : ∀ j, j < N → ∀ q : Fin w, (col j q).val = w * j + q.val)
    (G : ℕ → Prop) [DecidablePred G]
    (hG : ∀ j, j < N → ¬ G j → ¬ (w * j ≤ r.val ∧ r.val < w * (j + 1)))
    (acc : ℕ → EReal) (h0 : acc 0 = 0)
    (hstep : ∀ j, j < N → acc (j + 1)
      = if G j then (acc j + ∑ q : Fin w, ((g (col j q) : ℝ) : EReal))
            - ∑ q : Fin w, (if col j q = r then ((g (col j q) : ℝ) : EReal) else 0)
        else acc j + ∑ q : Fin w, ((g (col j q) : ℝ) : EReal)) :
    acc N = (((∑ c : Fin n, g c) - g r : ℝ) : EReal) := by
  apply LibTileSum.tile_sum_fin_ereal hn g r col hcol acc h0
  intro j hj
  by_cases hGj : G j
  · rw [hstep j hj, if_pos hGj, LibTileSum.diag_sum_fin_ereal g r col hcol j hj]
  · rw [hstep j hj, if_neg hGj, if_neg (hG j hj hGj), sub_zero]

/-- The same for entries given on the extended reals that are, column by column, coerced reals
(for instance an ideal exponential of a coerced real, or a product of coerced reals). -/
theorem tile_sum_guarded_of {n w N : ℕ} (hn : w * N = n) (f : Fin n → EReal) (g : Fin n → ℝ)
    (hf : ∀ c, f c = ((g c : ℝ) : EReal)) (r : Fin n)
    (col : ℕ → Fin w → Fin n) (hcol : ∀ j, j < N → ∀ q : Fin w, (col j q).val = w * j + q.val)
    (G : ℕ → Prop) [DecidablePred G]
    (hG : ∀ j, j < N → ¬ G j → ¬ (w * j ≤ r.val ∧ r.val < w * (j + 1)))
    (acc : ℕ → EReal) (h0 : acc 0 = 0)
    (hstep : ∀ j, j < N → acc (j + 1)
      = if G j then (acc j + ∑ q : Fin w, f (col j q))
            - ∑ q : Fin w, (if col j q = r then f (col j q) else 0)
        else acc j + ∑ q : Fin w, f (col j q)) :
    acc N = (((∑ c : Fin n, g c) - g r : ℝ) : EReal) := by
  have hfg : f = fun c => ((g c : ℝ) : EReal) := funext hf
  subst hfg
  exact tile_sum_guarded hn g r col hcol G hG acc h0 hstep

/-- A comparison of a coerced real with zero on the extended reals is the real comparison. -/
theorem flag_coe (x : ℝ) :
    (if (0 : EReal) < ((x : ℝ) : EReal) then (1 : EReal) else 0) = if 0 < x then (1 : EReal) else 0 := by
  simp only [EReal.coe_pos]

/-- One row of the tiled computation.  The three accumulators `d`, `cnt`, `msim` follow the
guarded recurrence at the per-column quantities `exp (s c * a - a)` (an ideal exponential of
coerced reals), `e c`, and `e c * (s c * a)` (a product of coerced reals).  With `ε` positive and
every `e c` zero or one, the final expression at the ideal operations is the coerced real left side
of the row law. -/
theorem kernel_row {n w N : ℕ} (hn : w * N = n) (s e : Fin n → ℝ) (r : Fin n) (a ε : ℝ)
    (hε : 0 < ε) (he : ∀ c, e c = 0 ∨ e c = 1)
    (col : ℕ → Fin w → Fin n) (hcol : ∀ j, j < N → ∀ q : Fin w, (col j q).val = w * j + q.val)
    (G : ℕ → Prop) [DecidablePred G]
    (hG : ∀ j, j < N → ¬ G j → ¬ (w * j ≤ r.val ∧ r.val < w * (j + 1)))
    (d cnt msim : ℕ → EReal)
    (hd0 : d 0 = 0)
    (hd : ∀ j, j < N → d (j + 1)
      = if G j then
          (d j + ∑ q : Fin w,
              Ideal.exp (((s (col j q) : ℝ) : EReal) * ((a : ℝ) : EReal) - ((a : ℝ) : EReal)))
            - ∑ q : Fin w, (if col j q = r then
                Ideal.exp (((s (col j q) : ℝ) : EReal) * ((a : ℝ) : EReal) - ((a : ℝ) : EReal))
              else 0)
        else d j + ∑ q : Fin w,
              Ideal.exp (((s (col j q) : ℝ) : EReal) * ((a : ℝ) : EReal) - ((a : ℝ) : EReal)))
    (hc0 : cnt 0 = 0)
    (hc : ∀ j, j < N → cnt (j + 1)
      = if G j then (cnt j + ∑ q : Fin w, ((e (col j q) : ℝ) : EReal))
            - ∑ q : Fin w, (if col j q = r then ((e (col j q) : ℝ) : EReal) else 0)
        else cnt j + ∑ q : Fin w, ((e (col j q) : ℝ) : EReal))
    (hm0 : msim 0 = 0)
    (hm : ∀ j, j < N → msim (j + 1)
      = if G j then
          (msim j + ∑ q : Fin w,
              ((e (col j q) : ℝ) : EReal) * (((s (col j q) : ℝ) : EReal) * ((a : ℝ) : EReal)))
            - ∑ q : Fin w, (if col j q = r then
                ((e (col j q) : ℝ) : EReal) * (((s (col j q) : ℝ) : EReal) * ((a : ℝ) : EReal))
              else 0)
        else msim j + ∑ q : Fin w,
              ((e (col j q) : ℝ) : EReal) * (((s (col j q) : ℝ) : EReal) * ((a : ℝ) : EReal))) :
    Ideal.div
      ((msim N - ((a : ℝ) : EReal) * cnt N) - cnt N * Ideal.log (d N + ((ε : ℝ) : EReal)))
      (cnt N + ((ε : ℝ) : EReal))
    = ((((((∑ c, e c * (s c * a)) - e r * (s r * a)) - a * ((∑ c, e c) - e r))
          - ((∑ c, e c) - e r)
            * Real.log (((∑ c, Real.exp (s c * a - a)) - Real.exp (s r * a - a)) + ε))
        / (((∑ c, e c) - e r) + ε) : ℝ) : EReal) := by
  have hdN : d N = (((∑ c : Fin n, Real.exp (s c * a - a)) - Real.exp (s r * a - a) : ℝ) : EReal) :=
    tile_sum_guarded_of hn
      (fun c => Ideal.exp (((s c : ℝ) : EReal) * ((a : ℝ) : EReal) - ((a : ℝ) : EReal)))
      (fun c => Real.exp (s c * a - a))
      (fun c => by simp only [← EReal.coe_mul, ← EReal.coe_sub, LibSupConLaw.ideal_exp_coe])
      r col hcol G hG d hd0 hd
  have hcN : cnt N = (((∑ c : Fin n, e c) - e r : ℝ) : EReal) :=
    tile_sum_guarded hn e r col hcol G hG cnt hc0 hc
  have hmN : msim N = (((∑ c : Fin n, e c * (s c * a)) - e r * (s r * a) : ℝ) : EReal) :=
    tile_sum_guarded_of hn
      (fun c => ((e c : ℝ) : EReal) * (((s c : ℝ) : EReal) * ((a : ℝ) : EReal)))
      (fun c => e c * (s c * a))
      (fun c => by simp only [← EReal.coe_mul])
      r col hcol G hG msim hm0 hm
  have hpos : 0 < ((∑ c : Fin n, Real.exp (s c * a - a)) - Real.exp (s r * a - a)) + ε :=
    LibSupConLaw.sum_exp_sub_add_pos (fun c => s c * a - a) r ε hε
  have hden : ((∑ c : Fin n, e c) - e r) + ε ≠ 0 :=
    (LibSupConLaw.sum_sub_add_pos_of_zero_one e r ε he hε).ne'
  rw [hdN, hcN, hmN]
  simp only [← EReal.coe_mul, ← EReal.coe_sub, ← EReal.coe_add]
  rw [LibSupConLaw.ideal_log_coe_pos _ hpos]
  simp only [← EReal.coe_mul, ← EReal.coe_sub, ← EReal.coe_add]
  rw [LibSupConLaw.ideal_div_coe _ _ hden]

/-- The validity flag of one row: the count accumulator is the coerced real `(∑ c, e c) - e r`, so
the flag `0 < cnt` on the extended reals is the flag `0 < (∑ c, e c) - e r` on the reals. -/
theorem kernel_valid {n w N : ℕ} (hn : w * N = n) (e : Fin n → ℝ) (r : Fin n)
    (col : ℕ → Fin w → Fin n) (hcol : ∀ j, j < N → ∀ q : Fin w, (col j q).val = w * j + q.val)
    (G : ℕ → Prop) [DecidablePred G]
    (hG : ∀ j, j < N → ¬ G j → ¬ (w * j ≤ r.val ∧ r.val < w * (j + 1)))
    (cnt : ℕ → EReal) (hc0 : cnt 0 = 0)
    (hc : ∀ j, j < N → cnt (j + 1)
      = if G j then (cnt j + ∑ q : Fin w, ((e (col j q) : ℝ) : EReal))
            - ∑ q : Fin w, (if col j q = r then ((e (col j q) : ℝ) : EReal) else 0)
        else cnt j + ∑ q : Fin w, ((e (col j q) : ℝ) : EReal)) :
    (if (0 : EReal) < cnt N then (1 : EReal) else 0)
      = if 0 < ((∑ c, e c) - e r) then (1 : EReal) else 0 := by
  rw [tile_sum_guarded hn e r col hcol G hG cnt hc0 hc, flag_coe]

end LibKernelRow
-- ==== Proof.LibAccRead.lean ====
/-
  Reading back a buffer after a list of stores whose LAST store covered the whole buffer.

  A kernel that keeps an accumulator stores the whole accumulator and later loads the whole accumulator again. The
  symbolic run records such a load as "what the load reads after the stores so far". When the most recent store went
  through the whole-shape rectangle at zero offsets, the load through the same rectangle reads that store's payload,
  whatever the earlier stores were.
-/
import Idealize.ShloMosaic.Lib.Pipeline.Value
import Idealize.ShloMosaic.Lib.Pipeline.FrameBody

noncomputable section

namespace Cert.Lib.AccRead

open Idealize.ShloMosaic

variable {Val : EltTy → Type} {S : Shape} {e : EltTy}

/-- A load through the whole-shape rectangle, after stores the last of which went through that rectangle, reads the
    last store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- The two zero offsets of a rank-2 shape, as the printed programs spell them. -/
theorem zero2 : (![0, 0] : Fin 2 → Nat) = fun _ => 0 := funext fun a => by fin_cases a <;> rfl

end Cert.Lib.AccRead

end
-- ==== Proof.KernelIdealExact.lean ====
/-
  The kernel body, exactly: what each of its nine buffers holds afterwards as a function of what they held before.

  Write D, C, M for the three accumulators (the running sum of shifted exponentials, the running count of equal
  labels, the running sum of equal-label similarities) and x₀, x₁, x₂, x₃ for the row tile, the column tile and their
  labels. One column step takes (D, C, M) to
    D' = [the tile meets the diagonal] ? (D⁰ + rowsum exp) − rowsum of the self terms : D⁰ + rowsum exp,  D⁰ = [first column step] ? 0 : D,
  and likewise C', M'; at the last column step the two results become functions of (C', M', D'), and otherwise stay.
  The five functions below say so through the payload names; the run is by cases on the three branch conditions, each
  case's reloads read back the last whole store.
-/
import proofs.«127494_j85907935854913_2_alg».proof.Proof.KernelIdealBody
import proofs.«127494_j85907935854913_2_alg».proof.Proof.LibAccRead

set_option maxRecDepth 16384

noncomputable section

namespace Cert.KernelIdeal.Exact

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The grid coordinates as the two words the body computes with. -/
abbrev w0 (i : grid0.Coords) : BitVec 32 := BitVec.ofNat 32 (i 0).val
abbrev w1 (i : grid0.Coords) : BitVec 32 := BitVec.ofNat 32 (i 1).val

/-- The running sum of shifted exponentials after the body at `i`: reset at the first column step, the tile's row
    sums added, the self terms taken back out where the tile meets the diagonal. -/
def nextD (i : grid0.Coords) (x0 : Vec F S1024x512 .bf16) (x1 : Vec F S512x512 .bf16) (s0 : Vec F S1024x1 .f32) : Vec F S1024x1 .f32 :=
  if meetsDiagonal i then k0_pay4 (w0 i) (w1 i) (k0_pay15 x0 x1) (k0_pay16 x0 x1 (if firstStep i then k0_pay10 else s0))
  else k0_pay16 x0 x1 (if firstStep i then k0_pay10 else s0)

/-- The running count of equal labels. -/
def nextC (i : grid0.Coords) (x2 : Vec F S1024x1 .i32) (x3 : Vec F S1x512 .i32) (s1 : Vec F S1024x1 .f32) : Vec F S1024x1 .f32 :=
  if meetsDiagonal i then k0_pay6 (w0 i) (w1 i) (k0_pay14 x2 x3) (k0_pay1 (k0_pay17 x2 x3 (if firstStep i then k0_pay11 else s1)))
  else k0_pay1 (k0_pay17 x2 x3 (if firstStep i then k0_pay11 else s1))

/-- The running sum of equal-label similarities. -/
def nextM (i : grid0.Coords) (x0 : Vec F S1024x512 .bf16) (x1 : Vec F S512x512 .bf16) (x2 : Vec F S1024x1 .i32) (x3 : Vec F S1x512 .i32)
    (s2 : Vec F S1024x1 .f32) : Vec F S1024x1 .f32 :=
  if meetsDiagonal i then k0_pay7 (w0 i) (w1 i) (k0_pay13 x0 x1) (k0_pay14 x2 x3) (k0_pay2 (k0_pay13 x0 x1) (k0_pay14 x2 x3) (if firstStep i then k0_pay12 else s2))
  else k0_pay2 (k0_pay13 x0 x1) (k0_pay14 x2 x3) (if firstStep i then k0_pay12 else s2)

/-- The per-row result, written at the last column step and kept otherwise. -/
def nextO4 (i : grid0.Coords) (x0 : Vec F S1024x512 .bf16) (x1 : Vec F S512x512 .bf16) (x2 : Vec F S1024x1 .i32) (x3 : Vec F S1x512 .i32)
    (o4 s0 s1 s2 : Vec F S1024x1 .f32) : Vec F S1024x1 .f32 :=
  if k0_cond3 i = 1#1 then k0_pay8 (nextC i x2 x3 s1) (nextM i x0 x1 x2 x3 s2) (nextD i x0 x1 s0) else o4

/-- The per-row validity flag, likewise. -/
def nextO5 (i : grid0.Coords) (x2 : Vec F S1024x1 .i32) (x3 : Vec F S1x512 .i32) (o5 s1 : Vec F S1024x1 .f32) : Vec F S1024x1 .f32 :=
  if k0_cond3 i = 1#1 then k0_pay9 (nextC i x2 x3 s1) else o5

/-- Reading a buffer back after stores the last of which covered it whole: the last store's payload. -/
theorem read_writes_cons_unit_zero {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self .., by
    show y ∈ (Rect.whole S).set; rw [Rect.set_whole]; exact Finset.mem_univ y⟩), View.canon_cons_unit_zero rfl]

open Cert.Lib.AccRead in
set_option maxHeartbeats 8000000 in
/-- THE BODY, EXACTLY: from the nine buffers at named contents the body runs to the nine buffers at the contents the
    five functions above name — whichever branches the grid position takes. -/
theorem bodyRunX (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (x0 : Vec F S1024x512 .bf16) (x1 : Vec F S512x512 .bf16) (x2 : Vec F S1024x1 .i32) (x3 : Vec F S1x512 .i32)
    (o4 o5 s0 s1 s2 : Vec F S1024x1 .f32) :
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare o4 ∗ owns (c : Thread nD τ) arg7 fullShare o5
            ∗ owns (c : Thread nD τ) arg8 fullShare s0 ∗ owns (c : Thread nD τ) arg9 fullShare s1
            ∗ owns (c : Thread nD τ) arg10 fullShare s2
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ owns (c : Thread nD τ) arg6 fullShare (nextO4 i x0 x1 x2 x3 o4 s0 s1 s2) ∗ owns (c : Thread nD τ) arg7 fullShare (nextO5 i x2 x3 o5 s1)
                ∗ owns (c : Thread nD τ) arg8 fullShare (nextD i x0 x1 s0) ∗ owns (c : Thread nD τ) arg9 fullShare (nextC i x2 x3 s1)
                ∗ owns (c : Thread nD τ) arg10 fullShare (nextM i x0 x1 x2 x3 s2)) -∗ K ⟨⟩))
          ⊢ wp frame (wpE (defs₀ (F := F)) Variants.none c none) E
              (cc0__supcon_kernel i arg2 harg2 arg3 harg3 arg4 harg4 arg5 harg5 arg6 harg6 arg7 harg7 arg8 harg8 arg9 harg9 arg10 harg10) K := by
    intro E K
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    by_cases hc1 : firstStep i <;> by_cases hc2 : meetsDiagonal i <;> by_cases hc3 : k0_cond3 i = 1#1
    all_goals
      sl_exec (disch := first | exact hc1 | exact hc2 | exact hc3)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; swap; · iexact H4
        ipureintro; sl_unfold_run_names
        simp only [nextO4, nextO5, nextD, nextC, nextM, w0, w1]
        try simp only [if_pos hc1]
        try simp only [if_neg hc1]
        try simp only [if_pos hc2]
        try simp only [if_neg hc2]
        try simp only [if_pos hc3]
        try simp only [if_neg hc3]
        try simp only [
          read_writes_cons_unit_zero (S := S1024x1) _ _ zero2, readCov_cons_unit_zero (S := S1024x1) _ zero2, View.readAt_eq_ld,
          harg2.read_unread, harg3.read_unread, harg4.read_unread, harg5.read_unread, harg6.read_unread, harg7.read_unread, harg8.read_unread, harg9.read_unread, harg10.read_unread,
          View.ld_unit_zero (S := S1024x1) zero2, View.ld_unit_zero (S := S1024x512) zero2, View.ld_unit_zero (S := S512x512) zero2, View.ld_unit_zero (S := S1x512) zero2]
      isplitl [H5]
      · iexists _; isplitr; swap; · iexact H5
        ipureintro; sl_unfold_run_names
        simp only [nextO4, nextO5, nextD, nextC, nextM, w0, w1]
        try simp only [if_pos hc1]
        try simp only [if_neg hc1]
        try simp only [if_pos hc2]
        try simp only [if_neg hc2]
        try simp only [if_pos hc3]
        try simp only [if_neg hc3]
        try simp only [
          read_writes_cons_unit_zero (S := S1024x1) _ _ zero2, readCov_cons_unit_zero (S := S1024x1) _ zero2, View.readAt_eq_ld,
          harg2.read_unread, harg3.read_unread, harg4.read_unread, harg5.read_unread, harg6.read_unread, harg7.read_unread, harg8.read_unread, harg9.read_unread, harg10.read_unread,
          View.ld_unit_zero (S := S1024x1) zero2, View.ld_unit_zero (S := S1024x512) zero2, View.ld_unit_zero (S := S512x512) zero2, View.ld_unit_zero (S := S1x512) zero2]
      isplitl [H6]
      · iexists _; isplitr; swap; · iexact H6
        ipureintro; sl_unfold_run_names
        simp only [nextO4, nextO5, nextD, nextC, nextM, w0, w1]
        try simp only [if_pos hc1]
        try simp only [if_neg hc1]
        try simp only [if_pos hc2]
        try simp only [if_neg hc2]
        try simp only [if_pos hc3]
        try simp only [if_neg hc3]
        try simp only [
          read_writes_cons_unit_zero (S := S1024x1) _ _ zero2, readCov_cons_unit_zero (S := S1024x1) _ zero2, View.readAt_eq_ld,
          harg2.read_unread, harg3.read_unread, harg4.read_unread, harg5.read_unread, harg6.read_unread, harg7.read_unread, harg8.read_unread, harg9.read_unread, harg10.read_unread,
          View.ld_unit_zero (S := S1024x1) zero2, View.ld_unit_zero (S := S1024x512) zero2, View.ld_unit_zero (S := S512x512) zero2, View.ld_unit_zero (S := S1x512) zero2]
      isplitl [H7]
      · iexists _; isplitr; swap; · iexact H7
        ipureintro; sl_unfold_run_names
        simp only [nextO4, nextO5, nextD, nextC, nextM, w0, w1]
        try simp only [if_pos hc1]
        try simp only [if_neg hc1]
        try simp only [if_pos hc2]
        try simp only [if_neg hc2]
        try simp only [if_pos hc3]
        try simp only [if_neg hc3]
        try simp only [
          read_writes_cons_unit_zero (S := S1024x1) _ _ zero2, readCov_cons_unit_zero (S := S1024x1) _ zero2, View.readAt_eq_ld,
          harg2.read_unread, harg3.read_unread, harg4.read_unread, harg5.read_unread, harg6.read_unread, harg7.read_unread, harg8.read_unread, harg9.read_unread, harg10.read_unread,
          View.ld_unit_zero (S := S1024x1) zero2, View.ld_unit_zero (S := S1024x512) zero2, View.ld_unit_zero (S := S512x512) zero2, View.ld_unit_zero (S := S1x512) zero2]
      iexists _; isplitr; swap; · iexact H8
      ipureintro; sl_unfold_run_names
      simp only [nextO4, nextO5, nextD, nextC, nextM, w0, w1]
      try simp only [if_pos hc1]
      try simp only [if_neg hc1]
      try simp only [if_pos hc2]
      try simp only [if_neg hc2]
      try simp only [if_pos hc3]
      try simp only [if_neg hc3]
      try simp only [
        read_writes_cons_unit_zero (S := S1024x1) _ _ zero2, readCov_cons_unit_zero (S := S1024x1) _ zero2, View.readAt_eq_ld,
        harg2.read_unread, harg3.read_unread, harg4.read_unread, harg5.read_unread, harg6.read_unread, harg7.read_unread, harg8.read_unread, harg9.read_unread, harg10.read_unread,
        View.ld_unit_zero (S := S1024x1) zero2, View.ld_unit_zero (S := S1024x512) zero2, View.ld_unit_zero (S := S512x512) zero2, View.ld_unit_zero (S := S1x512) zero2]

end Cert.KernelIdeal.Exact

end
-- ==== Proof.KernelIdealValueData.lean ====
/-
  The exact proof data of the idealized kernel's region.

  D t, C t, M t are what the three accumulators hold before grid point t: anything before the first point, and one
  exact body step later at each next point. Before a row tile's first column step (t ≡ 0 mod 16) the body resets
  them, so the invariant fixes their contents only at the other points. The per-row result leaves its staging buffer
  at the last column step of each row tile (t ≡ 15 mod 16), as the final formula of the accumulators after that step.
-/
import proofs.«127494_j85907935854913_2_alg».proof.Proof.KernelIdealExact
import proofs.«127494_j85907935854913_2_alg».proof.Proof.KernelIdealFrameData

set_option maxRecDepth 16384

noncomputable section

namespace Cert.KernelIdeal.ValueRun

open Cert.KernelIdeal Cert.KernelIdeal.Gen Cert.KernelIdeal.Body Cert.KernelIdeal.Exact
open Cert.KernelIdeal.Frame (V V₀ V₁ V₂ iblk 𝒱₀ owns_of_pt pt_of_owns)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid, in closed form -/

theorem first_iff : ∀ t : Fin cfg0.N, firstStep (grid0.coords t) ↔ t.val % 16 = 0 :=
  (by decide +kernel : ∀ t : Fin grid0.N, firstStep (grid0.coords t) ↔ t.val % 16 = 0)
theorem last_iff : ∀ t : Fin cfg0.N, k0_cond3 (grid0.coords t) = 1#1 ↔ t.val % 16 = 15 :=
  (by decide +kernel : ∀ t : Fin grid0.N, k0_cond3 (grid0.coords t) = 1#1 ↔ t.val % 16 = 15)
theorem diag_iff : ∀ t : Fin cfg0.N, meetsDiagonal (grid0.coords t) ↔ (t.val % 16) / 2 = t.val / 16 :=
  (by decide +kernel : ∀ t : Fin grid0.N, meetsDiagonal (grid0.coords t) ↔ (t.val % 16) / 2 = t.val / 16)

/-! ## The accumulators point by point -/

/-- The running sum of shifted exponentials before point `t`. -/
def SD (c : Dev nD) : ℕ → Vec F S1024x1 .f32
  | 0 => k0_pay10
  | t + 1 => if h : t < cfg0.N then nextD (grid0.coords ⟨t, h⟩) (iblk m ρ c 0 ⟨t, h⟩) (iblk m ρ c 1 ⟨t, h⟩) (SD c t) else SD c t
/-- The running count of equal labels before point `t`. -/
def SC (c : Dev nD) : ℕ → Vec F S1024x1 .f32
  | 0 => k0_pay11
  | t + 1 => if h : t < cfg0.N then nextC (grid0.coords ⟨t, h⟩) (iblk m ρ c 2 ⟨t, h⟩) (iblk m ρ c 3 ⟨t, h⟩) (SC c t) else SC c t
/-- The running sum of equal-label similarities before point `t`. -/
def SM (c : Dev nD) : ℕ → Vec F S1024x1 .f32
  | 0 => k0_pay12
  | t + 1 => if h : t < cfg0.N then nextM (grid0.coords ⟨t, h⟩) (iblk m ρ c 0 ⟨t, h⟩) (iblk m ρ c 1 ⟨t, h⟩) (iblk m ρ c 2 ⟨t, h⟩) (iblk m ρ c 3 ⟨t, h⟩) (SM c t) else SM c t

theorem SD_succ (c : Dev nD) (t : Fin cfg0.N) :
    SD m ρ c (t.val + 1) = nextD (grid0.coords t) (iblk m ρ c 0 t) (iblk m ρ c 1 t) (SD m ρ c t.val) := by
  rw [SD, dif_pos t.isLt]
theorem SC_succ (c : Dev nD) (t : Fin cfg0.N) :
    SC m ρ c (t.val + 1) = nextC (grid0.coords t) (iblk m ρ c 2 t) (iblk m ρ c 3 t) (SC m ρ c t.val) := by
  rw [SC, dif_pos t.isLt]
theorem SM_succ (c : Dev nD) (t : Fin cfg0.N) :
    SM m ρ c (t.val + 1) = nextM (grid0.coords t) (iblk m ρ c 0 t) (iblk m ρ c 1 t) (iblk m ρ c 2 t) (iblk m ρ c 3 t) (SM m ρ c t.val) := by
  rw [SM, dif_pos t.isLt]

/-- At a first column step the accumulators are reset: what they held does not matter. -/
theorem nextD_first {i : grid0.Coords} (h : firstStep i) (x0 : Vec F S1024x512 .bf16) (x1 : Vec F S512x512 .bf16) (s s' : Vec F S1024x1 .f32) :
    nextD i x0 x1 s = nextD i x0 x1 s' := by
  unfold nextD; simp only [if_pos h]
theorem nextC_first {i : grid0.Coords} (h : firstStep i) (x2 : Vec F S1024x1 .i32) (x3 : Vec F S1x512 .i32) (s s' : Vec F S1024x1 .f32) :
    nextC i x2 x3 s = nextC i x2 x3 s' := by
  unfold nextC; simp only [if_pos h]
theorem nextM_first {i : grid0.Coords} (h : firstStep i) (x0 : Vec F S1024x512 .bf16) (x1 : Vec F S512x512 .bf16) (x2 : Vec F S1024x1 .i32) (x3 : Vec F S1x512 .i32)
    (s s' : Vec F S1024x1 .f32) : nextM i x0 x1 x2 x3 s = nextM i x0 x1 x2 x3 s' := by
  unfold nextM; simp only [if_pos h]

/-! ## The proof data -/

/-- The invariant before point `t`: the three accumulators at contents that are the sequences' except right before a
    first column step. -/
def Inv (c : Dev nD) (t : Fin (cfg0.N + 1)) : sProp 𝕄 :=
  iprop(∃ s0 s1 s2 : Vec F S1024x1 .f32,
    ⌜t.val % 16 ≠ 0 → s0 = SD m ρ c t.val ∧ s1 = SC m ρ c t.val ∧ s2 = SM m ρ c t.val⌝
    ∗ owns (c : Thread nD τ) (Memref.whole cc0_scratch0) fullShare s0
    ∗ owns (c : Thread nD τ) (Memref.whole cc0_scratch1) fullShare s1
    ∗ owns (c : Thread nD τ) (Memref.whole cc0_scratch2) fullShare s2)

/-- The exact proof data on core `c`. -/
def datsX (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => k0_pay8 (SC m ρ c (t.val + 1)) (SM m ρ c (t.val + 1)) (SD m ρ c (t.val + 1))
    | ⟨5, _⟩ => k0_pay9 (SC m ρ c (t.val + 1))
  Φ t := Inv m ρ c t
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (datsX m ρ 0 c).A w = V m ρ c (Pipeline.arrRef spec0 w) := by
  dsimp only [datsX]
theorem after0_0 (c : Dev nD) (t : Fin cfg0.N) : (datsX m ρ 0 c).after 0 t = iblk m ρ c 0 t := by dsimp only [datsX]
theorem after0_1 (c : Dev nD) (t : Fin cfg0.N) : (datsX m ρ 0 c).after 1 t = iblk m ρ c 1 t := by dsimp only [datsX]
theorem after0_2 (c : Dev nD) (t : Fin cfg0.N) : (datsX m ρ 0 c).after 2 t = iblk m ρ c 2 t := by dsimp only [datsX]
theorem after0_3 (c : Dev nD) (t : Fin cfg0.N) : (datsX m ρ 0 c).after 3 t = iblk m ρ c 3 t := by dsimp only [datsX]
theorem after0_4 (c : Dev nD) (t : Fin cfg0.N) :
    (datsX m ρ 0 c).after 4 t = k0_pay8 (SC m ρ c (t.val + 1)) (SM m ρ c (t.val + 1)) (SD m ρ c (t.val + 1)) := by dsimp only [datsX]
theorem after0_5 (c : Dev nD) (t : Fin cfg0.N) : (datsX m ρ 0 c).after 5 t = k0_pay9 (SC m ρ c (t.val + 1)) := by dsimp only [datsX]

theorem before0_0 (c : Dev nD) (t : Fin cfg0.N) (d) : (datsX m ρ 0 c).before 0 t d = iblk m ρ c 0 t :=
  ((datsX m ρ 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (datsX m ρ 0 c).before 1 t d = iblk m ρ c 1 t :=
  ((datsX m ρ 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (datsX m ρ 0 c).before 2 t d = iblk m ρ c 2 t :=
  ((datsX m ρ 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (datsX m ρ 0 c).before 3 t d = iblk m ρ c 3 t :=
  ((datsX m ρ 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The exact body obligation -/

set_option maxHeartbeats 8000000 in
/-- The body at any point, exactly: the accumulators go from the invariant's contents to the next point's; the two
    results are written at the last column step of a row tile and left alone elsewhere. -/
theorem body_obligationX (c : Dev nD) : BodyObligation (datsX (F := F) m ρ 0 c) (defs₀ (F := F)) 𝒱₀ () Set.univ := fun t => by
  rw [bigSep_W0, bigSep_W0]
  show _ ⊢ wp frame (wpE (defs₀ (F := F)) 𝒱₀ c none) Set.univ (bodyAt0 t) _
  unfold bodyAt0
  have hi0 : cfg0.idle 0 (cfg0.grid.coords t) = false := rfl
  have hi1 : cfg0.idle 1 (cfg0.grid.coords t) = false := rfl
  have hi2 : cfg0.idle 2 (cfg0.grid.coords t) = false := rfl
  have hi3 : cfg0.idle 3 (cfg0.grid.coords t) = false := rfl
  by_cases hl : t.val % 16 = 15
  · have h3 : k0_cond3 (grid0.coords t) = 1#1 := (last_iff t).mpr hl
    have hi4 : cfg0.idle 4 (cfg0.grid.coords t) = false := by
      show (!(k0_cond3 (grid0.coords t) == 1#1)) = false
      rw [h3]; rfl
    have hi5 : cfg0.idle 5 (cfg0.grid.coords t) = false := by
      show (!(k0_cond3 (grid0.coords t) == 1#1)) = false
      rw [h3]; rfl
    have hi4' : idle0 4 (grid0.coords t) = false := hi4
    have hi5' : idle0 5 (grid0.coords t) = false := hi5
    simp only [hi0, hi1, hi2, hi3, hi4, hi5, hi4', hi5', before0_0, before0_1, before0_2, before0_3, after0_0, after0_1, after0_2, after0_3, after0_4, after0_5]

    rw [show (datsX m ρ 0 c).Φ t.castSucc = Inv m ρ c t.castSucc from rfl, show (datsX m ρ 0 c).Φ t.succ = Inv m ρ c t.succ from rfl,
      show (datsX m ρ 0 c).owesAt () t.succ = (datsX m ρ 0 c).owesAt () t.castSucc from rfl]
    unfold Inv
    iintro ⟨⟨%s0, %s1, %s2, %hinv, Hs0, Hs1, Hs2⟩, Ho, ⟨%d0, H0⟩, ⟨%d1, H1⟩, ⟨%d2, H2⟩, ⟨%d3, H3⟩, ⟨%d4, H4⟩, ⟨%d5, H5⟩⟩
    have eD : nextD (grid0.coords t) (iblk m ρ c 0 t) (iblk m ρ c 1 t) s0 = SD m ρ c (t.val + 1) := by
      rw [SD_succ]
      by_cases h0 : t.val % 16 = 0
      · exact nextD_first ((first_iff t).mpr h0) _ _ _ _
      · rw [(hinv h0).1]; rfl
    have eC : nextC (grid0.coords t) (iblk m ρ c 2 t) (iblk m ρ c 3 t) s1 = SC m ρ c (t.val + 1) := by
      rw [SC_succ]
      by_cases h0 : t.val % 16 = 0
      · exact nextC_first ((first_iff t).mpr h0) _ _ _ _
      · rw [(hinv h0).2.1]; rfl
    have eM : nextM (grid0.coords t) (iblk m ρ c 0 t) (iblk m ρ c 1 t) (iblk m ρ c 2 t) (iblk m ρ c 3 t) s2 = SM m ρ c (t.val + 1) := by
      rw [SM_succ]
      by_cases h0 : t.val % 16 = 0
      · exact nextM_first ((first_iff t).mpr h0) _ _ _ _ _ _
      · rw [(hinv h0).2.2]; rfl
    have eO4 : nextO4 (grid0.coords t) (iblk m ρ c 0 t) (iblk m ρ c 1 t) (iblk m ρ c 2 t) (iblk m ρ c 3 t) ((datsX m ρ 0 c).before 4 t d4) s0 s1 s2
        = k0_pay8 (SC m ρ c (t.val + 1)) (SM m ρ c (t.val + 1)) (SD m ρ c (t.val + 1)) := by
      unfold nextO4; rw [if_pos h3, eC, eM, eD]
    have eO5 : nextO5 (grid0.coords t) (iblk m ρ c 2 t) (iblk m ρ c 3 t) ((datsX m ρ 0 c).before 5 t d5) s1 = k0_pay9 (SC m ρ c (t.val + 1)) := by
      unfold nextO5; rw [if_pos h3, eC]
    rw [← eO4, ← eO5]

    iapply ((bodyRunX c (grid0.coords t) _ _ _ _ _ _ _ _ _ _ _ _ _ _ _ _ _ _ (iblk m ρ c 0 t) (iblk m ρ c 1 t) (iblk m ρ c 2 t) (iblk m ρ c 3 t) ((datsX m ρ 0 c).before 4 t d4) ((datsX m ρ 0 c).before 5 t d5) s0 s1 s2) Set.univ _)
    isplitl [H0]; · iexact H0
    isplitl [H1]; · iexact H1
    isplitl [H2]; · iexact H2
    isplitl [H3]; · iexact H3
    isplitl [H4]; · iexact H4
    isplitl [H5]; · iexact H5
    isplitl [Hs0]; · iexact Hs0
    isplitl [Hs1]; · iexact Hs1
    isplitl [Hs2]; · iexact Hs2
    iintro ⟨H0, H1, H2, H3, H4, H5, Hs0, Hs1, Hs2⟩
    isplitl [Hs0 Hs1 Hs2]
    · iexists _, _, _
      isplitr
      · ipureintro; intro _; exact ⟨eD, eC, eM⟩
      isplitl [Hs0]; · iexact Hs0
      isplitl [Hs1]; · iexact Hs1
      iexact Hs2
    isplitl [Ho]; · iexact Ho
    isplitl [H0]; · iexact H0
    isplitl [H1]; · iexact H1
    isplitl [H2]; · iexact H2
    isplitl [H3]; · iexact H3
    isplitl [H4]; · iexact H4
    iexact H5
  · have h3 : ¬ k0_cond3 (grid0.coords t) = 1#1 := fun h => hl ((last_iff t).mp h)
    have hi4 : cfg0.idle 4 (cfg0.grid.coords t) = true := by
      show (!(k0_cond3 (grid0.coords t) == 1#1)) = true
      simp [h3]
    have hi5 : cfg0.idle 5 (cfg0.grid.coords t) = true := by
      show (!(k0_cond3 (grid0.coords t) == 1#1)) = true
      simp [h3]
    have hf4 : (cfg0.win 4).flush t = false := by
      rcases hb : (cfg0.win 4).flush t with _ | _
      · rfl
      · exact absurd ((flush0_4 t).mp hb) hl
    have hf5 : (cfg0.win 5).flush t = false := by
      rcases hb : (cfg0.win 5).flush t with _ | _
      · rfl
      · exact absurd ((flush0_5 t).mp hb) hl
    have hi4' : idle0 4 (grid0.coords t) = true := hi4
    have hi5' : idle0 5 (grid0.coords t) = true := hi5
    have hf4' : (win0 4).flush t = false := hf4
    have hf5' : (win0 5).flush t = false := hf5
    simp only [hi0, hi1, hi2, hi3, hi4, hi5, hi4', hi5', hf4, hf5, hf4', hf5', before0_0, before0_1, before0_2, before0_3, after0_0, after0_1, after0_2, after0_3]

    rw [show (datsX m ρ 0 c).Φ t.castSucc = Inv m ρ c t.castSucc from rfl, show (datsX m ρ 0 c).Φ t.succ = Inv m ρ c t.succ from rfl,
      show (datsX m ρ 0 c).owesAt () t.succ = (datsX m ρ 0 c).owesAt () t.castSucc from rfl]
    unfold Inv
    iintro ⟨⟨%s0, %s1, %s2, %hinv, Hs0, Hs1, Hs2⟩, Ho, ⟨%d0, H0⟩, ⟨%d1, H1⟩, ⟨%d2, H2⟩, ⟨%d3, H3⟩, ⟨%d4, H4⟩, ⟨%d5, H5⟩⟩
    have eD : nextD (grid0.coords t) (iblk m ρ c 0 t) (iblk m ρ c 1 t) s0 = SD m ρ c (t.val + 1) := by
      rw [SD_succ]
      by_cases h0 : t.val % 16 = 0
      · exact nextD_first ((first_iff t).mpr h0) _ _ _ _
      · rw [(hinv h0).1]; rfl
    have eC : nextC (grid0.coords t) (iblk m ρ c 2 t) (iblk m ρ c 3 t) s1 = SC m ρ c (t.val + 1) := by
      rw [SC_succ]
      by_cases h0 : t.val % 16 = 0
      · exact nextC_first ((first_iff t).mpr h0) _ _ _ _
      · rw [(hinv h0).2.1]; rfl
    have eM : nextM (grid0.coords t) (iblk m ρ c 0 t) (iblk m ρ c 1 t) (iblk m ρ c 2 t) (iblk m ρ c 3 t) s2 = SM m ρ c (t.val + 1) := by
      rw [SM_succ]
      by_cases h0 : t.val % 16 = 0
      · exact nextM_first ((first_iff t).mpr h0) _ _ _ _ _ _
      · rw [(hinv h0).2.2]; rfl
    have eO4 : nextO4 (grid0.coords t) (iblk m ρ c 0 t) (iblk m ρ c 1 t) (iblk m ρ c 2 t) (iblk m ρ c 3 t) ((datsX m ρ 0 c).before 4 t d4) s0 s1 s2 = (datsX m ρ 0 c).before 4 t d4 := by
      unfold nextO4; rw [if_neg h3]
    have eO5 : nextO5 (grid0.coords t) (iblk m ρ c 2 t) (iblk m ρ c 3 t) ((datsX m ρ 0 c).before 5 t d5) s1 = (datsX m ρ 0 c).before 5 t d5 := by
      unfold nextO5; rw [if_neg h3]

    iapply ((bodyRunX c (grid0.coords t) _ _ _ _ _ _ _ _ _ _ _ _ _ _ _ _ _ _ (iblk m ρ c 0 t) (iblk m ρ c 1 t) (iblk m ρ c 2 t) (iblk m ρ c 3 t) ((datsX m ρ 0 c).before 4 t d4) ((datsX m ρ 0 c).before 5 t d5) s0 s1 s2) Set.univ _)
    isplitl [H0]; · iexact H0
    isplitl [H1]; · iexact H1
    isplitl [H2]; · iexact H2
    isplitl [H3]; · iexact H3
    isplitl [H4]; · iexact H4
    isplitl [H5]; · iexact H5
    isplitl [Hs0]; · iexact Hs0
    isplitl [Hs1]; · iexact Hs1
    isplitl [Hs2]; · iexact Hs2
    iintro ⟨H0, H1, H2, H3, H4, H5, Hs0, Hs1, Hs2⟩
    isplitl [Hs0 Hs1 Hs2]
    · iexists _, _, _
      isplitr
      · ipureintro; intro _; exact ⟨eD, eC, eM⟩
      isplitl [Hs0]; · iexact Hs0
      isplitl [Hs1]; · iexact Hs1
      iexact Hs2
    isplitl [Ho]; · iexact Ho
    isplitl [H0]; · iexact H0
    isplitl [H1]; · iexact H1
    isplitl [H2]; · iexact H2
    isplitl [H3]; · iexact H3
    isplitl [H4]
    · iexists d4
      rw [eO4]
      iexact H4
    iexists d5
    rw [eO5]
    iexact H5

end Cert.KernelIdeal.ValueRun

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibColumnReshape.lean ====
/-
  Two re-layings of small-rank arrays read at an index, over arbitrary extents: an `[a]` vector reshaped to an
  `[a, 1]` column, and the transpose of an `[a, b]` array.
-/
import Idealize.ShloMosaic.Lib.Pipeline.Value
import Idealize.ShloMosaic.Lib.ValueIdx

noncomputable section

namespace Cert.Lib.ColumnReshape

open Idealize.ShloMosaic Idealize.ShloMosaic.ValueIdx

/-- An `[a]` vector reshaped to an `[a, 1]` column reads, at `(o, 0)`, the vector at `o`: the same row-major position. -/
theorem reshape_col_apply {α : Type} {a : ℕ} (x : (⟨1, ![a]⟩ : Shape).Idx → α)
    (h : (⟨1, ![a]⟩ : Shape).ShapeCasts ⟨2, ![a, 1]⟩) (o : Fin a) :
    shapeCast ⟨2, ![a, 1]⟩ x h (ix2 o (0 : Fin 1)) = x (ix1 o) :=
  shapeCast_apply x h _ (ix1 o) (by
    rw [Shape.rowMajor_val_one, Shape.rowMajor_val_two]
    show o.val = o.val * 1 + 0
    omega)

/-- The transpose of an `[a, b]` array reads, at `(p, q)`, the array at `(q, p)`. -/
theorem transpose_ab_apply {α : Type} {a b : ℕ} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) fun bx => match bx with
    | ⟨0, _⟩ => rfl
    | ⟨1, _⟩ => rfl

end Cert.Lib.ColumnReshape

end
-- ==== Proof.LibRowReads.lean ====
/-
  Reductions along the LAST axis of a matrix, read at an index given by coordinates, over arbitrary extents and at the
  ideal values; and one layout read:
  • a `[1, 1, a]` array cast to `[a]`;
  • a `vector.multi_reduction` over axis 1 of an `[a, b]` matrix, at row `p`: for `add` the sum along the row, for
    `maximumf` the fold of `max` along the row from the accumulator's value.
  The column forms (axis 0) are in LibColumnReads; these are the row forms.
-/
import Idealize.ShloMosaic.Lib.ValueIdx
import Idealize.ShloMosaic.Lib.ValueLayout
import Idealize.ShloMosaic.Lib.Pipeline.Value
import Idealize.ShloMosaic.PureOps.Ideal.Laws

namespace Cert.LibRowReads

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Row `p` of an `[a, b]` matrix with column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  fin_cases c <;> rfl

/-- A float sum along the rows' entries of an `[a, b]` matrix, at row `p`, is the sum of that row. -/
theorem rowSum_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] ⟨1, ![a]⟩ v acc h hφ hacc (ix1 p) = ∑ k : Fin b, v (ix2 p k) := by
  rw [Ideal.multiReduction_add_single]
  exact Finset.sum_congr rfl fun k _ => congrArg v (lift_row h p k)

/-- A float maximum along a row of an `[a, b]` matrix, at row `p`, is the fold of `max` along that row from the
    accumulator's value. -/
theorem rowMax_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction (F := Ideal) .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (fun f => Finset.fold max (Ideal.ofBits φ acc) f (Finset.univ : Finset (Fin b)))
    (funext fun k => congrArg v (lift_row h p k))

end Cert.LibRowReads
-- ==== Proof.KernelPayloads.lean ====
/-
  The kernel body's arithmetic read at an index, at the ideal values. Rows of a block are p : Fin 1024 and columns
  q : Fin 512; a is the named scale, the real 134217728 / 9395241.

    scores      S (p, q) = (Σ_k l (p, k) · r (q, k)) · a        (product with the transposed right block, scaled)
    equal       E (p, q) = 1 if the row label at p is the column label at q, else 0
    exponential X (p, q) = exp (S (p, q) - a)
    lane sums   accumulator (p) + Σ_q of X, of E, of E · S
    diagonal    a position (p, q) of block (i, j) is on the diagonal when i · 1024 + p = j · 512 + q as 32-bit words;
                the three corrections subtract, from an accumulator, Σ_q of the diagonal entries of X, of E, of E · S
    row value   (m - a · n - n · log (d + ε)) / (n + ε), and the flag 1 if n > 0 else 0
-/
import proofs.«127494_j85907935854913_2_alg».proof.Proof.Gen.KernelIdeal.Skeleton
import proofs.«127494_j85907935854913_2_alg».proof.Proof.LibPlainDot
import proofs.«127494_j85907935854913_2_alg».proof.Proof.LibColumnReshape
import proofs.«127494_j85907935854913_2_alg».proof.Proof.LibRowReads
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Pay

open Cert.KernelIdeal Cert.KernelIdeal.Gen Idealize.ShloMosaic Idealize.ShloMosaic.ValueIdx
open scoped BigOperators

/-! ## Constants and words -/

/-- The named scale denotes the real 134217728 / 9395241 at the ideal values, by the certificate's table. -/
theorem inv_temp : Named.named (F := Ideal) Cert.KernelIdeal.κ "inv_temp" (φ := .f32) 0x41649249#32
    = ((134217728 / 9395241 : ℝ) : EReal) :=
  IdealRules.named_const.ideal_named_scalar _ _ _ _ rfl

/-- The scale. -/
def a : EReal := ((134217728 / 9395241 : ℝ) : EReal)

/-- The small positive constant. -/
def eps : EReal := Ideal.ofBits .f32 0x2B8CBCCC#32

/-- A one-bit word made from a truth value, widened to 32 bits and read as a signed number, is 1 or 0. -/
theorem sitofp_setWidth_ofBool (b : Bool) :
    (FloatOps.sitofp (F := Ideal) .f32 ((BitVec.ofBool b).setWidth 32) : EReal) = if b then 1 else 0 := by
  cases b
  · show (((((0#1).setWidth 32).toInt : ℤ) : ℝ) : EReal) = 0
    have h : ((0#1).setWidth 32).toInt = 0 := by decide
    rw [h]; simp
  · show (((((1#1).setWidth 32).toInt : ℤ) : ℝ) : EReal) = 1
    have h : ((1#1).setWidth 32).toInt = 1 := by decide
    rw [h]; simp

/-! ## Layout -/

/-- A lane sum over the columns, laid as a column, at row p. -/
theorem laneSum_apply (v : FVec Ideal S1024x512 .f32) (hφ : FKind.Formats FTy.f32)
    (hacc : (0x00000000#32 : BitVec FTy.f32.bits) = FKind.add.neutral .f32 hφ) (p : Fin 1024) :
    shapeCast S1024x1 (multiReduction (F := Ideal) .add [1] S1024 v 0x00000000#32 reduces_S1024x512_S1024 hφ hacc)
        shapeCasts_S1024_S1024x1 (ix2 p (0 : Fin 1))
      = ∑ q : Fin 512, v (ix2 p q) := by
  rw [Cert.Lib.ColumnReshape.reshape_col_apply, Cert.LibRowReads.rowSum_apply]

/-- A column broadcast along the rows' entries reads its row. -/
theorem bcastCol_apply {α : Type} (v : S1024x1.Idx → α) (p : Fin 1024) (q : Fin 512) :
    broadcastTo S1024x512 v broadcasts_S1024x1_S1024x512 (ix2 p q) = v (ix2 p (0 : Fin 1)) :=
  broadcastTo_apply v _ (ix2 p q) (ix2 p (0 : Fin 1)) (fun b => match b with
    | ⟨0, _⟩ => by show p.val = if (1024 : ℕ) = 1 then 0 else p.val; rw [if_neg (by decide)]
    | ⟨1, _⟩ => by show 0 = if (1 : ℕ) = 1 then 0 else q.val; rw [if_pos rfl])

/-- A row broadcast down the columns reads its column. -/
theorem bcastRow_apply {α : Type} (v : S1x512.Idx → α) (p : Fin 1024) (q : Fin 512) :
    broadcastTo S1024x512 v broadcasts_S1x512_S1024x512 (ix2 p q) = v (ix2 (0 : Fin 1) q) :=
  broadcastTo_apply v _ (ix2 p q) (ix2 (0 : Fin 1) q) (fun b => match b with
    | ⟨0, _⟩ => by show 0 = if (1 : ℕ) = 1 then 0 else p.val; rw [if_pos rfl]
    | ⟨1, _⟩ => by show q.val = if (512 : ℕ) = 1 then 0 else q.val; rw [if_neg (by decide)])

/-! ## The scores, the label comparison and the exponentials -/

theorem pay13_apply (v3 : Vec Ideal S1024x512 .bf16) (v5 : Vec Ideal S512x512 .bf16) (p : Fin 1024) (q : Fin 512) :
    k0_pay13 (F := Ideal) v3 v5 (ix2 p q) = (∑ k : Fin 512, v3 (ix2 p k) * v5 (ix2 q k)) * a := by
  simp only [k0_pay13, shapeCast_self]
  have h := Cert.Lib.PlainDot.matmul_zero_apply 1024 512 512 (φ₁ := .bf16) (φ₂ := .bf16) none v3
    (transpose S512x512 [1, 0] v5 transposes_S512x512_p1_0_S512x512) (ix2 p q)
  have h' : (FloatOps.matmul (F := Ideal) (φ₁ := .bf16) (φ₂ := .bf16) dot_S1024x512_S512x512_S1024x512_1_0_0_1_n_n none v3
      (transpose S512x512 [1, 0] v5 transposes_S512x512_p1_0_S512x512) (constant S1024x512 .f32 0x00000000#32) (ix2 p q) : EReal)
      = ∑ k : Fin 512, ((v3 (ix2 p k) : EReal) * (v5 (ix2 q k) : EReal)) := by
    refine h.trans (Finset.sum_congr rfl fun k _ => ?_)
    show v3 (ix2 p k) * transpose S512x512 [1, 0] v5 transposes_S512x512_p1_0_S512x512 (ix2 k q) = _
    rw [Cert.Lib.ColumnReshape.transpose_ab_apply]
  show (FloatOps.matmul (F := Ideal) (φ₁ := .bf16) (φ₂ := .bf16) dot_S1024x512_S512x512_S1024x512_1_0_0_1_n_n none v3
      (transpose S512x512 [1, 0] v5 transposes_S512x512_p1_0_S512x512) (constant S1024x512 .f32 0x00000000#32) (ix2 p q) : EReal)
      * Named.named (F := Ideal) Cert.KernelIdeal.κ "inv_temp" (φ := .f32) 0x41649249#32 = _
  rw [h', inv_temp]
  rfl

theorem pay14_apply (v11 : Vec Ideal S1024x1 .i32) (v13 : Vec Ideal S1x512 .i32) (p : Fin 1024) (q : Fin 512) :
    k0_pay14 (F := Ideal) v11 v13 (ix2 p q)
      = if v11 (ix2 p (0 : Fin 1)) = v13 (ix2 (0 : Fin 1) q) then 1 else 0 := by
  simp only [k0_pay14, shapeCast_self]
  show FloatOps.sitofp (F := Ideal) .f32
      ((BitVec.ofBool (broadcastTo S1024x512 v11 broadcasts_S1024x1_S1024x512 (ix2 p q)
        == broadcastTo S1024x512 v13 broadcasts_S1x512_S1024x512 (ix2 p q))).setWidth 32) = _
  rw [sitofp_setWidth_ofBool, bcastCol_apply, bcastRow_apply]
  by_cases h : v11 (ix2 p (0 : Fin 1)) = v13 (ix2 (0 : Fin 1) q)
  · rw [if_pos h, if_pos (by simpa using h)]
  · rw [if_neg h, if_neg (by simpa using h)]

theorem pay15_apply (v3 : Vec Ideal S1024x512 .bf16) (v5 : Vec Ideal S512x512 .bf16) (p : Fin 1024) (q : Fin 512) :
    k0_pay15 (F := Ideal) v3 v5 (ix2 p q) = Ideal.exp (k0_pay13 (F := Ideal) v3 v5 (ix2 p q) - a) := by
  simp only [k0_pay15]
  show Ideal.exp (k0_pay13 (F := Ideal) v3 v5 (ix2 p q)
      - Named.named (F := Ideal) Cert.KernelIdeal.κ "inv_temp" (φ := .f32) 0x41649249#32) = _
  rw [inv_temp]
  rfl

/-! ## The lane sums -/

theorem pay16_apply (v3 : Vec Ideal S1024x512 .bf16) (v5 : Vec Ideal S512x512 .bf16) (v23 : Vec Ideal S1024x1 .f32)
    (p : Fin 1024) :
    k0_pay16 (F := Ideal) v3 v5 v23 (ix2 p (0 : Fin 1))
      = v23 (ix2 p (0 : Fin 1)) + ∑ q : Fin 512, k0_pay15 (F := Ideal) v3 v5 (ix2 p q) := by
  simp only [k0_pay16, shapeCast_self]
  exact congrArg (v23 (ix2 p (0 : Fin 1)) + ·) (laneSum_apply (k0_pay15 (F := Ideal) v3 v5) (.inl rfl) rfl p)

theorem pay17_apply (v11 : Vec Ideal S1024x1 .i32) (v13 : Vec Ideal S1x512 .i32) (v30 : Vec Ideal S1024x1 .f32)
    (p : Fin 1024) :
    k0_pay17 (F := Ideal) v11 v13 v30 (ix2 p (0 : Fin 1))
      = v30 (ix2 p (0 : Fin 1)) + ∑ q : Fin 512, k0_pay14 (F := Ideal) v11 v13 (ix2 p q) := by
  simp only [k0_pay17]
  exact congrArg (v30 (ix2 p (0 : Fin 1)) + ·) (laneSum_apply (k0_pay14 (F := Ideal) v11 v13) (.inl rfl) rfl p)

theorem pay1_eq (v33 : FVec Ideal S1024x1 .f32) : k0_pay1 (F := Ideal) v33 = v33 := by
  simp only [k0_pay1, shapeCast_self]

theorem pay2_apply (v10 v19 : FVec Ideal S1024x512 .f32) (v37 : Vec Ideal S1024x1 .f32) (p : Fin 1024) :
    k0_pay2 (F := Ideal) v10 v19 v37 (ix2 p (0 : Fin 1))
      = v37 (ix2 p (0 : Fin 1)) + ∑ q : Fin 512, v19 (ix2 p q) * v10 (ix2 p q) := by
  simp only [k0_pay2, shapeCast_self]
  exact congrArg (v37 (ix2 p (0 : Fin 1)) + ·) (laneSum_apply (mulf v19 v10) (.inl rfl) rfl p)

/-! ## The diagonal and the three corrections -/

theorem pay3_apply (arg0 arg1 : BitVec 32) (p : Fin 1024) (q : Fin 512) :
    k0_pay3 arg0 arg1 (ix2 p q)
      = BitVec.ofBool (arg0 * 1024#32 + BitVec.ofNat 32 p.val == arg1 * 512#32 + BitVec.ofNat 32 q.val) := by
  simp only [k0_pay3]
  show BitVec.ofBool (arg0 * 1024#32 + iota .tc S1024x512 32 [0] iota_S1024x512_d0_w32 (ix2 p q)
      == arg1 * 512#32 + iota .tc S1024x512 32 [1] iota_S1024x512_d1_w32 (ix2 p q)) = _
  rw [iota_single_apply, iota_single_apply]

theorem pay5_apply (arg0 arg1 : BitVec 32) (v19 : FVec Ideal S1024x512 .f32) (p : Fin 1024) (q : Fin 512) :
    k0_pay5 (F := Ideal) arg0 arg1 v19 (ix2 p q)
      = if k0_pay3 arg0 arg1 (ix2 p q) = 1#1 then v19 (ix2 p q) else 0 := by
  simp only [k0_pay5]
  show (if k0_pay3 arg0 arg1 (ix2 p q) = 1#1 then v19 (ix2 p q) else Ideal.ofBits .f32 0x00000000#32) = _
  rw [Ideal.ofBits_zero_f32]

theorem pay4_apply (arg0 arg1 : BitVec 32) (v22 : FVec Ideal S1024x512 .f32) (v66 : Vec Ideal S1024x1 .f32) (p : Fin 1024) :
    k0_pay4 (F := Ideal) arg0 arg1 v22 v66 (ix2 p (0 : Fin 1))
      = v66 (ix2 p (0 : Fin 1))
        - ∑ q : Fin 512, (if k0_pay3 arg0 arg1 (ix2 p q) = 1#1 then v22 (ix2 p q) else 0) := by
  simp only [k0_pay4, shapeCast_self]
  have hs := laneSum_apply (select (k0_pay3 arg0 arg1) v22 (broadcast S1024x512 (Scalar.ofBits (F := Ideal) .f32 0x00000000#32)))
    (.inl rfl) rfl p
  refine congrArg (v66 (ix2 p (0 : Fin 1)) - ·) (hs.trans (Finset.sum_congr rfl fun q _ => ?_))
  show (if k0_pay3 arg0 arg1 (ix2 p q) = 1#1 then v22 (ix2 p q) else Ideal.ofBits .f32 0x00000000#32) = _
  rw [Ideal.ofBits_zero_f32]

theorem pay6_apply (arg0 arg1 : BitVec 32) (v19 : FVec Ideal S1024x512 .f32) (v75 : Vec Ideal S1024x1 .f32) (p : Fin 1024) :
    k0_pay6 (F := Ideal) arg0 arg1 v19 v75 (ix2 p (0 : Fin 1))
      = v75 (ix2 p (0 : Fin 1))
        - ∑ q : Fin 512, (if k0_pay3 arg0 arg1 (ix2 p q) = 1#1 then v19 (ix2 p q) else 0) := by
  simp only [k0_pay6, shapeCast_self]
  have hs := laneSum_apply (k0_pay5 (F := Ideal) arg0 arg1 v19) (.inl rfl) rfl p
  exact congrArg (v75 (ix2 p (0 : Fin 1)) - ·)
    (hs.trans (Finset.sum_congr rfl fun q _ => pay5_apply arg0 arg1 v19 p q))

theorem pay7_apply (arg0 arg1 : BitVec 32) (v10 v19 : FVec Ideal S1024x512 .f32) (v82 : Vec Ideal S1024x1 .f32)
    (p : Fin 1024) :
    k0_pay7 (F := Ideal) arg0 arg1 v10 v19 v82 (ix2 p (0 : Fin 1))
      = v82 (ix2 p (0 : Fin 1))
        - ∑ q : Fin 512, (if k0_pay3 arg0 arg1 (ix2 p q) = 1#1 then v19 (ix2 p q) else 0) * v10 (ix2 p q) := by
  simp only [k0_pay7, shapeCast_self]
  have hs := laneSum_apply (mulf (k0_pay5 (F := Ideal) arg0 arg1 v19) v10) (.inl rfl) rfl p
  refine congrArg (v82 (ix2 p (0 : Fin 1)) - ·) (hs.trans (Finset.sum_congr rfl fun q _ => ?_))
  show k0_pay5 (F := Ideal) arg0 arg1 v19 (ix2 p q) * v10 (ix2 p q) = _
  rw [pay5_apply]

/-! ## The row value and the flag -/

theorem pay8_apply (v57 v58 v62 : Vec Ideal S1024x1 .f32) (i : S1024x1.Idx) :
    k0_pay8 (F := Ideal) v57 v58 v62 i
      = Ideal.div ((v58 i - a * v57 i) - v57 i * Ideal.log (v62 i + eps)) (v57 i + eps) := by
  simp only [k0_pay8]
  show Ideal.div ((v58 i - Named.named (F := Ideal) Cert.KernelIdeal.κ "inv_temp" (φ := .f32) 0x41649249#32 * v57 i)
      - v57 i * Ideal.log (v62 i + Ideal.ofBits .f32 0x2B8CBCCC#32)) (v57 i + Ideal.ofBits .f32 0x2B8CBCCC#32) = _
  rw [inv_temp]
  rfl

theorem pay9_apply (v57 : Vec Ideal S1024x1 .f32) (i : S1024x1.Idx) :
    k0_pay9 (F := Ideal) v57 i = if 0 < v57 i then 1 else 0 := by
  simp only [k0_pay9]
  show FloatOps.sitofp (F := Ideal) .f32
      ((BitVec.ofBool (decide (Ideal.ofBits .f32 0x00000000#32 < v57 i))).setWidth 32) = _
  rw [sitofp_setWidth_ofBool, Ideal.ofBits_zero_f32]
  by_cases h : 0 < v57 i
  · rw [if_pos h, if_pos (by simpa using h)]
  · rw [if_neg h, if_neg (by simpa using h)]

end Cert.KernelIdeal.Pay

end
-- ==== Proof.KernelHostReads.lean ====
/-
  The idealized kernel program's host side and blocks, read at an index.

  Before the region the host computes the row norms, divides each row of the features by its norm (the result is
  stored in a narrower format, which is the identity at the ideal values), and lays the labels as a column and as a
  row. Each input window's block at grid point t — row tile t / 16, column tile t % 16 of the 8 × 16 grid — is a
  rectangle of its array: rows 1024 (t / 16) + p of the normalised features and of the label column, rows
  512 (t % 16) + q of the normalised features and columns 512 (t % 16) + q of the label row. After the region the
  host reduces the two per-row results m and v to -(Σ_r m r · v r) / max (Σ_r v r) 1.
-/
import proofs.«127494_j85907935854913_2_alg».proof.Proof.KernelIdealFrameData
import proofs.«127494_j85907935854913_2_alg».proof.Proof.RefValue
import Idealize.ShloMosaic.Lib.Pipeline.Value
import Idealize.ShloMosaic.Lib.ValueIdx
import Idealize.ShloMosaic.Lib.Tactic

set_option maxRecDepth 16384

noncomputable section

namespace Cert.KernelIdeal.HostReads

open Cert.KernelIdeal Cert.KernelIdeal.Gen Cert.KernelIdeal.Frame
open Idealize.ShloMosaic Idealize.ShloMosaic.TcCoe Idealize.SL.Sem Idealize.ShloMosaic.ValueIdx
open scoped BigOperators

variable {F : FTy → Type} [FloatOps F] [Named F]
variable (m : (ℓ : Loc nD τ sig) → Buf (Elt F) ℓ) (ρ : Dev nD → PrngReg)

/-! ## The blocks: each input window's block read off its array -/

theorem idx0 : ∀ t : Fin cfg0.N, win0_0.index t (0 : Fin 2) = t.val / 16 ∧ win0_0.index t (1 : Fin 2) = 0 :=
  (by decide +kernel : ∀ t : Fin grid0.N, _)
theorem idx1 : ∀ t : Fin cfg0.N, win0_1.index t (0 : Fin 2) = t.val % 16 ∧ win0_1.index t (1 : Fin 2) = 0 :=
  (by decide +kernel : ∀ t : Fin grid0.N, _)
theorem idx2 : ∀ t : Fin cfg0.N, win0_2.index t (0 : Fin 2) = t.val / 16 ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val % 16 :=
  (by decide +kernel : ∀ t : Fin grid0.N, _)

/-- Row p of row tile t.val / 16 is a row of the array. -/
theorem rowBound (t : Fin cfg0.N) (p : Fin 1024) : 1024 * (t.val / 16) + p.val < 8192 := by
  have hN : cfg0.N = 128 := N_0
  have := t.isLt
  have := p.isLt
  omega

/-- Row q of column tile t.val % 16 is a row of the array. -/
theorem colBound (t : Fin cfg0.N) (q : Fin 512) : 512 * (t.val % 16) + q.val < 8192 := by
  have := q.isLt
  omega

/-- The row tile at point t is rows 1024 (t / 16) … of the normalised features. -/
theorem iblk0_apply (c : Dev nD) (t : Fin cfg0.N) (p : Fin 1024) (k : Fin 512) :
    (iblk m ρ c 0 t : Vec F S1024x512 .bf16) (ix2 p k)
      = (V m ρ c main_v3 : S8192x512.Idx → Elt F .bf16) (ix2 ⟨1024 * (t.val / 16) + p.val, rowBound t p⟩ k) := by
  have hi := idx0 t
  unfold iblk
  rw [View.read_apply]
  show V m ρ c main_v3 _ = V m ρ c main_v3 _
  congr 1
  funext a
  apply Fin.ext
  match a with
  | ⟨0, _⟩ => show win0_0.index t 0 * 1024 + 1 * p.val = 1024 * (t.val / 16) + p.val; rw [hi.1]; omega
  | ⟨1, _⟩ => show win0_0.index t 1 * 512 + 1 * k.val = k.val; rw [hi.2]; omega

/-- The column tile at point t is rows 512 (t % 16) … of the normalised features. -/
theorem iblk1_apply (c : Dev nD) (t : Fin cfg0.N) (q : Fin 512) (k : Fin 512) :
    (iblk m ρ c 1 t : Vec F S512x512 .bf16) (ix2 q k)
      = (V m ρ c main_v3 : S8192x512.Idx → Elt F .bf16) (ix2 ⟨512 * (t.val % 16) + q.val, colBound t q⟩ k) := by
  have hi := idx1 t
  unfold iblk
  rw [View.read_apply]
  show V m ρ c main_v3 _ = V m ρ c main_v3 _
  congr 1
  funext a
  apply Fin.ext
  match a with
  | ⟨0, _⟩ => show win0_1.index t 0 * 512 + 1 * q.val = 512 * (t.val % 16) + q.val; rw [hi.1]; omega
  | ⟨1, _⟩ => show win0_1.index t 1 * 512 + 1 * k.val = k.val; rw [hi.2]; omega

/-- The label column at point t is rows 1024 (t / 16) … of the labels laid as a column. -/
theorem iblk2_apply (c : Dev nD) (t : Fin cfg0.N) (p : Fin 1024) :
    (iblk m ρ c 2 t : Vec F S1024x1 .i32) (ix2 p (0 : Fin 1))
      = (V m ρ c main_v4 : S8192x1.Idx → Elt F .i32) (ix2 ⟨1024 * (t.val / 16) + p.val, rowBound t p⟩ (0 : Fin 1)) := by
  have hi := idx2 t
  unfold iblk
  rw [View.read_apply]
  show V m ρ c main_v4 _ = V m ρ c main_v4 _
  congr 1
  funext a
  apply Fin.ext
  match a with
  | ⟨0, _⟩ => show win0_2.index t 0 * 1024 + 1 * p.val = 1024 * (t.val / 16) + p.val; rw [hi.1]; omega
  | ⟨1, _⟩ => show win0_2.index t 1 * 1 + 1 * 0 = 0; rw [hi.2]

/-- The label row at point t is columns 512 (t % 16) … of the labels laid as a row. -/
theorem iblk3_apply (c : Dev nD) (t : Fin cfg0.N) (q : Fin 512) :
    (iblk m ρ c 3 t : Vec F S1x512 .i32) (ix2 (0 : Fin 1) q)
      = (V m ρ c main_v5 : S1x8192.Idx → Elt F .i32) (ix2 (0 : Fin 1) ⟨512 * (t.val % 16) + q.val, colBound t q⟩) := by
  have hi := idx3 t
  unfold iblk
  rw [View.read_apply]
  show V m ρ c main_v5 _ = V m ρ c main_v5 _
  congr 1
  funext a
  apply Fin.ext
  match a with
  | ⟨0, _⟩ => show win0_3.index t 0 * 1 + 1 * 0 = 0; rw [hi.1]
  | ⟨1, _⟩ => show win0_3.index t 1 * 512 + 1 * q.val = 512 * (t.val % 16) + q.val; rw [hi.2]; omega

/-! ## The host operations after the region -/

/-- The first per-row result a valuation holds (the rows' means). -/
abbrev res0 (W : Valuation τ sig (Elt Ideal)) : S8192x1.Idx → EReal := W (Proc.devRef .tc main_v6_0)
/-- The second per-row result a valuation holds (the rows' flags). -/
abbrev res1 (W : Valuation τ sig (Elt Ideal)) : S8192x1.Idx → EReal := W (Proc.devRef .tc main_v6_1)
/-- The program's result after the last stretch of host operations, from a valuation. -/
abbrev outOf (W : Valuation τ sig (Elt Ideal)) : S_.Idx → EReal :=
  StableHlo.after (hostOps1 (F := Ideal)) W (Proc.devRef .tc main_v14)

/-- A column reshaped to a vector reads, at r, the column at (r, 0): the same row-major position. -/
theorem colRead {α : Type} (x : S8192x1.Idx → α) (r : Fin 8192) :
    shapeCast S8192 x shapeCasts_S8192x1_S8192 (ix1 r) = x (ix2 r (0 : Fin 1)) :=
  shapeCast_apply x shapeCasts_S8192x1_S8192 (ix1 r) (ix2 r (0 : Fin 1)) (by
    rw [Shape.rowMajor_val_two, Shape.rowMajor_val_one]
    show r.val * 1 + 0 = r.val
    omega)

/-- The host's sum of a whole vector from the word of +0.0, at the ideal values. -/
theorem reduce_total (y : S8192.Idx → EReal) (i : S_.Idx) :
    Host.reduceAdd (F := Ideal) (φ := .f32) y (constant S_ .f32 0x00000000#32) reducesTo_S8192_S_d0 h_S_ i
      = ∑ r : Fin 8192, y (ix1 r) := by
  simp only [Host.reduceAdd, Ideal.hostReduceAdd_def]
  rw [Ideal.hostReduceAdd_total reducesTo_S8192_S_d0 (fun b => b.elim0)]
  show Ideal.ofBits .f32 0x00000000#32 + _ = _
  rw [Ideal.ofBits_zero_f32, zero_add, Cert.ReferenceIdeal.RefValue.sum_idx1]

/-- The last stretch: minus the sum of the rows' means times their flags, over the number of flagged rows, at least 1. -/
theorem tail_apply (W : Valuation τ sig (Elt Ideal)) (i : S_.Idx) :
    outOf W i
      = Ideal.div (-(∑ r : Fin 8192, res0 W (ix2 r (0 : Fin 1)) * res1 W (ix2 r (0 : Fin 1))))
          (max (∑ r : Fin 8192, res1 W (ix2 r (0 : Fin 1))) 1) := by
  show (StableHlo.after (hostOps1 (F := Ideal)) W (Proc.devRef .tc main_v14)) i = _
  after_results
  show Ideal.div
      (-(Host.reduceAdd (F := Ideal) (φ := .f32)
          (mulf (shapeCast S8192 (res0 W) shapeCasts_S8192x1_S8192) (shapeCast S8192 (res1 W) shapeCasts_S8192x1_S8192))
          (constant S_ .f32 0x00000000#32) reducesTo_S8192_S_d0 h_S_ i))
      (max (Host.reduceAdd (F := Ideal) (φ := .f32) (shapeCast S8192 (res1 W) shapeCasts_S8192x1_S8192)
          (constant S_ .f32 0x00000000#32) reducesTo_S8192_S_d0 h_S_ i) (Ideal.ofBits .f32 0x3F800000#32)) = _
  rw [reduce_total, reduce_total, Cert.ReferenceIdeal.RefValue.ofBits_one]
  have e1 : ∑ r : Fin 8192, mulf (F := Ideal) (φ := .f32) (shapeCast S8192 (res0 W) shapeCasts_S8192x1_S8192)
        (shapeCast S8192 (res1 W) shapeCasts_S8192x1_S8192) (ix1 r)
      = ∑ r : Fin 8192, res0 W (ix2 r (0 : Fin 1)) * res1 W (ix2 r (0 : Fin 1)) :=
    Finset.sum_congr rfl fun r _ => by
      show shapeCast S8192 (res0 W) shapeCasts_S8192x1_S8192 (ix1 r)
        * shapeCast S8192 (res1 W) shapeCasts_S8192x1_S8192 (ix1 r) = _
      rw [colRead, colRead]
  have e2 : ∑ r : Fin 8192, shapeCast S8192 (res1 W) shapeCasts_S8192x1_S8192 (ix1 r)
      = ∑ r : Fin 8192, res1 W (ix2 r (0 : Fin 1)) :=
    Finset.sum_congr rfl fun r _ => colRead _ r
  rw [e1, e2]

/-! ## The host operations before the region -/

/-- A vector laid as a column reads, at (r, 0), the vector at r: the same row-major position. -/
theorem toCol {α : Type} (x : S8192.Idx → α) (r : Fin 8192) :
    shapeCast S8192x1 x shapeCasts_S8192_S8192x1 (ix2 r (0 : Fin 1)) = x (ix1 r) :=
  shapeCast_apply x shapeCasts_S8192_S8192x1 (ix2 r (0 : Fin 1)) (ix1 r) (by
    rw [Shape.rowMajor_val_one, Shape.rowMajor_val_two]
    show r.val = r.val * 1 + 0
    omega)

/-- A vector laid as a row reads, at (0, q), the vector at q: the same row-major position. -/
theorem toRow {α : Type} (x : S8192.Idx → α) (q : Fin 8192) :
    shapeCast S1x8192 x shapeCasts_S8192_S1x8192 (ix2 (0 : Fin 1) q) = x (ix1 q) :=
  shapeCast_apply x shapeCasts_S8192_S1x8192 (ix2 (0 : Fin 1) q) (ix1 q) (by
    rw [Shape.rowMajor_val_one, Shape.rowMajor_val_two]
    show q.val = 0 * 8192 + q.val
    omega)

variable (mI : (ℓ : Loc nD τ sig) → Buf (Elt Ideal) ℓ)

/-- The features the program is launched with, on core c. -/
abbrev xOf (c : Dev nD) : S8192x512.Idx → EReal := mI ((c : Thread nD τ).loc main_arg0)
/-- The labels the program is launched with, on core c. -/
abbrev labOf (c : Dev nD) : S8192.Idx → BitVec 32 := mI ((c : Thread nD τ).loc main_arg1)

/-- When the region is entered the first window's array holds the normalised rows: the reference's own. -/
theorem v3_apply (c : Dev nD) (r : Fin 8192) (k : Fin 512) :
    (V mI ρ c main_v3 : S8192x512.Idx → EReal) (ix2 r k) = Cert.ReferenceIdeal.RefValue.f (xOf mI c) r k := by
  show (StableHlo.after (hostOps0_1 (F := Ideal)) (StableHlo.after (hostOps0 (F := Ideal)) (V₀ mI ρ c))
    (Proc.devRef .tc main_v3)) (ix2 r k) = _
  after_results
  exact Cert.ReferenceIdeal.RefValue.f_eq (xOf mI c) r k

/-- The same, written out. -/
theorem v3_apply' (c : Dev nD) (r : Fin 8192) (k : Fin 512) :
    (V mI ρ c main_v3 : S8192x512.Idx → EReal) (ix2 r k)
      = Ideal.div (xOf mI c (ix2 r k)) (Ideal.sqrt (∑ j : Fin 512, xOf mI c (ix2 r j) * xOf mI c (ix2 r j))) := by
  rw [v3_apply]
  rfl

/-- The labels as a column. -/
theorem v4_apply (c : Dev nD) (r : Fin 8192) :
    (V mI ρ c main_v4 : S8192x1.Idx → BitVec 32) (ix2 r (0 : Fin 1)) = labOf mI c (ix1 r) := by
  show (StableHlo.after (hostOps0_1 (F := Ideal)) (StableHlo.after (hostOps0 (F := Ideal)) (V₀ mI ρ c))
    (Proc.devRef .tc main_v4)) (ix2 r (0 : Fin 1)) = _
  after_results
  exact toCol (labOf mI c) r

/-- The labels as a row. -/
theorem v5_apply (c : Dev nD) (q : Fin 8192) :
    (V mI ρ c main_v5 : S1x8192.Idx → BitVec 32) (ix2 (0 : Fin 1) q) = labOf mI c (ix1 q) := by
  show (StableHlo.after (hostOps0_1 (F := Ideal)) (StableHlo.after (hostOps0 (F := Ideal)) (V₀ mI ρ c))
    (Proc.devRef .tc main_v5)) (ix2 (0 : Fin 1) q) = _
  after_results
  exact toRow (labOf mI c) q

end Cert.KernelIdeal.HostReads

end
-- ==== Proof.KernelResultReads.lean ====
/-
  The two per-row result arrays after the region, read at a row. Each is written back in blocks of 1024 rows, one
  per row tile, at the last column step of that tile: grid point 16 (r / 1024) + 15 for row r, at position r % 1024
  of the block. Those 8 points cover the 8192 rows, so each array ends holding, at row r, what the body left in the
  result's staging buffer at that point.
-/
import proofs.«127494_j85907935854913_2_alg».proof.Proof.KernelIdealValueData
import Idealize.ShloMosaic.Lib.Pipeline.Value
import Idealize.ShloMosaic.Lib.ValueIdx
import Idealize.ShloMosaic.Lib.Tactic

set_option maxRecDepth 16384

noncomputable section

namespace Cert.KernelIdeal.ResultReads

open Cert.KernelIdeal Cert.KernelIdeal.Gen Cert.KernelIdeal.ValueRun
open Idealize.ShloMosaic Idealize.ShloMosaic.TcCoe Idealize.SL.Sem Idealize.ShloMosaic.ValueIdx
open Idealize.ShloMosaic.Pipeline (Dat)

variable {F : FTy → Type} [FloatOps F] [Named F]
variable (m : (ℓ : Loc nD τ sig) → Buf (Elt F) ℓ) (ρ : Dev nD → PrngReg)

/-! ## The grid -/

theorem idx4 : ∀ t : Fin cfg0.N, win0_4.index t (0 : Fin 2) = t.val / 16 ∧ win0_4.index t (1 : Fin 2) = 0 :=
  (by decide +kernel : ∀ t : Fin grid0.N, _)
theorem idx5 : ∀ t : Fin cfg0.N, win0_5.index t (0 : Fin 2) = t.val / 16 ∧ win0_5.index t (1 : Fin 2) = 0 :=
  (by decide +kernel : ∀ t : Fin grid0.N, _)
theorem xs4 : ∀ t : Fin cfg0.N, win0_4.xsize (grid0.coords t) (0 : Fin 2) = 1024 ∧ win0_4.xsize (grid0.coords t) (1 : Fin 2) = 1 :=
  (by decide +kernel : ∀ t : Fin grid0.N, _)
theorem xs5 : ∀ t : Fin cfg0.N, win0_5.xsize (grid0.coords t) (0 : Fin 2) = 1024 ∧ win0_5.xsize (grid0.coords t) (1 : Fin 2) = 1 :=
  (by decide +kernel : ∀ t : Fin grid0.N, _)

/-- The last column step of row r's tile. -/
def T (r : Fin 8192) : Fin cfg0.N := ⟨16 * (r.val / 1024) + 15, by
  have hN : cfg0.N = 128 := N_0
  have := r.isLt
  omega⟩

/-- Row r's position inside its tile. -/
def pos (r : Fin 8192) : Fin 1024 := ⟨r.val % 1024, Nat.mod_lt _ (by decide)⟩

/-- The array that holds, at row r, block T r's entry at row r's position. -/
def Gof (A : Fin cfg0.N → Vec F S1024x1 .f32) : S8192x1.Idx → Elt F .f32 :=
  fun i => A (T (i 0)) (ix2 (pos (i 0)) (0 : Fin 1))

/-- At a point that writes window 4 back, the block written is the block of the array of the tiles' last entries. -/
theorem flushed4 (A : Fin cfg0.N → Vec F S1024x1 .f32) (t : Fin cfg0.N) (hl : t.val % 16 = 15)
    (j : ((cfg0.win 4).xblock (cfg0.grid.coords t)).Idx) :
    A t ((cfg0.win 4).xinj (cfg0.grid.coords t) j) = Gof A (((cfg0.win 4).blk t).view.emb j) := by
  have hi := idx4 t
  have hx := xs4 t
  have hj0 : (j 0).val < win0_4.xsize (grid0.coords t) 0 := (j 0).isLt
  have hj1 : (j 1).val < win0_4.xsize (grid0.coords t) 1 := (j 1).isLt
  rw [hx.1] at hj0
  rw [hx.2] at hj1
  have e0 : ((((cfg0.win 4).blk t).view.emb j) 0).val = win0_4.index t 0 * 1024 + 1 * (j 0).val := rfl
  have hT : T ((((cfg0.win 4).blk t).view.emb j) 0) = t :=
    Fin.ext (by show 16 * (((((cfg0.win 4).blk t).view.emb j) 0).val / 1024) + 15 = t.val; rw [e0, hi.1]; omega)
  have hp : (ix2 (pos ((((cfg0.win 4).blk t).view.emb j) 0)) (0 : Fin 1) : S1024x1.Idx)
      = (cfg0.win 4).xinj (cfg0.grid.coords t) j :=
    funext fun a => Fin.ext (by
      match a with
      | ⟨0, _⟩ => show ((((cfg0.win 4).blk t).view.emb j) 0).val % 1024 = (j 0).val; rw [e0, hi.1]; omega
      | ⟨1, _⟩ => show 0 = (j 1).val; omega)
  unfold Gof
  rw [hT, hp]

/-- The same for window 5. -/
theorem flushed5 (A : Fin cfg0.N → Vec F S1024x1 .f32) (t : Fin cfg0.N) (hl : t.val % 16 = 15)
    (j : ((cfg0.win 5).xblock (cfg0.grid.coords t)).Idx) :
    A t ((cfg0.win 5).xinj (cfg0.grid.coords t) j) = Gof A (((cfg0.win 5).blk t).view.emb j) := by
  have hi := idx5 t
  have hx := xs5 t
  have hj0 : (j 0).val < win0_5.xsize (grid0.coords t) 0 := (j 0).isLt
  have hj1 : (j 1).val < win0_5.xsize (grid0.coords t) 1 := (j 1).isLt
  rw [hx.1] at hj0
  rw [hx.2] at hj1
  have e0 : ((((cfg0.win 5).blk t).view.emb j) 0).val = win0_5.index t 0 * 1024 + 1 * (j 0).val := rfl
  have hT : T ((((cfg0.win 5).blk t).view.emb j) 0) = t :=
    Fin.ext (by show 16 * (((((cfg0.win 5).blk t).view.emb j) 0).val / 1024) + 15 = t.val; rw [e0, hi.1]; omega)
  have hp : (ix2 (pos ((((cfg0.win 5).blk t).view.emb j) 0)) (0 : Fin 1) : S1024x1.Idx)
      = (cfg0.win 5).xinj (cfg0.grid.coords t) j :=
    funext fun a => Fin.ext (by
      match a with
      | ⟨0, _⟩ => show ((((cfg0.win 5).blk t).view.emb j) 0).val % 1024 = (j 0).val; rw [e0, hi.1]; omega
      | ⟨1, _⟩ => show 0 = (j 1).val; omega)
  unfold Gof
  rw [hT, hp]

/-- Every row of the first result array lies in the block written at its tile's last column step. -/
theorem cover4 (i : S8192x1.Idx) : i ∈ ((cfg0.win 4).blk (T (i 0))).view.set := by
  have hi := idx4 (T (i 0))
  have hx := xs4 (T (i 0))
  have h0 : (i 0 : Nat) < 8192 := (i 0).isLt
  have h1 : (i 1 : Nat) < 1 := (i 1).isLt
  have hTv : (T (i 0)).val = 16 * ((i 0).val / 1024) + 15 := rfl
  show i ∈ ((View.whole main_v6_0).slice (win0_4.rect (T (i 0)))).set
  rw [View.set_slice_whole, Rect.mem_set_unit]
  intro a
  match a with
  | ⟨0, _⟩ =>
    show win0_4.index (T (i 0)) 0 * win0_4.size 0 ≤ (i 0 : Nat)
      ∧ (i 0 : Nat) < win0_4.index (T (i 0)) 0 * win0_4.size 0 + win0_4.xsize (grid0.coords (T (i 0))) 0
    rw [hi.1, hx.1, hTv, show win0_4.size 0 = 1024 from rfl]
    omega
  | ⟨1, _⟩ =>
    show win0_4.index (T (i 0)) 1 * win0_4.size 1 ≤ (i 1 : Nat)
      ∧ (i 1 : Nat) < win0_4.index (T (i 0)) 1 * win0_4.size 1 + win0_4.xsize (grid0.coords (T (i 0))) 1
    rw [hi.2, hx.2]
    omega

/-- The same for the second result array. -/
theorem cover5 (i : S8192x1.Idx) : i ∈ ((cfg0.win 5).blk (T (i 0))).view.set := by
  have hi := idx5 (T (i 0))
  have hx := xs5 (T (i 0))
  have h0 : (i 0 : Nat) < 8192 := (i 0).isLt
  have h1 : (i 1 : Nat) < 1 := (i 1).isLt
  have hTv : (T (i 0)).val = 16 * ((i 0).val / 1024) + 15 := rfl
  show i ∈ ((View.whole main_v6_1).slice (win0_5.rect (T (i 0)))).set
  rw [View.set_slice_whole, Rect.mem_set_unit]
  intro a
  match a with
  | ⟨0, _⟩ =>
    show win0_5.index (T (i 0)) 0 * win0_5.size 0 ≤ (i 0 : Nat)
      ∧ (i 0 : Nat) < win0_5.index (T (i 0)) 0 * win0_5.size 0 + win0_5.xsize (grid0.coords (T (i 0))) 0
    rw [hi.1, hx.1, hTv, show win0_5.size 0 = 1024 from rfl]
    omega
  | ⟨1, _⟩ =>
    show win0_5.index (T (i 0)) 1 * win0_5.size 1 ≤ (i 1 : Nat)
      ∧ (i 1 : Nat) < win0_5.index (T (i 0)) 1 * win0_5.size 1 + win0_5.xsize (grid0.coords (T (i 0))) 1
    rw [hi.2, hx.2]
    omega

theorem T_last (r : Fin 8192) : (T r).val % 16 = 15 := by
  show (16 * (r.val / 1024) + 15) % 16 = 15
  omega

/-! ## The two result arrays -/

/-- The first result array ends holding, at row r, the row value the body left at the last column step of r's tile. -/
theorem arr4_apply (c : Dev nD) (r : Fin 8192) :
    ((datsX m ρ 0 c).arrAt 4 cfg0.N : S8192x1.Idx → Elt F .f32) (ix2 r (0 : Fin 1))
      = k0_pay8 (SC m ρ c ((T r).val + 1)) (SM m ρ c ((T r).val + 1)) (SD m ρ c ((T r).val + 1))
          (ix2 (pos r) (0 : Fin 1)) := by
  have h := (datsX m ρ 0 c).arrAt_eq_of_cover 4 (Gof (fun t => (datsX m ρ 0 c).after 4 t))
    (fun t hf => funext fun j => by
      rw [View.read_apply]
      exact flushed4 (fun t => (datsX m ρ 0 c).after 4 t) t ((flush0_4 t).mp hf) j)
    (fun i => ⟨T (i 0), (flush0_4 _).mpr (T_last (i 0)), cover4 i⟩)
  rw [h]
  show (datsX m ρ 0 c).after 4 (T r) (ix2 (pos r) (0 : Fin 1)) = _
  rw [after0_4]

/-- The second result array ends holding, at row r, the flag the body left at the last column step of r's tile. -/
theorem arr5_apply (c : Dev nD) (r : Fin 8192) :
    ((datsX m ρ 0 c).arrAt 5 cfg0.N : S8192x1.Idx → Elt F .f32) (ix2 r (0 : Fin 1))
      = k0_pay9 (SC m ρ c ((T r).val + 1)) (ix2 (pos r) (0 : Fin 1)) := by
  have h := (datsX m ρ 0 c).arrAt_eq_of_cover 5 (Gof (fun t => (datsX m ρ 0 c).after 5 t))
    (fun t hf => funext fun j => by
      rw [View.read_apply]
      exact flushed5 (fun t => (datsX m ρ 0 c).after 5 t) t ((flush0_5 t).mp hf) j)
    (fun i => ⟨T (i 0), (flush0_5 _).mpr (T_last (i 0)), cover5 i⟩)
  rw [h]
  show (datsX m ρ 0 c).after 5 (T r) (ix2 (pos r) (0 : Fin 1)) = _
  rw [after0_5]

end Cert.KernelIdeal.ResultReads

end
-- ==== Proof.KernelIdealRows.lean ====
/-
  The kernel's accumulators, row by row.

  Fix a row r of the 8192. Its row tile is i = r / 1024 and it sits at p = r % 1024 inside it. At the point (i, j) the
  body adds to each accumulator's entry p the tile's row sum over the 512 columns 512·j + q, and where the tile meets the
  diagonal takes back the entries with 1024·i + p = 512·j + q, that is, the row's own column. Read through the blocks
  (a window's block entry is an entry of its array), the host operations before the region (the array is the rows
  divided by their norms, which are reals with unit rows under the precondition) and the payloads, each step is the
  guarded recurrence over real summands that the tile-sum law turns into "sum over all columns minus the row's own".
-/
import proofs.«127494_j85907935854913_2_alg».proof.Proof.KernelIdealValueData
import proofs.«127494_j85907935854913_2_alg».proof.Proof.KernelPayloads
import proofs.«127494_j85907935854913_2_alg».proof.Proof.KernelHostReads
import proofs.«127494_j85907935854913_2_alg».proof.Proof.RefReal
import proofs.«127494_j85907935854913_2_alg».proof.Proof.LibKernelRow
import proofs.«127494_j85907935854913_2_alg».proof.Proof.KernelResultReads

set_option maxRecDepth 16384

noncomputable section

namespace Cert.KernelIdeal.Rows

open Cert.KernelIdeal Cert.KernelIdeal.Gen Cert.KernelIdeal.Body Cert.KernelIdeal.Exact Cert.KernelIdeal.ValueRun
open Cert.KernelIdeal.Frame (V iblk)
open Cert.KernelIdeal.HostReads (xOf labOf rowBound colBound iblk0_apply iblk1_apply iblk2_apply iblk3_apply v3_apply v4_apply v5_apply)
open Idealize.ShloMosaic Idealize.ShloMosaic.TcCoe Idealize.ShloMosaic.ValueIdx Idealize.SL.Sem
open scoped BigOperators

open Cert.ReferenceIdeal.RefReal (D' epsR)

variable (m : (ℓ : Loc nD τ sig) → Buf (Elt Ideal) ℓ) (ρ : Dev nD → PrngReg) (c : Dev nD)
variable (xr : Fin 8192 → Fin 512 → ℝ)
  (hx : ∀ (r : Fin 8192) (k : Fin 512), xOf m c (ix2 r k) = ((xr r k : ℝ) : EReal))
  (hpos : ∀ r : Fin 8192, 0 < Cert.ReferenceIdeal.RefValue.sq (xOf m c) r)

/-- The kernel's inverse temperature is the reciprocal of the temperature's binary value. -/
theorem a_eq : Cert.KernelIdeal.Pay.a = (((1 / D' : ℝ)) : EReal) := by
  unfold Cert.KernelIdeal.Pay.a D'
  norm_num

/-- The row of the array behind row `p` of the row tile at point `t`, and the column behind `q` of its column tile. -/
abbrev rowOf (t : Fin cfg0.N) (p : Fin 1024) : Fin 8192 := ⟨1024 * (t.val / 16) + p.val, rowBound t p⟩
abbrev colOf (t : Fin cfg0.N) (q : Fin 512) : Fin 8192 := ⟨512 * (t.val % 16) + q.val, colBound t q⟩

/-- The grid coordinates of a point. -/
theorem coords0 : ∀ t : Fin cfg0.N, ((grid0.coords t) 0).val = t.val / 16 :=
  (by decide +kernel : ∀ t : Fin grid0.N, ((grid0.coords t) 0).val = t.val / 16)
theorem coords1 : ∀ t : Fin cfg0.N, ((grid0.coords t) 1).val = t.val % 16 :=
  (by decide +kernel : ∀ t : Fin grid0.N, ((grid0.coords t) 1).val = t.val % 16)

/-- The zero splats the accumulators are reset to. -/
theorem pay10_apply (i : S1024x1.Idx) : k0_pay10 (F := Ideal) i = 0 := by
  simp only [k0_pay10, shapeCast_self]
  show Ideal.ofBits .f32 0x00000000#32 = 0
  exact Ideal.ofBits_zero_f32
theorem pay11_apply (i : S1024x1.Idx) : k0_pay11 (F := Ideal) i = 0 := by
  simp only [k0_pay11, shapeCast_self]
  show Ideal.ofBits .f32 0x00000000#32 = 0
  exact Ideal.ofBits_zero_f32
theorem pay12_apply (i : S1024x1.Idx) : k0_pay12 (F := Ideal) i = 0 := by
  simp only [k0_pay12, shapeCast_self]
  show Ideal.ofBits .f32 0x00000000#32 = 0
  exact Ideal.ofBits_zero_f32

include hx hpos in
/-- A tile's scaled similarity entry is the scaled inner product of the two normalised rows, a real. -/
theorem pay13_row (t : Fin cfg0.N) (p : Fin 1024) (q : Fin 512) :
    k0_pay13 (F := Ideal) (iblk m ρ c 0 t) (iblk m ρ c 1 t) (ix2 p q)
      = ((Cert.ReferenceIdeal.RefReal.s xr (rowOf t p) (colOf t q) : ℝ) : EReal) * (((1 / D' : ℝ)) : EReal) := by
  rw [Cert.KernelIdeal.Pay.pay13_apply, a_eq]
  congr 1
  simp only [iblk0_apply, iblk1_apply, v3_apply, Cert.ReferenceIdeal.RefReal.f_coe (xOf m c) xr hx hpos, ← EReal.coe_mul, LibSupConLaw.coe_sum_univ]
  rfl

/-- A tile's equal-label entry is the indicator of equal labels, a real that is 0 or 1. -/
theorem pay14_row (t : Fin cfg0.N) (p : Fin 1024) (q : Fin 512) :
    k0_pay14 (F := Ideal) (iblk m ρ c 2 t) (iblk m ρ c 3 t) (ix2 p q)
      = ((Cert.ReferenceIdeal.RefReal.e (labOf m c) (rowOf t p) (colOf t q) : ℝ) : EReal) := by
  rw [Cert.KernelIdeal.Pay.pay14_apply, iblk2_apply, iblk3_apply, v4_apply, v5_apply]
  unfold Cert.ReferenceIdeal.RefReal.e
  split <;> simp

/-- The diagonal bit of a tile entry says that the entry's column is the row's own. -/
theorem pay3_row (t : Fin cfg0.N) (p : Fin 1024) (q : Fin 512) :
    k0_pay3 (w0 (grid0.coords t)) (w1 (grid0.coords t)) (ix2 p q) = 1#1 ↔ colOf t q = rowOf t p := by
  rw [Cert.KernelIdeal.Pay.pay3_apply]
  have h0 := coords0 t
  have h1 := coords1 t
  have ht : t.val < 128 := lt_of_lt_of_eq t.isLt N_0
  have hp := p.isLt
  have hq := q.isLt
  rw [show ∀ b : Bool, (BitVec.ofBool b = 1#1 ↔ b = true) from by decide, beq_iff_eq, ← BitVec.toNat_inj]
  simp only [w0, w1, h0, h1, BitVec.toNat_add, BitVec.toNat_mul, BitVec.toNat_ofNat, Fin.ext_iff]
  omega

/-- The summand of the exponentials' accumulator at a column, as the tile-sum law spells it. -/
abbrev expTerm (r col : Fin 8192) : EReal :=
  Ideal.exp (((Cert.ReferenceIdeal.RefReal.s xr r col : ℝ) : EReal) * (((1 / D' : ℝ)) : EReal) - (((1 / D' : ℝ)) : EReal))

include hx hpos in
/-- ONE COLUMN STEP of the exponentials' accumulator at a row of the tile. -/
theorem SD_step (t : Fin cfg0.N) (p : Fin 1024) :
    SD m ρ c (t.val + 1) (ix2 p (0 : Fin 1))
      = if meetsDiagonal (grid0.coords t) then
          ((if firstStep (grid0.coords t) then (0 : EReal) else SD m ρ c t.val (ix2 p (0 : Fin 1)))
              + ∑ q : Fin 512, expTerm xr (rowOf t p) (colOf t q))
            - ∑ q : Fin 512, (if colOf t q = rowOf t p then expTerm xr (rowOf t p) (colOf t q) else 0)
        else (if firstStep (grid0.coords t) then (0 : EReal) else SD m ρ c t.val (ix2 p (0 : Fin 1)))
              + ∑ q : Fin 512, expTerm xr (rowOf t p) (colOf t q) := by
  rw [SD_succ]
  unfold nextD
  have hterm : ∀ q : Fin 512, k0_pay15 (F := Ideal) (iblk m ρ c 0 t) (iblk m ρ c 1 t) (ix2 p q) = expTerm xr (rowOf t p) (colOf t q) := fun q => by
    rw [Cert.KernelIdeal.Pay.pay15_apply, pay13_row m ρ c xr hx hpos t p q, a_eq]
  have hbase : (if firstStep (grid0.coords t) then k0_pay10 (F := Ideal) else SD m ρ c t.val) (ix2 p (0 : Fin 1))
      = if firstStep (grid0.coords t) then (0 : EReal) else SD m ρ c t.val (ix2 p (0 : Fin 1)) := by
    split
    · exact pay10_apply _
    · rfl
  split
  · rw [Cert.KernelIdeal.Pay.pay4_apply, Cert.KernelIdeal.Pay.pay16_apply, hbase]
    simp only [hterm, pay3_row]
  · rw [Cert.KernelIdeal.Pay.pay16_apply, hbase]
    simp only [hterm]

/-- ONE COLUMN STEP of the equal-label count at a row of the tile. -/
theorem SC_step (t : Fin cfg0.N) (p : Fin 1024) :
    SC m ρ c (t.val + 1) (ix2 p (0 : Fin 1))
      = if meetsDiagonal (grid0.coords t) then
          ((if firstStep (grid0.coords t) then (0 : EReal) else SC m ρ c t.val (ix2 p (0 : Fin 1)))
              + ∑ q : Fin 512, ((Cert.ReferenceIdeal.RefReal.e (labOf m c) (rowOf t p) (colOf t q) : ℝ) : EReal))
            - ∑ q : Fin 512, (if colOf t q = rowOf t p then ((Cert.ReferenceIdeal.RefReal.e (labOf m c) (rowOf t p) (colOf t q) : ℝ) : EReal) else 0)
        else (if firstStep (grid0.coords t) then (0 : EReal) else SC m ρ c t.val (ix2 p (0 : Fin 1)))
              + ∑ q : Fin 512, ((Cert.ReferenceIdeal.RefReal.e (labOf m c) (rowOf t p) (colOf t q) : ℝ) : EReal) := by
  rw [SC_succ]
  unfold nextC
  have hbase : (if firstStep (grid0.coords t) then k0_pay11 (F := Ideal) else SC m ρ c t.val) (ix2 p (0 : Fin 1))
      = if firstStep (grid0.coords t) then (0 : EReal) else SC m ρ c t.val (ix2 p (0 : Fin 1)) := by
    split
    · exact pay11_apply _
    · rfl
  split
  · rw [Cert.KernelIdeal.Pay.pay6_apply, Cert.KernelIdeal.Pay.pay1_eq, Cert.KernelIdeal.Pay.pay17_apply, hbase]
    simp only [pay14_row, pay3_row]
  · rw [Cert.KernelIdeal.Pay.pay1_eq, Cert.KernelIdeal.Pay.pay17_apply, hbase]
    simp only [pay14_row]

include hx hpos in
/-- ONE COLUMN STEP of the equal-label similarities' accumulator at a row of the tile. -/
theorem SM_step (t : Fin cfg0.N) (p : Fin 1024) :
    SM m ρ c (t.val + 1) (ix2 p (0 : Fin 1))
      = if meetsDiagonal (grid0.coords t) then
          ((if firstStep (grid0.coords t) then (0 : EReal) else SM m ρ c t.val (ix2 p (0 : Fin 1)))
              + ∑ q : Fin 512, ((Cert.ReferenceIdeal.RefReal.e (labOf m c) (rowOf t p) (colOf t q) : ℝ) : EReal)
                  * (((Cert.ReferenceIdeal.RefReal.s xr (rowOf t p) (colOf t q) : ℝ) : EReal) * (((1 / D' : ℝ)) : EReal)))
            - ∑ q : Fin 512, (if colOf t q = rowOf t p then ((Cert.ReferenceIdeal.RefReal.e (labOf m c) (rowOf t p) (colOf t q) : ℝ) : EReal)
                  * (((Cert.ReferenceIdeal.RefReal.s xr (rowOf t p) (colOf t q) : ℝ) : EReal) * (((1 / D' : ℝ)) : EReal)) else 0)
        else (if firstStep (grid0.coords t) then (0 : EReal) else SM m ρ c t.val (ix2 p (0 : Fin 1)))
              + ∑ q : Fin 512, ((Cert.ReferenceIdeal.RefReal.e (labOf m c) (rowOf t p) (colOf t q) : ℝ) : EReal)
                  * (((Cert.ReferenceIdeal.RefReal.s xr (rowOf t p) (colOf t q) : ℝ) : EReal) * (((1 / D' : ℝ)) : EReal)) := by
  rw [SM_succ]
  unfold nextM
  have hbase : (if firstStep (grid0.coords t) then k0_pay12 (F := Ideal) else SM m ρ c t.val) (ix2 p (0 : Fin 1))
      = if firstStep (grid0.coords t) then (0 : EReal) else SM m ρ c t.val (ix2 p (0 : Fin 1)) := by
    split
    · exact pay12_apply _
    · rfl
  split
  · rw [Cert.KernelIdeal.Pay.pay7_apply, Cert.KernelIdeal.Pay.pay2_apply, hbase]
    simp only [pay14_row, pay13_row m ρ c xr hx hpos, pay3_row, ite_mul, zero_mul]
  · rw [Cert.KernelIdeal.Pay.pay2_apply, hbase]
    simp only [pay14_row, pay13_row m ρ c xr hx hpos]

/-! ## From the points of a row tile to the row's sixteen column steps -/

open Cert.KernelIdeal.ResultReads (pos arr4_apply arr5_apply)

/-- The point (row tile of `r`, column tile `j`). -/
def ptOf (r : Fin 8192) (j : ℕ) (hj : j < 16) : Fin cfg0.N :=
  ⟨16 * (r.val / 1024) + j, lt_of_lt_of_eq (by have := r.isLt; omega) N_0.symm⟩

/-- Column `q` of column tile `j`. -/
def colAt (j : ℕ) (q : Fin 512) : Fin 8192 :=
  if hj : j < 16 then ⟨512 * j + q.val, by have := q.isLt; omega⟩ else ⟨q.val, by have := q.isLt; omega⟩

theorem colAt_val (j : ℕ) (hj : j < 16) (q : Fin 512) : (colAt j q).val = 512 * j + q.val := by
  unfold colAt; rw [dif_pos hj]

/-- The guard: the tile (row tile of `r`, column tile `j`) meets the diagonal. -/
def Gd (r : Fin 8192) (j : ℕ) : Prop := ∃ hj : j < 16, meetsDiagonal (grid0.coords (ptOf r j hj))

theorem rowOf_ptOf (r : Fin 8192) (j : ℕ) (hj : j < 16) : rowOf (ptOf r j hj) (pos r) = r := by
  apply Fin.ext
  show 1024 * ((16 * (r.val / 1024) + j) / 16) + r.val % 1024 = r.val
  omega
theorem colOf_ptOf (r : Fin 8192) (j : ℕ) (hj : j < 16) (q : Fin 512) : colOf (ptOf r j hj) q = colAt j q := by
  apply Fin.ext
  rw [colAt_val j hj]
  show 512 * ((16 * (r.val / 1024) + j) % 16) + q.val = 512 * j + q.val
  omega

/-- A tile that holds the row's own column meets the diagonal. -/
theorem guard_of_own (r : Fin 8192) (j : ℕ) (hj : j < 16) (h : ¬ Gd r j) : ¬ (512 * j ≤ r.val ∧ r.val < 512 * (j + 1)) := by
  intro hr
  apply h
  refine ⟨hj, (diag_iff (ptOf r j hj)).mpr ?_⟩
  show ((16 * (r.val / 1024) + j) % 16) / 2 = (16 * (r.val / 1024) + j) / 16
  have := r.isLt
  omega

open Classical in
/-- Any accumulator whose column step has the body's shape satisfies, along a row, the tile-sum recurrence. -/
theorem seq_steps (S : ℕ → Vec Ideal S1024x1 .f32) (f : Fin 8192 → Fin 8192 → EReal)
    (hS : ∀ (t : Fin cfg0.N) (p : Fin 1024), S (t.val + 1) (ix2 p (0 : Fin 1))
      = if meetsDiagonal (grid0.coords t) then
          ((if firstStep (grid0.coords t) then (0 : EReal) else S t.val (ix2 p (0 : Fin 1))) + ∑ q : Fin 512, f (rowOf t p) (colOf t q))
            - ∑ q : Fin 512, (if colOf t q = rowOf t p then f (rowOf t p) (colOf t q) else 0)
        else (if firstStep (grid0.coords t) then (0 : EReal) else S t.val (ix2 p (0 : Fin 1))) + ∑ q : Fin 512, f (rowOf t p) (colOf t q))
    (r : Fin 8192) (j : ℕ) (hj : j < 16) :
    (if j + 1 = 0 then (0 : EReal) else S (16 * (r.val / 1024) + (j + 1)) (ix2 (pos r) (0 : Fin 1)))
      = if Gd r j then
          ((if j = 0 then (0 : EReal) else S (16 * (r.val / 1024) + j) (ix2 (pos r) (0 : Fin 1))) + ∑ q : Fin 512, f r (colAt j q))
            - ∑ q : Fin 512, (if colAt j q = r then f r (colAt j q) else 0)
        else (if j = 0 then (0 : EReal) else S (16 * (r.val / 1024) + j) (ix2 (pos r) (0 : Fin 1))) + ∑ q : Fin 512, f r (colAt j q) := by
  rw [if_neg (Nat.succ_ne_zero j)]
  have h := hS (ptOf r j hj) (pos r)
  simp only [rowOf_ptOf, colOf_ptOf] at h
  have hfirst : firstStep (grid0.coords (ptOf r j hj)) ↔ j = 0 := by
    rw [first_iff]
    show (16 * (r.val / 1024) + j) % 16 = 0 ↔ j = 0
    omega
  have hbase : (if firstStep (grid0.coords (ptOf r j hj)) then (0 : EReal) else S (ptOf r j hj).val (ix2 (pos r) (0 : Fin 1)))
      = if j = 0 then (0 : EReal) else S (16 * (r.val / 1024) + j) (ix2 (pos r) (0 : Fin 1)) := by
    by_cases h0 : j = 0
    · rw [if_pos (hfirst.mpr h0), if_pos h0]
    · rw [if_neg (fun hh => h0 (hfirst.mp hh)), if_neg h0]; rfl
  rw [hbase] at h
  have hidx : (ptOf r j hj).val + 1 = 16 * (r.val / 1024) + (j + 1) := by show 16 * (r.val / 1024) + j + 1 = _; omega
  rw [hidx] at h
  rw [h]
  by_cases hg : meetsDiagonal (grid0.coords (ptOf r j hj))
  · have hG : Gd r j := ⟨hj, hg⟩
    rw [if_pos hg, if_pos hG]
  · have hG : ¬ Gd r j := fun ⟨_, hh⟩ => hg hh
    rw [if_neg hg, if_neg hG]

/-! ## The two results at a row -/

open Cert.ReferenceIdeal.RefReal (epsR_pos e_zero_one eps_coe)

theorem pay_eps : Cert.KernelIdeal.Pay.eps = ((epsR : ℝ) : EReal) := eps_coe

open Classical in
include hx hpos in
/-- THE PER-ROW RESULT: what the region leaves at row `r` of its first result array is the reference's mean
    log-probability of that row. -/
theorem res4_row (r : Fin 8192) :
    ((datsX m ρ 0 c).arrAt 4 cfg0.N : S8192x1.Idx → EReal) (ix2 r (0 : Fin 1))
      = Cert.ReferenceIdeal.RefValue.mlpp (xOf m c) (labOf m c) r := by
  rw [arr4_apply, Cert.KernelIdeal.Pay.pay8_apply, a_eq, pay_eps,
    Cert.ReferenceIdeal.RefReal.mlpp_coe_sub (xOf m c) (labOf m c) xr hx hpos r]
  have hT : (Cert.KernelIdeal.ResultReads.T r).val + 1 = 16 * (r.val / 1024) + 16 := by
    show 16 * (r.val / 1024) + 15 + 1 = _; omega
  rw [hT]
  exact LibKernelRow.kernel_row (n := 8192) (w := 512) (N := 16) rfl
    (Cert.ReferenceIdeal.RefReal.s xr r) (Cert.ReferenceIdeal.RefReal.e (labOf m c) r) r (1 / D') epsR epsR_pos
    (fun col => e_zero_one (labOf m c) r col) colAt (fun j hj q => colAt_val j hj q) (Gd r) (fun j hj h => guard_of_own r j hj h)
    (fun j => if j = 0 then (0 : EReal) else SD m ρ c (16 * (r.val / 1024) + j) (ix2 (pos r) (0 : Fin 1)))
    (fun j => if j = 0 then (0 : EReal) else SC m ρ c (16 * (r.val / 1024) + j) (ix2 (pos r) (0 : Fin 1)))
    (fun j => if j = 0 then (0 : EReal) else SM m ρ c (16 * (r.val / 1024) + j) (ix2 (pos r) (0 : Fin 1)))
    rfl (fun j hj => seq_steps (SD m ρ c) (expTerm xr) (SD_step m ρ c xr hx hpos) r j hj)
    rfl (fun j hj => seq_steps (SC m ρ c) (fun r col => ((Cert.ReferenceIdeal.RefReal.e (labOf m c) r col : ℝ) : EReal)) (SC_step m ρ c) r j hj)
    rfl (fun j hj => seq_steps (SM m ρ c) (fun r col => ((Cert.ReferenceIdeal.RefReal.e (labOf m c) r col : ℝ) : EReal)
        * (((Cert.ReferenceIdeal.RefReal.s xr r col : ℝ) : EReal) * (((1 / D' : ℝ)) : EReal))) (SM_step m ρ c xr hx hpos) r j hj)

open Classical in
/-- THE PER-ROW FLAG: and at row `r` of its second, the reference's validity flag of that row. -/
theorem res5_row (r : Fin 8192) :
    ((datsX m ρ 0 c).arrAt 5 cfg0.N : S8192x1.Idx → EReal) (ix2 r (0 : Fin 1))
      = Cert.ReferenceIdeal.RefValue.valid (labOf m c) r := by
  rw [arr5_apply, Cert.KernelIdeal.Pay.pay9_apply, Cert.ReferenceIdeal.RefReal.valid_coe (labOf m c) r]
  have hT : (Cert.KernelIdeal.ResultReads.T r).val + 1 = 16 * (r.val / 1024) + 16 := by
    show 16 * (r.val / 1024) + 15 + 1 = _; omega
  rw [hT]
  exact LibKernelRow.kernel_valid (n := 8192) (w := 512) (N := 16) rfl
    (Cert.ReferenceIdeal.RefReal.e (labOf m c) r) r colAt (fun j hj q => colAt_val j hj q) (Gd r) (fun j hj h => guard_of_own r j hj h)
    (fun j => if j = 0 then (0 : EReal) else SC m ρ c (16 * (r.val / 1024) + j) (ix2 (pos r) (0 : Fin 1)))
    rfl (fun j hj => seq_steps (SC m ρ c) (fun r col => ((Cert.ReferenceIdeal.RefReal.e (labOf m c) r col : ℝ) : EReal)) (SC_step m ρ c) r j hj)

end Cert.KernelIdeal.Rows

end
-- ==== Proof.KernelIdealValueRun.lean ====
/-
  The idealized kernel's run with its result named.

  The same launch as the frame's — two stretches of host operations, the region, the final reduction — over the exact
  proof data: the region leaves every unscoped buffer whole at the entry valuation with the two per-row results'
  buffers at the arrays the write-backs built, and the final reduction runs from exactly that valuation. So the
  run ends with the loss buffer at the final reduction's value of those two arrays, and the arguments as launched.
-/
import proofs.«127494_j85907935854913_2_alg».proof.Proof.KernelIdealValueData
import proofs.«127494_j85907935854913_2_alg».proof.Proof.KernelIdealFrame

set_option maxRecDepth 16384

noncomputable section

namespace Cert.KernelIdeal.ValueRun

open Cert.KernelIdeal Cert.KernelIdeal.Gen Cert.KernelIdeal.Body Cert.KernelIdeal.Exact
open Cert.KernelIdeal.Frame (V V₀ V₁ V₂ iblk 𝒱₀ owns_of_pt pt_of_owns EP L lv adm R u₀ fresh1 seg0 seg1 V₂_arg0 V₂_arg1 tail_arg0 tail_arg1
  arrBufs_eq Wout Wout_v6_0 Wout_v6_1 Wout_other rest_congr)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The per-row results' arrays after the region. -/
def res4 (c : Dev nD) : Buf (Elt F) ((c : Thread nD τ).loc main_v6_0) := (datsX m ρ 0 c).arrAt 4 cfg0.N
def res5 (c : Dev nD) : Buf (Elt F) ((c : Thread nD τ).loc main_v6_1) := (datsX m ρ 0 c).arrAt 5 cfg0.N
/-- The valuation the region leaves. -/
def Wfin (c : Dev nD) : Valuation τ sig (Elt F) := Wout m ρ c (res4 m ρ c) (res5 m ρ c)

theorem arraysX_shares (c : Dev nD) (G : (w : Fin cfg0.W) → Buf (Elt F) ((cfg0.win w).arr.view.loc (c : Thread nD τ))) :
    (datsX m ρ 0 c).arrays G
      = bigSep Finset.univ fun w => ((((c : Thread nD τ).loc (Pipeline.arrRef spec0 w)) ↦{(datsX m ρ 0 c).share w} G w : sProp 𝕄)) := by
  unfold Pipeline.Dat.arrays
  exact bigSep_congr fun w _ => by rw [(arr_whole0 w).set_eq_univ]

/-- ENTRY, the arrays. -/
theorem arrays_of_arrBufsX (c : Dev nD) :
    (Pipeline.arrBufs (Ix := Unit) (Name := ℕ) (U := UR sig nD τ) (Lvl := ℕ) spec0 c (V m ρ c) : sProp 𝕄)
      ⊢ (datsX m ρ 0 c).arrays ((datsX m ρ 0 c).arrAt · 0) := by
  rw [arrBufs_eq, arraysX_shares, bigSep_W0]
  iintro ⟨H3, H4, H5, H60, H61⟩
  have hhalves : ((((c : Thread nD τ).loc main_v3) ↦{fullShare} V m ρ c main_v3) : sProp 𝕄)
      ⊢ iprop((((c : Thread nD τ).loc main_v3) ↦{fullShare.left} V m ρ c main_v3) ∗ (((c : Thread nD τ).loc main_v3) ↦{fullShare.right} V m ρ c main_v3)) :=
    (pointsTo_share (PosShare.mem_left_op_right fullShare)).1
  ihave H3' := hhalves $$ H3
  icases H3' with ⟨H3l, H3r⟩
  isplitl [H3l]; · iexact H3l
  isplitl [H3r]; · iexact H3r
  isplitl [H4]; · iexact H4
  isplitl [H5]; · iexact H5
  isplitl [H60]; · iexact H60
  iexact H61

set_option maxHeartbeats 4000000 in
/-- EXIT, the arrays: the inputs' arrays come back as they went in, the halves rejoin, the two results' arrays are
    named; with the buffers no window stages they are every unscoped buffer at the exit valuation. -/
theorem exit_heldX (c : Dev nD) :
    (iprop((datsX m ρ 0 c).arrays ((datsX m ρ 0 c).arrAt · cfg0.N) ∗ Pipeline.unscopedRest (Ix := Unit) (Name := ℕ) (U := UR sig nD τ) (Lvl := ℕ) spec0 c (V m ρ c)) : sProp 𝕄)
      ⊢ StableHlo.held (c : Thread nD τ) (Pipeline.ucRefs τ sig) (Wfin m ρ c) := by
  rw [arraysX_shares, bigSep_W0]
  dsimp only
  rw [(datsX m ρ 0 c).arrAt_in 0 rfl, (datsX m ρ 0 c).arrAt_in 1 rfl, (datsX m ρ 0 c).arrAt_in 2 rfl, (datsX m ρ 0 c).arrAt_in 3 rfl]
  iintro ⟨⟨H0, H1, H2, H3, H4, H5⟩, HZ⟩
  have hjoin : (iprop((((c : Thread nD τ).loc main_v3) ↦{fullShare.left} V m ρ c main_v3) ∗ (((c : Thread nD τ).loc main_v3) ↦{fullShare.right} V m ρ c main_v3)) : sProp 𝕄)
      ⊢ (((c : Thread nD τ).loc main_v3) ↦{fullShare} V m ρ c main_v3) :=
    (pointsTo_share (PosShare.mem_left_op_right fullShare)).2
  ihave H3full := hjoin $$ [H0 H1]
  · isplitl [H0]; · iexact H0
    iexact H1
  unfold Wfin
  rw [← Pipeline.unscopedBufs_held c (Wout m ρ c (res4 m ρ c) (res5 m ρ c)),
    Pipeline.unscopedBufs_split₀ cfgs 0 winFacts₀0.arr_unscoped c (fun b => Wout m ρ c (res4 m ρ c) (res5 m ρ c) b), arrBufs_eq, rest_congr]
  dsimp only
  rw [Wout_other m ρ c (res4 m ρ c) (res5 m ρ c) main_v3 (by decide) (by decide), Wout_other m ρ c (res4 m ρ c) (res5 m ρ c) main_v4 (by decide) (by decide),
    Wout_other m ρ c (res4 m ρ c) (res5 m ρ c) main_v5 (by decide) (by decide), Wout_v6_0, Wout_v6_1]
  isplitr [HZ]
  · isplitl [H3full]; · iexact H3full
    isplitl [H2]; · iexact H2
    isplitl [H3]; · iexact H3
    isplitl [H4]; · iexact H4
    iexact H5
  iexact HZ

/-- The final reduction, from the exit valuation. -/
def seg2X : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) fresh1 (Wfin m ρ) R

set_option backward.isDefEq.respectTransparency.types false in
/-- THE REGION, exactly. -/
def reg0X : Pipeline.RegionSeg (pcfgs (F := F)) adm (datsX m ρ) () defs₀ 𝒱₀ L lv 0 where
  win := winFacts₀0
  block_pos := block_pos0
  stage_whole := stage_whole0
  K := PEmpty
  osem := fun k => k.elim
  ho := Pipeline.OwnSemFacts.none spec0
  hbody c := (body_obligationX m ρ c).loose
  hwaits := Pipeline.hwaits_of_owed_zero _ _ _ _ L lv 0 fun _ _ => rfl
  pre c := iprop(StableHlo.held (c : Thread nD τ) (Pipeline.ucRefs τ sig) (V₂ m ρ c) ∗ R c)
  post c := iprop(StableHlo.held (c : Thread nD τ) (Pipeline.ucRefs τ sig) (Wfin m ρ c) ∗ R c)
  X c := iprop(emp)
  Y c := iprop(emp)
  Z c := Pipeline.unscopedRest (Ix := Unit) (Name := ℕ) (U := UR sig nD τ) (Lvl := ℕ) spec0 c (V m ρ c)
  hentry c := by
    rw [show StableHlo.held (c : Thread nD τ) (Pipeline.ucRefs τ sig) (V₂ m ρ c) = unscopedBufs c (V m ρ c) from (Pipeline.unscopedBufs_held c _).symm,
      Pipeline.ownSems0_none, Pipeline.unscopedBufs_split₀ cfgs 0 winFacts₀0.arr_unscoped c (V m ρ c)]
    iintro ⟨⟨⟨Ha, Hrest⟩, HO⟩, -, -⟩
    have harr := arrays_of_arrBufsX m ρ c
    ihave Harr := harr $$ Ha
    imodintro
    isplitl [Harr]; · iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (datsX m ρ 0 c).Φ 0 = Inv m ρ c 0 from rfl, scopedRest0_eq]
    unfold Inv
    iintro ⟨-, -, Hs0, Hs1, Hs2⟩
    have h0 := owns_of_pt (F := F) c cc0_scratch0
    have h1 := owns_of_pt (F := F) c cc0_scratch1
    have h2 := owns_of_pt (F := F) c cc0_scratch2
    ihave Hs0 := h0 $$ Hs0
    ihave Hs1 := h1 $$ Hs1
    ihave Hs2 := h2 $$ Hs2
    icases Hs0 with ⟨%d0, Hs0⟩
    icases Hs1 with ⟨%d1, Hs1⟩
    icases Hs2 with ⟨%d2, Hs2⟩
    iexists d0, d1, d2
    isplitr; · ipureintro; intro h; exact absurd rfl h
    isplitl [Hs0]; · iexact Hs0
    isplitl [Hs1]; · iexact Hs1
    iexact Hs2
  hout c := by
    rw [Pipeline.ownSems0_none, show (datsX m ρ 0 c).Φ (Fin.last (Pipeline.pin (pcfgs (F := F)) adm 0).N) = Inv m ρ c (Fin.last cfg0.N) from rfl, scopedRest0_eq]
    unfold Inv
    iintro ⟨%s0, %s1, %s2, -, Hs0, Hs1, Hs2⟩
    isplitr; · iempintro
    isplitr; · iempintro
    isplitl [Hs0]
    · iapply (pt_of_owns (F := F) c cc0_scratch0); iexists s0; iexact Hs0
    isplitl [Hs1]
    · iapply (pt_of_owns (F := F) c cc0_scratch1); iexists s1; iexact Hs1
    iapply (pt_of_owns (F := F) c cc0_scratch2); iexists s2; iexact Hs2
  hexit c := by
    iintro ⟨Ha, HO, -, HZ⟩
    have hex := exit_heldX m ρ c
    ihave Hh := hex $$ [Ha HZ]
    · isplitl [Ha]; · iexact Ha
      iexact HZ
    imodintro
    isplitl [Hh]; · iexact Hh
    unfold Pipeline.Dat.owesAt Pipeline.owesWithin
    icases HO with ⟨%W', -, HO⟩; iexists W'; iexact HO

abbrev segsX : List (Pipeline.Seg (pcfgs (F := F)) adm (datsX m ρ) () defs₀ 𝒱₀ L lv) :=
  [.host (seg0 m ρ), .host (seg1 m ρ), .region (reg0X m ρ), .host (seg2X m ρ)]

/-- The end, read against a final state. -/
theorem read_end (c : Dev nD) (s' : Phys nD τ sig (Elt F)) :
    (iprop(StableHlo.held (c : Thread nD τ) (Pipeline.ucRefs τ sig) (StableHlo.after hostOps1 (Wfin m ρ c)) ∗ SI s') : sProp 𝕄)
      ⊢ iprop(⌜s'.mem.mem ((c : Thread nD τ).loc main_v14) = StableHlo.after hostOps1 (Wfin m ρ c) (Proc.devRef .tc main_v14)
          ∧ s'.mem.mem ((c : Thread nD τ).loc main_arg0) = m ((c : Thread nD τ).loc main_arg0)
          ∧ s'.mem.mem ((c : Thread nD τ).loc main_arg1) = m ((c : Thread nD τ).loc main_arg1)⌝ ∗ SI s') := by
  unfold StableHlo.held
  refine (pointsTo_read_all (Pipeline.ucRefs τ sig) (fun b => ((c : Thread nD τ).1, b)) (fun b => StableHlo.after hostOps1 (Wfin m ρ c) b) s').trans ?_
  refine sep_mono (Laws.pure_mono fun hr => ?_) .rfl
  refine ⟨hr (Proc.devRef .tc main_v14) (Finset.mem_filter.mpr ⟨StableHlo.devRef_mem_tcRefs _, by decide⟩), ?_, ?_⟩
  · refine (hr (Proc.devRef .tc main_arg0) (Finset.mem_filter.mpr ⟨StableHlo.devRef_mem_tcRefs _, by decide⟩)).trans ?_
    rw [tail_arg0]; unfold Wfin
    exact (Wout_other m ρ c _ _ main_arg0 (by decide) (by decide)).trans (V₂_arg0 m ρ c)
  · refine (hr (Proc.devRef .tc main_arg1) (Finset.mem_filter.mpr ⟨StableHlo.devRef_mem_tcRefs _, by decide⟩)).trans ?_
    rw [tail_arg1]; unfold Wfin
    exact (Wout_other m ρ c _ _ main_arg1 (by decide) (by decide)).trans (V₂_arg1 m ρ c)

/-- What the run ends with: the loss buffer at the final reduction's value of the two result arrays, the arguments
    as launched. -/
def QV : PUnit × MemSt nD τ sig (Elt F) → Prop := fun r =>
  ∀ c : Dev nD, r.2.mem ((c : Thread nD τ).loc main_v14) = StableHlo.after hostOps1 (Wfin m ρ c) (Proc.devRef .tc main_v14)
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
theorem run_value : θ_run defs (onTc (τ := τ) (main (F := F))) (s₀ m ρ) (QV m ρ) :=
  Pipeline.θ_run_regions_kit (pcfgs (F := F)) adm (datsX m ρ) () cellOf_inj EP defs₀ 𝒱₀ L lv m ρ main (segsX m ρ)
    (fun c Q => by rw [main_chain, Pipeline.Seg.run_eq_chain]; exact .rfl)
    (by exact List.nodup_singleton (0 : Fin 1)) (O₀ := 0) (hL := fun _ _ => rfl) (G := fun _ => iprop(emp)) (u₀ := u₀)
    (hu₀ := by
      unfold u₀
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (StableHlo.after hostOps1 (Wfin m ρ c)))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v14) = StableHlo.after hostOps1 (Wfin m ρ c) (Proc.devRef .tc main_v14)
      ∧ s.mem ((c : Thread nD τ).loc main_arg0) = m ((c : Thread nD τ).loc main_arg0)
      ∧ s.mem ((c : Thread nD τ).loc main_arg1) = m ((c : Thread nD τ).loc main_arg1))
    (hfin := fun c s' => by
      iintro ⟨Hh, HSI⟩
      have hr := read_end m ρ c s'
      imodintro
      iapply hr
      isplitl [Hh] <;> iassumption)
    (hQ := fun _ h => h)

end Cert.KernelIdeal.ValueRun

end
-- ==== Proof.Algebraic.lean ====
/-
  The value claim: the idealized kernel and the idealized reference end with equal results.

  The kernel's run ends with its result buffer at the final reduction of the two per-row arrays the region built; by the
  per-row results those arrays are, row by row, the reference's mean log-probability and validity flag, so the final
  reduction is the reference's loss formula, which is what the reference's run ends with — at arguments that agree.
  The precondition gives what the per-row results need: every entry a real, every row of positive squared norm.
-/
import proofs.«127494_j85907935854913_2_alg».proof.Defs
import proofs.«127494_j85907935854913_2_alg».proof.Proof.KernelIdealRows
import proofs.«127494_j85907935854913_2_alg».proof.Proof.KernelIdealValueRun
import proofs.«127494_j85907935854913_2_alg».proof.Proof.RefPre
import proofs.«127494_j85907935854913_2_alg».proof.Proof.RefRunP
import proofs.«127494_j85907935854913_2_alg».proof.Proof.Gen.Pre_finite_inputs
import proofs.«127494_j85907935854913_2_alg».proof.Proof.Gen.KernelIdeal
import proofs.«127494_j85907935854913_2_alg».proof.Proof.Gen.ReferenceIdeal

noncomputable section

namespace Cert.Proof.Alg

open Idealize.ShloMosaic Idealize.ShloMosaic.TcCoe Idealize.SL.Sem Idealize.ShloMosaic.ValueIdx
open Cert.KernelIdeal.ValueRun (run_value Wfin)
open Cert.KernelIdeal.HostReads (xOf labOf tail_apply res0 res1 outOf)
open Cert.KernelIdeal.Frame (Wout_v6_0 Wout_v6_1)
open scoped BigOperators

set_option maxHeartbeats 2000000 in
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => StableHlo.after (Cert.KernelIdeal.Gen.hostOps1 (F := Ideal)) (Wfin m ρ c) (Proc.devRef .tc Cert.KernelIdeal.main_v14), ?_, ?_⟩
  · exact run_value (F := Ideal) m ρ
  · refine (θ_run (Cert.ReferenceIdeal.defs (F := Ideal)) _ _).mono (fun r h c => ⟨(h c).1.trans ?_, (h c).2⟩)
      (Cert.ReferenceIdeal.ValueP.run (F := Ideal) m' ρ')
    funext i
    rw [Cert.ReferenceIdeal.RefValue.res_eq, (hagree c).1, (hagree c).2]
    show _ = outOf (Wfin m ρ c) i
    rw [tail_apply]
    obtain ⟨hfin, hpos⟩ := @Cert.Pre.Decode.decode Cert.Pre_finite_inputs.Gen.facts (xOf m c) (labOf m c) (hpre c)
    have hx := Cert.ReferenceIdeal.RefReal.xrOf_spec (xOf m c) hfin
    have h4 : ∀ r : Fin 8192, res0 (Wfin m ρ c) (ix2 r (0 : Fin 1)) = Cert.ReferenceIdeal.RefValue.mlpp (xOf m c) (labOf m c) r := fun r => by
      show Wfin m ρ c (Proc.devRef .tc Cert.KernelIdeal.main_v6_0) (ix2 r (0 : Fin 1)) = _
      unfold Wfin
      rw [Wout_v6_0]
      exact Cert.KernelIdeal.Rows.res4_row m ρ c (Cert.ReferenceIdeal.RefReal.xrOf (xOf m c)) hx hpos r
    have h5 : ∀ r : Fin 8192, res1 (Wfin m ρ c) (ix2 r (0 : Fin 1)) = Cert.ReferenceIdeal.RefValue.valid (labOf m c) r := fun r => by
      show Wfin m ρ c (Proc.devRef .tc Cert.KernelIdeal.main_v6_1) (ix2 r (0 : Fin 1)) = _
      unfold Wfin
      rw [Wout_v6_1]
      exact Cert.KernelIdeal.Rows.res5_row m ρ c r
    simp only [h4, h5]
    rfl

end Cert.Proof.Alg

end
-- ==== Proof.lean ====
/-
  A supervised-contrastive loss: the kernel against its reference, as extended reals.

  Both programs divide each row of the features by its Euclidean norm, form the inner products s(r,c) of the
  normalised rows, and for each row r average, over the other rows c with r's label, the log-probability
  sim(r,c) − shift − log(Σ_{c' ≠ r} exp(sim(r,c') − shift) + ε), where sim is s scaled by the inverse temperature.
  The reference divides s by the temperature D and shifts by the row's maximum; the kernel multiplies s by a constant
  and shifts by that same constant, walking each row's columns in sixteen tiles of 512 with three running sums
  (the exponentials, the count of equal labels, the equal-label similarities), taking the row's own column back out
  in the tile that holds it. Because ε stands INSIDE the logarithm the shift does not cancel: the two agree exactly
  when the kernel's constant is 1/D — it is so NAMED in the statement, 134217728/9395241 being the reciprocal of the
  temperature's own binary value — and the row maximum is 1/D too, which is Cauchy–Schwarz for unit rows: s(r,r) = 1
  and s(r,c) ≤ 1. The rows are unit rows because every row has a nonzero entry (the precondition's second conjunct;
  at a zero row the reference's quotient is 0/0).

  How the proof goes. The three frames: the kernel program and its idealization by the launch of @main as four
  segments (two stretches of host operations, the region, the final reduction), the region's two feature windows
  sharing one array at half shares each; the reference by its run read back. The idealization's ledger: the one
  constant named three times. The value claim: the idealized kernel's run is taken again with exact proof data — the
  three accumulators' contents point by point, the two per-row results written at each row tile's last column step —
  so that its result buffer is the final reduction of the two per-row arrays; row by row those arrays are the
  reference's mean log-probability and validity flag (the block reads, the payloads read at an index, the sixteen
  guarded column steps summed by the tile-sum law, then the row law, with the row maximum equal to 1/D); and the
  reference's result, read stage by stage, is the same final reduction of the same two per-row quantities.
-/
import proofs.«127494_j85907935854913_2_alg».proof.Defs
import proofs.«127494_j85907935854913_2_alg».proof.Proof.Gen.Kernel
import proofs.«127494_j85907935854913_2_alg».proof.Proof.Gen.KernelIdeal
import proofs.«127494_j85907935854913_2_alg».proof.Proof.Gen.ReferenceIdeal
import proofs.«127494_j85907935854913_2_alg».proof.Proof.Gen.Pre_finite_inputs
import proofs.«127494_j85907935854913_2_alg».proof.Proof.KernelFrame
import proofs.«127494_j85907935854913_2_alg».proof.Proof.KernelIdealFrame
import proofs.«127494_j85907935854913_2_alg».proof.Proof.RefFrame
import proofs.«127494_j85907935854913_2_alg».proof.Proof.RefPre
import proofs.«127494_j85907935854913_2_alg».proof.Proof.RefReal
import proofs.«127494_j85907935854913_2_alg».proof.Proof.LibTileSum
import proofs.«127494_j85907935854913_2_alg».proof.Proof.LibKernelRow
import proofs.«127494_j85907935854913_2_alg».proof.Proof.Algebraic
import Idealize.ShloMosaic.Adequacy
import Idealize.ShloMosaic.Init

noncomputable section

namespace Cert.Proof

open Idealize.ShloMosaic Idealize.SL.Sem

/-- The kernel's inverse temperature is the reciprocal of the reference's temperature at the ideal values, by the
    certificate's table. -/
theorem named_inv_temp :
    IdealRules.named_const.Statement Cert.KernelIdeal.κ "inv_temp" .f32 0x41649249#32 ((134217728 / 9395241 : ℝ) : EReal) :=
  IdealRules.named_const.statement Cert.KernelIdeal.κ "inv_temp" .f32 0x41649249#32 ((134217728 / 9395241 : ℝ) : EReal) rfl

/-- The ledger: the same constant at its three sites (the scale, the shift, the shift's compensation). -/
theorem preserves : Cert.preserves_Kernel_KernelIdeal := ⟨named_inv_temp, named_inv_temp, named_inv_temp⟩

theorem claim : Cert.Claim := ⟨Cert.Kernel.Gen.facts, Cert.KernelIdeal.Gen.facts, Cert.ReferenceIdeal.Gen.facts, Cert.Pre_finite_inputs.Gen.facts,
  fun m ρ _ => Cert.Kernel.Frame.run_main (F := Bits) m ρ,
  fun m ρ _ => Cert.KernelIdeal.Frame.run_main (F := Ideal) m ρ,
  @Cert.Proof.Ref.frame_ri Cert.ReferenceIdeal.Gen.facts Cert.Pre_finite_inputs.Gen.facts,
  preserves,
  Cert.Proof.Alg.algebraic⟩

end Cert.Proof

end
